-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x2400000 : Shape := ⟨2, ![2, 2400000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x2 .f32) (main_arg1 : IVec S2x2400000 32) (main_arg2 : FVec F S2x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x2 : Shape := ⟨2, ![100000, 2]⟩
abbrev S2x2400000 : Shape := ⟨2, ![2, 2400000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x2400000 : Shape := ⟨2, ![1, 2400000]⟩
abbrev S2400000 : Shape := ⟨1, ![2400000]⟩
abbrev S2500000 : Shape := ⟨1, ![2500000]⟩
abbrev S_ : Shape := ⟨0, ![]⟩
abbrev S2500000x1 : Shape := ⟨2, ![2500000, 1]⟩
abbrev S100000x32 : Shape := ⟨2, ![100000, 32]⟩
abbrev S25000x2 : Shape := ⟨2, ![25000, 2]⟩
abbrev S25000x32 : Shape := ⟨2, ![25000, 32]⟩
abbrev S2500000x32 : Shape := ⟨2, ![2500000, 32]⟩
abbrev S1x32 : Shape := ⟨2, ![1, 32]⟩
abbrev S100000x1 : Shape := ⟨2, ![100000, 1]⟩
abbrev S25000x1 : Shape := ⟨2, ![25000, 1]⟩
abbrev S1x1 : Shape := ⟨2, ![1, 1]⟩

abbrev nBuf : Space → Nat
  | .hbm => 103
  | .vmem => 30
  | .smem => 0
  | _ => 0

abbrev bufTy : (tb : Table) → Fin (tcTables nBuf tb) → BufTy
  | .hbm, ⟨0, _⟩ => ⟨S100000x2, .f32⟩
  | .hbm, ⟨1, _⟩ => ⟨S2x2400000, .i32⟩
  | .hbm, ⟨2, _⟩ => ⟨S2x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x2400000, .i32⟩
  | .hbm, ⟨10, _⟩ => ⟨S2400000, .i32⟩
  | .hbm, ⟨11, _⟩ => ⟨S2500000, .i32⟩
  | .hbm, ⟨12, _⟩ => ⟨S1x2400000, .i32⟩
  | .hbm, ⟨13, _⟩ => ⟨S2400000, .i32⟩
  | .hbm, ⟨14, _⟩ => ⟨S2500000, .i32⟩
  | .hbm, ⟨15, _⟩ => ⟨S_, .f32⟩
  | .hbm, ⟨16, _⟩ => ⟨S2500000, .f32⟩
  | .hbm, ⟨17, _⟩ => ⟨S_, .f32⟩
  | .hbm, ⟨18, _⟩ => ⟨S100000, .f32⟩
  | .hbm, ⟨19, _⟩ => ⟨S2500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S2500000, .i32⟩
  | .hbm, ⟨31, _⟩ => ⟨S2500000, .i1⟩
  | .hbm, ⟨32, _⟩ => ⟨S_, .i32⟩
  | .hbm, ⟨33, _⟩ => ⟨S2500000, .i32⟩
  | .hbm, ⟨34, _⟩ => ⟨S2500000, .i32⟩
  | .hbm, ⟨35, _⟩ => ⟨S2500000, .i32⟩
  | .hbm, ⟨36, _⟩ => ⟨S2500000x1, .i32⟩
  | .hbm, ⟨37, _⟩ => ⟨S2500000, .f32⟩
  | .hbm, ⟨38, _⟩ => ⟨S_, .i32⟩
  | .hbm, ⟨39, _⟩ => ⟨S2500000, .i32⟩
  | .hbm, ⟨40, _⟩ => ⟨S2500000, .i1⟩
  | .hbm, ⟨41, _⟩ => ⟨S_, .i32⟩
  | .hbm, ⟨42, _⟩ => ⟨S2500000, .i32⟩
  | .hbm, ⟨43, _⟩ => ⟨S2500000, .i32⟩
  | .hbm, ⟨44, _⟩ => ⟨S2500000, .i32⟩
  | .hbm, ⟨45, _⟩ => ⟨S2500000x1, .i32⟩
  | .hbm, ⟨46, _⟩ => ⟨S2500000, .f32⟩
  | .hbm, ⟨47, _⟩ => ⟨S2500000, .f32⟩
  | .hbm, ⟨48, _⟩ => ⟨S2500000x1, .f32⟩
  | .hbm, ⟨49, _⟩ => ⟨S100000x32, .f32⟩
  | .hbm, ⟨50, _⟩ => ⟨S_, .i32⟩
  | .hbm, ⟨51, _⟩ => ⟨S2500000, .i32⟩
  | .hbm, ⟨52, _⟩ => ⟨S2500000, .i1⟩
  | .hbm, ⟨53, _⟩ => ⟨S_, .i32⟩
  | .hbm, ⟨54, _⟩ => ⟨S2500000, .i32⟩
  | .hbm, ⟨55, _⟩ => ⟨S2500000, .i32⟩
  | .hbm, ⟨56, _⟩ => ⟨S2500000, .i32⟩
  | .hbm, ⟨57, _⟩ => ⟨S2500000x1, .i32⟩
  | .hbm, ⟨58, _⟩ => ⟨S2500000x32, .f32⟩
  | .hbm, ⟨59, _⟩ => ⟨S2500000x32, .f32⟩
  | .hbm, ⟨60, _⟩ => ⟨S2500000x32, .f32⟩
  | .hbm, ⟨61, _⟩ => ⟨S_, .f32⟩
  | .hbm, ⟨62, _⟩ => ⟨S100000x32, .f32⟩
  | .hbm, ⟨63, _⟩ => ⟨S2500000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .i32⟩
  | .hbm, ⟨69, _⟩ => ⟨S2500000, .i32⟩
  | .hbm, ⟨70, _⟩ => ⟨S2500000, .i1⟩
  | .hbm, ⟨71, _⟩ => ⟨S_, .i32⟩
  | .hbm, ⟨72, _⟩ => ⟨S2500000, .i32⟩
  | .hbm, ⟨73, _⟩ => ⟨S2500000, .i32⟩
  | .hbm, ⟨74, _⟩ => ⟨S2500000, .i32⟩
  | .hbm, ⟨75, _⟩ => ⟨S2500000x1, .i32⟩
  | .hbm, ⟨76, _⟩ => ⟨S2500000x32, .f32⟩
  | .hbm, ⟨77, _⟩ => ⟨S2500000x32, .f32⟩
  | .hbm, ⟨78, _⟩ => ⟨S2500000x32, .f32⟩
  | .hbm, ⟨79, _⟩ => ⟨S_, .f32⟩
  | .hbm, ⟨80, _⟩ => ⟨S100000x32, .f32⟩
  | .hbm, ⟨81, _⟩ => ⟨S2500000x1, .i32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x1, .f32⟩
  | .hbm, ⟨86, _⟩ => ⟨S_, .i32⟩
  | .hbm, ⟨87, _⟩ => ⟨S2500000, .i32⟩
  | .hbm, ⟨88, _⟩ => ⟨S2500000, .i1⟩
  | .hbm, ⟨89, _⟩ => ⟨S_, .i32⟩
  | .hbm, ⟨90, _⟩ => ⟨S2500000, .i32⟩
  | .hbm, ⟨91, _⟩ => ⟨S2500000, .i32⟩
  | .hbm, ⟨92, _⟩ => ⟨S2500000, .i32⟩
  | .hbm, ⟨93, _⟩ => ⟨S2500000x1, .i32⟩
  | .hbm, ⟨94, _⟩ => ⟨S2500000x1, .f32⟩
  | .hbm, ⟨95, _⟩ => ⟨S2500000x1, .f32⟩
  | .hbm, ⟨96, _⟩ => ⟨S_, .f32⟩
  | .hbm, ⟨97, _⟩ => ⟨S100000x1, .f32⟩
  | .hbm, ⟨98, _⟩ => ⟨S2500000x1, .i32⟩
  | .hbm, ⟨99, _⟩ => ⟨S100000x1, .f32⟩
  | .hbm, ⟨100, _⟩ => ⟨S1x1, .f32⟩
  | .hbm, ⟨101, _⟩ => ⟨S100000x1, .f32⟩
  | .hbm, ⟨102, _⟩ => ⟨S100000, .f32⟩
  | .local _ .vmem, ⟨0, _⟩ => ⟨S25000x2, .f32⟩
  | .local _ .vmem, ⟨1, _⟩ => ⟨S25000x2, .f32⟩
  | .local _ .vmem, ⟨2, _⟩ => ⟨S2x32, .f32⟩
  | .local _ .vmem, ⟨3, _⟩ => ⟨S25000x32, .f32⟩
  | .local _ .vmem, ⟨4, _⟩ => ⟨S25000x32, .f32⟩
  | .local _ .vmem, ⟨5, _⟩ => ⟨S25000x32, .f32⟩
  | .local _ .vmem, ⟨6, _⟩ => ⟨S25000x32, .f32⟩
  | .local _ .vmem, ⟨7, _⟩ => ⟨S1x32, .f32⟩
  | .local _ .vmem, ⟨8, _⟩ => ⟨S25000x32, .f32⟩
  | .local _ .vmem, ⟨9, _⟩ => ⟨S25000x32, .f32⟩
  | .local _ .vmem, ⟨10, _⟩ => ⟨S25000x32, .f32⟩
  | .local _ .vmem, ⟨11, _⟩ => ⟨S25000x32, .f32⟩
  | .local _ .vmem, ⟨12, _⟩ => ⟨S32x32, .f32⟩
  | .local _ .vmem, ⟨13, _⟩ => ⟨S25000x32, .f32⟩
  | .local _ .vmem, ⟨14, _⟩ => ⟨S25000x32, .f32⟩
  | .local _ .vmem, ⟨15, _⟩ => ⟨S25000x32, .f32⟩
  | .local _ .vmem, ⟨16, _⟩ => ⟨S25000x32, .f32⟩
  | .local _ .vmem, ⟨17, _⟩ => ⟨S1x32, .f32⟩
  | .local _ .vmem, ⟨18, _⟩ => ⟨S25000x32, .f32⟩
  | .local _ .vmem, ⟨19, _⟩ => ⟨S25000x32, .f32⟩
  | .local _ .vmem, ⟨20, _⟩ => ⟨S25000x32, .f32⟩
  | .local _ .vmem, ⟨21, _⟩ => ⟨S25000x32, .f32⟩
  | .local _ .vmem, ⟨22, _⟩ => ⟨S32x1, .f32⟩
  | .local _ .vmem, ⟨23, _⟩ => ⟨S25000x1, .f32⟩
  | .local _ .vmem, ⟨24, _⟩ => ⟨S25000x1, .f32⟩
  | .local _ .vmem, ⟨25, _⟩ => ⟨S25000x1, .f32⟩
  | .local _ .vmem, ⟨26, _⟩ => ⟨S25000x1, .f32⟩
  | .local _ .vmem, ⟨27, _⟩ => ⟨S1x1, .f32⟩
  | .local _ .vmem, ⟨28, _⟩ => ⟨S25000x1, .f32⟩
  | .local _ .vmem, ⟨29, _⟩ => ⟨S25000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S25000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S25000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S25000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S25000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S25000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S25000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S25000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S25000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x2400000_S1x2400000_0_0 : S2x2400000.Slices ![0, 0] S1x2400000
  shapeCasts_S1x2400000_S2400000 : S1x2400000.ShapeCasts S2400000
  concatenates_S2400000_S100000_S2500000_d0 : Shape.Concatenates [S2400000, S100000] S2500000 0
  slices_S2x2400000_S1x2400000_1_0 : S2x2400000.Slices ![1, 0] S1x2400000
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  inb_S25000x2_S25000x2_0_0 : ∀ a, (![0, 0] : Fin 2 → Nat) a + S25000x2.size a ≤ S25000x2.size a
  h_S25000x2 : 0 < S25000x2.numel
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S25000x32_S25000x32_0_0 : ∀ a, (![0, 0] : Fin 2 → Nat) a + S25000x32.size a ≤ S25000x32.size a
  h_S25000x32 : 0 < S25000x32.numel
  bcast_S2500000x1_S2500000x32_0_1 : S2500000x1.BroadcastsInDim S2500000x32 (![0, 1] : Fin 2 → Fin S2500000x32.rank)
  bcast_S_S100000x32 : S_.BroadcastsInDim S100000x32 (![] : Fin 0 → Fin S100000x32.rank)
  shapeCasts_S32_S1x32 : S32.ShapeCasts S1x32
  shapeCasts_S25000x32_S25000x32 : S25000x32.ShapeCasts S25000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S25000x32 : S1x32.Broadcasts S25000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S25000x1_S25000x1_0_0 : ∀ a, (![0, 0] : Fin 2 → Nat) a + S25000x1.size a ≤ S25000x1.size a
  h_S25000x1 : 0 < S25000x1.numel
  bcast_S_S100000x1 : S_.BroadcastsInDim S100000x1 (![] : Fin 0 → Fin S100000x1.rank)
  shapeCasts_S1_S1x1 : S1.ShapeCasts S1x1
  shapeCasts_S25000x1_S25000x1 : S25000x1.ShapeCasts S25000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S25000x1 : S1x1.Broadcasts S25000x1
  shapeCasts_S100000x1_S100000 : S100000x1.ShapeCasts S100000
  scatter_S100000_S2500000x1_S2500000_n_0_0_1_wf : ScatterDims.WF S100000 S2500000x1 S2500000 [] [0] [0] 1
  gather_S100000_S2500000x1_S2500000_n_0_n_n_0_1_1_wf : GatherDims.WF S100000 S2500000x1 S2500000 [] [0] [] [0] [] 1 ![1]
  dot_S25000x2_S2x32_S25000x32_1_0_0_1_n_n_wf : DotDims.WF S25000x2 S2x32 S25000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S25000x32_S32x32_S25000x32_1_0_0_1_n_n_wf : DotDims.WF S25000x32 S32x32 S25000x32 [1] [0] [0] [1] [] []
  dot_S25000x32_S32x1_S25000x1_1_0_0_1_n_n_wf : DotDims.WF S25000x32 S32x1 S25000x1 [1] [0] [0] [1] [] []
  gather_S100000x1_S2500000x1_S2500000x1_1_0_n_n_0_1_11_wf : GatherDims.WF S100000x1 S2500000x1 S2500000x1 [1] [0] [] [0] [] 1 ![1, 1]
  scatter_S100000x1_S2500000x1_S2500000x1_1_0_0_1_wf : ScatterDims.WF S100000x1 S2500000x1 S2500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x2.size a ≤ S100000x2.size a
  hwx0_0 : ∀ i : grid0.Coords, EltTy.bits .f32 = 32 ∨ (Rect.block (s := S100000x2) S25000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x32.size a ≤ S100000x32.size a
  hwx0_2 : ∀ i : grid0.Coords, EltTy.bits .f32 = 32 ∨ (Rect.block (s := S100000x32) S25000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x32.size a ≤ S100000x32.size a
  hwx1_0 : ∀ i : grid1.Coords, EltTy.bits .f32 = 32 ∨ (Rect.block (s := S100000x32) S25000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25000x32.size a ≤ S100000x32.size a
  hwx1_2 : ∀ i : grid1.Coords, EltTy.bits .f32 = 32 ∨ (Rect.block (s := S100000x32) S25000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x32.size a ≤ S100000x32.size a
  hwx2_0 : ∀ i : grid2.Coords, EltTy.bits .f32 = 32 ∨ (Rect.block (s := S100000x32) S25000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S25000x32.size a ≤ S100000x32.size a
  hwx2_2 : ∀ i : grid2.Coords, EltTy.bits .f32 = 32 ∨ (Rect.block (s := S100000x32) S25000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S25000x32.size a ≤ S100000x32.size a
  hwx3_0 : ∀ i : grid3.Coords, EltTy.bits .f32 = 32 ∨ (Rect.block (s := S100000x32) S25000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S25000x32.size a ≤ S100000x32.size a
  hwx3_2 : ∀ i : grid3.Coords, EltTy.bits .f32 = 32 ∨ (Rect.block (s := S100000x32) S25000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S25000x32.size a ≤ S100000x32.size a
  hwx4_0 : ∀ i : grid4.Coords, EltTy.bits .f32 = 32 ∨ (Rect.block (s := S100000x32) S25000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S25000x1.size a ≤ S100000x1.size a
  hwx4_2 : ∀ i : grid4.Coords, EltTy.bits .f32 = 32 ∨ (Rect.block (s := S100000x1) S25000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S25000x1.size a ≤ S100000x1.size a
  hwx5_0 : ∀ i : grid5.Coords, EltTy.bits .f32 = 32 ∨ (Rect.block (s := S100000x1) S25000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S25000x1.size a ≤ S100000x1.size a
  hwx5_2 : ∀ i : grid5.Coords, EltTy.bits .f32 = 32 ∨ (Rect.block (s := S100000x1) S25000x1.size (cc5_transform_2 i) (hinb5_2 i)).WholeWords (EltTy.packing .f32)

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000_S2500000x1_S2500000_n_0_n_n_0_1_1 : GatherDims S100000 S2500000x1 S2500000 where
  offsetDims := []
  collapsedSliceDims := [0]
  operandBatchingDims := []
  startIndicesBatchingDims := []
  startIndexMap := [0]
  indexVectorDim := 1
  sliceSizes := ![1]
  wf := gather_S100000_S2500000x1_S2500000_n_0_n_n_0_1_1_wf
def dot_S25000x2_S2x32_S25000x32_1_0_0_1_n_n : DotDims S25000x2 S2x32 S25000x32 where
  lhsContracting := [1]
  rhsContracting := [0]
  lhsNonContracting := [0]
  rhsNonContracting := [1]
  lhsBatch := []
  rhsBatch := []
  wf := dot_S25000x2_S2x32_S25000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S25000x32_S32x32_S25000x32_1_0_0_1_n_n : DotDims S25000x32 S32x32 S25000x32 where
  lhsContracting := [1]
  rhsContracting := [0]
  lhsNonContracting := [0]
  rhsNonContracting := [1]
  lhsBatch := []
  rhsBatch := []
  wf := dot_S25000x32_S32x32_S25000x32_1_0_0_1_n_n_wf
def dot_S25000x32_S32x1_S25000x1_1_0_0_1_n_n : DotDims S25000x32 S32x1 S25000x1 where
  lhsContracting := [1]
  rhsContracting := [0]
  lhsNonContracting := [0]
  rhsNonContracting := [1]
  lhsBatch := []
  rhsBatch := []
  wf := dot_S25000x32_S32x1_S25000x1_1_0_0_1_n_n_wf
def gather_S100000x1_S2500000x1_S2500000x1_1_0_n_n_0_1_11 : GatherDims S100000x1 S2500000x1 S2500000x1 where
  offsetDims := [1]
  collapsedSliceDims := [0]
  operandBatchingDims := []
  startIndicesBatchingDims := []
  startIndexMap := [0]
  indexVectorDim := 1
  sliceSizes := ![1, 1]
  wf := gather_S100000x1_S2500000x1_S2500000x1_1_0_n_n_0_1_11_wf
def scatter_S100000x1_S2500000x1_S2500000x1_1_0_0_1 : ScatterDims S100000x1 S2500000x1 S2500000x1 where
  updateWindowDims := [1]
  insertedWindowDims := [0]
  scatterDimsToOperandDims := [0]
  indexVectorDim := 1
  wf := scatter_S100000x1_S2500000x1_S2500000x1_1_0_0_1_wf

abbrev win0_0 : Pipeline.Window sig grid0 :=
  Pipeline.Window.ofSpec (Memref.whole main_arg0) S25000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S25000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S25000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S25000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S25000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S25000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S25000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S25000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S25000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S25000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S25000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S25000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x2 : Shape := ⟨2, ![100000, 2]⟩
abbrev S2x2400000 : Shape := ⟨2, ![2, 2400000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x2400000 : Shape := ⟨2, ![1, 2400000]⟩
abbrev S2400000 : Shape := ⟨1, ![2400000]⟩
abbrev S2500000 : Shape := ⟨1, ![2500000]⟩
abbrev S_ : Shape := ⟨0, ![]⟩
abbrev S2500000x1 : Shape := ⟨2, ![2500000, 1]⟩
abbrev S100000x32 : Shape := ⟨2, ![100000, 32]⟩
abbrev S2500000x32 : Shape := ⟨2, ![2500000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x2400000, .i32⟩
  | .hbm, ⟨2, _⟩ => ⟨S2x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x2400000, .i32⟩
  | .hbm, ⟨10, _⟩ => ⟨S2400000, .i32⟩
  | .hbm, ⟨11, _⟩ => ⟨S2500000, .i32⟩
  | .hbm, ⟨12, _⟩ => ⟨S1x2400000, .i32⟩
  | .hbm, ⟨13, _⟩ => ⟨S2400000, .i32⟩
  | .hbm, ⟨14, _⟩ => ⟨S2500000, .i32⟩
  | .hbm, ⟨15, _⟩ => ⟨S_, .f32⟩
  | .hbm, ⟨16, _⟩ => ⟨S2500000, .f32⟩
  | .hbm, ⟨17, _⟩ => ⟨S_, .f32⟩
  | .hbm, ⟨18, _⟩ => ⟨S100000, .f32⟩
  | .hbm, ⟨19, _⟩ => ⟨S2500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S2500000, .i32⟩
  | .hbm, ⟨31, _⟩ => ⟨S2500000, .i1⟩
  | .hbm, ⟨32, _⟩ => ⟨S_, .i32⟩
  | .hbm, ⟨33, _⟩ => ⟨S2500000, .i32⟩
  | .hbm, ⟨34, _⟩ => ⟨S2500000, .i32⟩
  | .hbm, ⟨35, _⟩ => ⟨S2500000, .i32⟩
  | .hbm, ⟨36, _⟩ => ⟨S2500000x1, .i32⟩
  | .hbm, ⟨37, _⟩ => ⟨S2500000, .f32⟩
  | .hbm, ⟨38, _⟩ => ⟨S_, .i32⟩
  | .hbm, ⟨39, _⟩ => ⟨S2500000, .i32⟩
  | .hbm, ⟨40, _⟩ => ⟨S2500000, .i1⟩
  | .hbm, ⟨41, _⟩ => ⟨S_, .i32⟩
  | .hbm, ⟨42, _⟩ => ⟨S2500000, .i32⟩
  | .hbm, ⟨43, _⟩ => ⟨S2500000, .i32⟩
  | .hbm, ⟨44, _⟩ => ⟨S2500000, .i32⟩
  | .hbm, ⟨45, _⟩ => ⟨S2500000x1, .i32⟩
  | .hbm, ⟨46, _⟩ => ⟨S2500000, .f32⟩
  | .hbm, ⟨47, _⟩ => ⟨S2500000, .f32⟩
  | .hbm, ⟨48, _⟩ => ⟨S2500000x1, .f32⟩
  | .hbm, ⟨49, _⟩ => ⟨S100000x32, .f32⟩
  | .hbm, ⟨50, _⟩ => ⟨S_, .i32⟩
  | .hbm, ⟨51, _⟩ => ⟨S2500000, .i32⟩
  | .hbm, ⟨52, _⟩ => ⟨S2500000, .i1⟩
  | .hbm, ⟨53, _⟩ => ⟨S_, .i32⟩
  | .hbm, ⟨54, _⟩ => ⟨S2500000, .i32⟩
  | .hbm, ⟨55, _⟩ => ⟨S2500000, .i32⟩
  | .hbm, ⟨56, _⟩ => ⟨S2500000, .i32⟩
  | .hbm, ⟨57, _⟩ => ⟨S2500000x1, .i32⟩
  | .hbm, ⟨58, _⟩ => ⟨S2500000x32, .f32⟩
  | .hbm, ⟨59, _⟩ => ⟨S2500000x32, .f32⟩
  | .hbm, ⟨60, _⟩ => ⟨S2500000x32, .f32⟩
  | .hbm, ⟨61, _⟩ => ⟨S_, .f32⟩
  | .hbm, ⟨62, _⟩ => ⟨S100000x32, .f32⟩
  | .hbm, ⟨63, _⟩ => ⟨S2500000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S2500000, .i32⟩
  | .hbm, ⟨74, _⟩ => ⟨S2500000, .i1⟩
  | .hbm, ⟨75, _⟩ => ⟨S_, .i32⟩
  | .hbm, ⟨76, _⟩ => ⟨S2500000, .i32⟩
  | .hbm, ⟨77, _⟩ => ⟨S2500000, .i32⟩
  | .hbm, ⟨78, _⟩ => ⟨S2500000, .i32⟩
  | .hbm, ⟨79, _⟩ => ⟨S2500000x1, .i32⟩
  | .hbm, ⟨80, _⟩ => ⟨S2500000x32, .f32⟩
  | .hbm, ⟨81, _⟩ => ⟨S2500000x32, .f32⟩
  | .hbm, ⟨82, _⟩ => ⟨S2500000x32, .f32⟩
  | .hbm, ⟨83, _⟩ => ⟨S_, .f32⟩
  | .hbm, ⟨84, _⟩ => ⟨S100000x32, .f32⟩
  | .hbm, ⟨85, _⟩ => ⟨S2500000x1, .i32⟩
  | .hbm, ⟨86, _⟩ => ⟨S100000x32, .f32⟩
  | .hbm, ⟨87, _⟩ => ⟨S1x32, .f32⟩
  | .hbm, ⟨88, _⟩ => ⟨S100000x32, .f32⟩
  | .hbm, ⟨89, _⟩ => ⟨S100000x32, .f32⟩
  | .hbm, ⟨90, _⟩ => ⟨S_, .f32⟩
  | .hbm, ⟨91, _⟩ => ⟨S100000x32, .f32⟩
  | .hbm, ⟨92, _⟩ => ⟨S100000x32, .f32⟩
  | .hbm, ⟨93, _⟩ => ⟨S100000x1, .f32⟩
  | .hbm, ⟨94, _⟩ => ⟨S_, .i32⟩
  | .hbm, ⟨95, _⟩ => ⟨S2500000, .i32⟩
  | .hbm, ⟨96, _⟩ => ⟨S2500000, .i1⟩
  | .hbm, ⟨97, _⟩ => ⟨S_, .i32⟩
  | .hbm, ⟨98, _⟩ => ⟨S2500000, .i32⟩
  | .hbm, ⟨99, _⟩ => ⟨S2500000, .i32⟩
  | .hbm, ⟨100, _⟩ => ⟨S2500000, .i32⟩
  | .hbm, ⟨101, _⟩ => ⟨S2500000x1, .i32⟩
  | .hbm, ⟨102, _⟩ => ⟨S2500000x1, .f32⟩
  | .hbm, ⟨103, _⟩ => ⟨S2500000x1, .f32⟩
  | .hbm, ⟨104, _⟩ => ⟨S_, .f32⟩
  | .hbm, ⟨105, _⟩ => ⟨S100000x1, .f32⟩
  | .hbm, ⟨106, _⟩ => ⟨S2500000x1, .i32⟩
  | .hbm, ⟨107, _⟩ => ⟨S100000x1, .f32⟩
  | .hbm, ⟨108, _⟩ => ⟨S1x1, .f32⟩
  | .hbm, ⟨109, _⟩ => ⟨S100000x1, .f32⟩
  | .hbm, ⟨110, _⟩ => ⟨S100000x1, .f32⟩
  | .hbm, ⟨111, _⟩ => ⟨S100000, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x2400000_S1x2400000_0_0 : S2x2400000.Slices ![0, 0] S1x2400000
  shapeCasts_S1x2400000_S2400000 : S1x2400000.ShapeCasts S2400000
  concatenates_S2400000_S100000_S2500000_d0 : Shape.Concatenates [S2400000, S100000] S2500000 0
  slices_S2x2400000_S1x2400000_1_0 : S2x2400000.Slices ![1, 0] S1x2400000
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S2500000x1_S2500000x32_0_1 : S2500000x1.BroadcastsInDim S2500000x32 (![0, 1] : Fin 2 → Fin S2500000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S2500000x1_S2500000_n_0_0_1_wf : ScatterDims.WF S100000 S2500000x1 S2500000 [] [0] [0] 1
  gather_S100000_S2500000x1_S2500000_n_0_n_n_0_1_1_wf : GatherDims.WF S100000 S2500000x1 S2500000 [] [0] [] [0] [] 1 ![1]
  dot_S100000x2_S2x32_S100000x32_1_0_0_1_n_n_wf : DotDims.WF S100000x2 S2x32 S100000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []
  gather_S100000x1_S2500000x1_S2500000x1_1_0_n_n_0_1_11_wf : GatherDims.WF S100000x1 S2500000x1 S2500000x1 [1] [0] [] [0] [] 1 ![1, 1]
  scatter_S100000x1_S2500000x1_S2500000x1_1_0_0_1_wf : ScatterDims.WF S100000x1 S2500000x1 S2500000x1 [1] [0] [0] 1

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000_S2500000x1_S2500000_n_0_n_n_0_1_1 : GatherDims S100000 S2500000x1 S2500000 where
  offsetDims := []
  collapsedSliceDims := [0]
  operandBatchingDims := []
  startIndicesBatchingDims := []
  startIndexMap := [0]
  indexVectorDim := 1
  sliceSizes := ![1]
  wf := gather_S100000_S2500000x1_S2500000_n_0_n_n_0_1_1_wf
def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S2500000x1_S2500000x1_1_0_n_n_0_1_11 : GatherDims S100000x1 S2500000x1 S2500000x1 where
  offsetDims := [1]
  collapsedSliceDims := [0]
  operandBatchingDims := []
  startIndicesBatchingDims := []
  startIndexMap := [0]
  indexVectorDim := 1
  sliceSizes := ![1, 1]
  wf := gather_S100000x1_S2500000x1_S2500000x1_1_0_n_n_0_1_11_wf
def scatter_S100000x1_S2500000x1_S2500000x1_1_0_0_1 : ScatterDims S100000x1 S2500000x1 S2500000x1 where
  updateWindowDims := [1]
  insertedWindowDims := [0]
  scatterDimsToOperandDims := [0]
  indexVectorDim := 1
  wf := scatter_S100000x1_S2500000x1_S2500000x1_1_0_0_1_wf

class Facts : Prop extends Facts₀ where

variable [Facts]
-- ==== Proof.KernelRun.lean ====
/-
  The idealized kernel's whole run, with the result kept.

  The program is six pipelined regions among stretches of host operations. Its run ends with every unscoped buffer at
  the last boundary's contents: the fold of the host stretches and the regions' write-backs from the launch memory. Read
  at the result buffer this says what the program returns; read at an argument it is the launch contents.
-/
import proofs.«169840_j11390253269707_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v75) = W13 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v75 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.Whole

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.LibBiasRect.lean ====
/-
  A bias row added to every row of an array, then rectified (`relu (a + b)`), on the extended reals, for any extents.

  `biasRect a b` is the array whose entry `(p, q)` is `max (a[p,q] + b[0,q]) 0` for a one-row bias `b : [1, c]`;
  `rectified a b` is the same with the bias a vector `b : [c]`. A block of rows of `biasRect a b` is `biasRect` of that
  block of `a` with the same bias row (`biasRect_congr`). The vector form is reached from the row form when the row
  is a recast vector (`biasRect_cast`), and it is what the host spells as a `maximum` of a sum with the vector spread
  `[c] → [1, c] → [n, c]` against a spread zero (`host_rectified`). The zero stays the word `0x00000000` read as a float.
-/
import Idealize.ShloMosaic.Lib.ValueIdx
import Idealize.ShloMosaic.Lib.ValueLayout
import Idealize.ShloMosaic.PureOps.Ideal.Laws
import proofs.«169840_j11390253269707_1_alg».proof.Proof.LibBcastChain

noncomputable section

namespace Cert.Lib.BiasRect

open Idealize.ShloMosaic Idealize.ShloMosaic.ValueIdx

/-- A one-row bias added to every row, then the maximum with zero: entry `(p, q)` is `max (a[p,q] + b[0,q]) 0`. -/
def biasRect {n c : ℕ} (a : (⟨2, ![n, c]⟩ : Shape).Idx → EReal) (b : (⟨2, ![1, c]⟩ : Shape).Idx → EReal) :
    (⟨2, ![n, c]⟩ : Shape).Idx → EReal :=
  fun j => max (a j + b (ix2 (0 : Fin 1) (j 1))) (Ideal.ofBits .f32 0x00000000#32)

/-- The same with the bias a vector: entry `(p, q)` is `max (a[p,q] + b[q]) 0`. -/
def rectified {n c : ℕ} (a : (⟨2, ![n, c]⟩ : Shape).Idx → EReal) (b : (⟨1, ![c]⟩ : Shape).Idx → EReal) :
    (⟨2, ![n, c]⟩ : Shape).Idx → EReal :=
  fun j => max (a j + b (ix1 (j 1))) (Ideal.ofBits .f32 0x00000000#32)

/-- Two such arrays agree at two indices when the entries read there agree: the array's entry and the bias entry of
    the same column. In particular a block of rows of `biasRect a b` is `biasRect` of the block with the same bias. -/
theorem biasRect_congr {n n' c c' : ℕ} (a : (⟨2, ![n, c]⟩ : Shape).Idx → EReal) (b : (⟨2, ![1, c]⟩ : Shape).Idx → EReal)
    (a' : (⟨2, ![n', c']⟩ : Shape).Idx → EReal) (b' : (⟨2, ![1, c']⟩ : Shape).Idx → EReal)
    (j' : (⟨2, ![n', c']⟩ : Shape).Idx) (j : (⟨2, ![n, c]⟩ : Shape).Idx)
    (ha : a' j' = a j) (hb : b' (ix2 (0 : Fin 1) (j' 1)) = b (ix2 (0 : Fin 1) (j 1))) :
    biasRect a' b' j' = biasRect a b j := by
  unfold biasRect
  rw [ha, hb]

/-- With the bias row a recast vector the row form is the vector form. -/
theorem biasRect_cast {n c : ℕ} (a : (⟨2, ![n, c]⟩ : Shape).Idx → EReal) (b : (⟨1, ![c]⟩ : Shape).Idx → EReal)
    (h : (⟨1, ![c]⟩ : Shape).ShapeCasts ⟨2, ![1, c]⟩) :
    biasRect a (shapeCast ⟨2, ![1, c]⟩ b h) = rectified a b := by
  funext j
  unfold biasRect rectified
  rw [shapeCast_a_1a_apply b h (0 : Fin 1) (j 1)]

/-- The host's spelling: the vector spread over the rows by two `broadcast_in_dim`s, added, and the maximum taken with
    a zero spread from a scalar. -/
theorem host_rectified {n c : ℕ} (a : FVec Ideal ⟨2, ![n, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1])
    (h0 : (⟨0, ![]⟩ : Shape).BroadcastsInDim ⟨2, ![n, c]⟩ ![]) :
    maximumf (addf a (broadcastInDim ⟨2, ![n, c]⟩ ![0, 1] h4 (broadcastInDim ⟨2, ![1, c]⟩ ![1] h3 b)))
      (broadcastInDim ⟨2, ![n, c]⟩ ![] h0 (constant (F := Ideal) ⟨0, ![]⟩ .f32 0x00000000#32)) = rectified a b := by
  funext j
  obtain ⟨p, q, rfl⟩ : ∃ (p : Fin n) (q : Fin c), j = ix2 p q := ⟨j 0, j 1, eq_ix2 j⟩
  rw [maximumf_apply, addf_apply, Cert.Lib.BcastChain.overRows_apply b h3 h4 p q,
    Cert.Lib.BcastChain.overAll_apply _ _ h0 (ix2 p q), constant_apply]
  rfl

end Cert.Lib.BiasRect

end
-- ==== Proof.LibBiasRow.lean ====
/-
  A bias row added to every row of an array (`a + b`, no rectification), on the extended reals, for any extents.

  `biasRow a b` is the array whose entry `(p, q)` is `a[p,q] + b[0,q]` for a one-row bias `b : [1, c]`;
  `biased a b` is the same with the bias a vector `b : [c]`. A block of rows of `biasRow a b` is `biasRow` of that
  block of `a` with the same bias row (`biasRow_congr`). The vector form is reached from the row form when the row
  is a recast vector (`biasRow_cast`), and it is what the host spells as a sum with the vector spread
  `[c] → [1, c] → [n, c]` (`host_biased`).
-/
import Idealize.ShloMosaic.Lib.ValueIdx
import Idealize.ShloMosaic.Lib.ValueLayout
import Idealize.ShloMosaic.PureOps.Ideal.Laws
import proofs.«169840_j11390253269707_1_alg».proof.Proof.LibBcastChain

noncomputable section

namespace Cert.Lib.BiasRow

open Idealize.ShloMosaic Idealize.ShloMosaic.ValueIdx

/-- A one-row bias added to every row: entry `(p, q)` is `a[p,q] + b[0,q]`. -/
def biasRow {n c : ℕ} (a : (⟨2, ![n, c]⟩ : Shape).Idx → EReal) (b : (⟨2, ![1, c]⟩ : Shape).Idx → EReal) :
    (⟨2, ![n, c]⟩ : Shape).Idx → EReal :=
  fun j => a j + b (ix2 (0 : Fin 1) (j 1))

/-- The same with the bias a vector: entry `(p, q)` is `a[p,q] + b[q]`. -/
def biased {n c : ℕ} (a : (⟨2, ![n, c]⟩ : Shape).Idx → EReal) (b : (⟨1, ![c]⟩ : Shape).Idx → EReal) :
    (⟨2, ![n, c]⟩ : Shape).Idx → EReal :=
  fun j => a j + b (ix1 (j 1))

theorem biasRow_apply {n c : ℕ} (a : (⟨2, ![n, c]⟩ : Shape).Idx → EReal) (b : (⟨2, ![1, c]⟩ : Shape).Idx → EReal)
    (j : (⟨2, ![n, c]⟩ : Shape).Idx) : biasRow a b j = a j + b (ix2 (0 : Fin 1) (j 1)) := rfl

/-- Two such arrays agree at two indices when the entries read there agree: the array's entry and the bias entry of
    the same column. In particular a block of rows of `biasRow a b` is `biasRow` of the block with the same bias. -/
theorem biasRow_congr {n n' c c' : ℕ} (a : (⟨2, ![n, c]⟩ : Shape).Idx → EReal) (b : (⟨2, ![1, c]⟩ : Shape).Idx → EReal)
    (a' : (⟨2, ![n', c']⟩ : Shape).Idx → EReal) (b' : (⟨2, ![1, c']⟩ : Shape).Idx → EReal)
    (j' : (⟨2, ![n', c']⟩ : Shape).Idx) (j : (⟨2, ![n, c]⟩ : Shape).Idx)
    (ha : a' j' = a j) (hb : b' (ix2 (0 : Fin 1) (j' 1)) = b (ix2 (0 : Fin 1) (j 1))) :
    biasRow a' b' j' = biasRow a b j := by
  unfold biasRow
  rw [ha, hb]

/-- With the bias row a recast vector the row form is the vector form. -/
theorem biasRow_cast {n c : ℕ} (a : (⟨2, ![n, c]⟩ : Shape).Idx → EReal) (b : (⟨1, ![c]⟩ : Shape).Idx → EReal)
    (h : (⟨1, ![c]⟩ : Shape).ShapeCasts ⟨2, ![1, c]⟩) :
    biasRow a (shapeCast ⟨2, ![1, c]⟩ b h) = biased a b := by
  funext j
  unfold biasRow biased
  rw [shapeCast_a_1a_apply b h (0 : Fin 1) (j 1)]

/-- The host's spelling: the vector spread over the rows by two `broadcast_in_dim`s, added. -/
theorem host_biased {n c : ℕ} (a : FVec Ideal ⟨2, ![n, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1]) :
    addf a (broadcastInDim ⟨2, ![n, c]⟩ ![0, 1] h4 (broadcastInDim ⟨2, ![1, c]⟩ ![1] h3 b)) = biased a b := by
  funext j
  obtain ⟨p, q, rfl⟩ : ∃ (p : Fin n) (q : Fin c), j = ix2 p q := ⟨j 0, j 1, eq_ix2 j⟩
  rw [addf_apply, Cert.Lib.BcastChain.overRows_apply b h3 h4 p q]
  rfl

end Cert.Lib.BiasRow

end
-- ==== Proof.Spec.lean ====
/-
  The network both programs compute, as one function of the argument arrays, on the extended reals.

  A three-layer graph convolution over 100000 nodes and 2400000 edges. The edge list's two rows, each followed by
  every node's own number (the self loops), are the message sources and targets (`sources`, `targets`). A node's degree
  counts the messages it receives (`degree`: ones added at the targets); its weight is the reciprocal square root of the
  degree where that is positive and zero elsewhere (`weight`); a message's coefficient is the product of its two
  endpoints' weights (`coeff`). Start indices below zero are wrapped by the number of nodes before a row is taken
  (`wrapped`). One aggregation takes the row of each message's source, scales it by the message's coefficient and adds
  it at the message's target (`aggregate`, `aggregate1` for a one-column array). A layer multiplies the node features by
  its weight matrix, aggregates, adds the bias to every row, and (the first two layers) takes the maximum with zero.
  The result is the last layer's one column as a vector.

  The index operations keep the printed programs' own spelling (their gather, scatter and broadcast records), so that
  each program's host operations are this text read off its run; the products and the bias steps are the index-by-index
  functions `rowsByCols`, `rectified`, `biased`.
-/
import proofs.«169840_j11390253269707_1_alg».proof.Proof.Gen.KernelIdeal
import proofs.«169840_j11390253269707_1_alg».proof.Proof.LibPlainDot
import proofs.«169840_j11390253269707_1_alg».proof.Proof.LibBiasRect
import proofs.«169840_j11390253269707_1_alg».proof.Proof.LibBiasRow

noncomputable section

namespace Cert.Spec

open Cert.KernelIdeal Cert.KernelIdeal.Facts₀ Cert.KernelIdeal.Facts Idealize.ShloMosaic
open Cert.Lib.PlainDot Cert.Lib.BiasRect Cert.Lib.BiasRow

/-- Row `r` of the edge list followed by the nodes' own numbers. -/
def sources (ei : IVec S2x2400000 32) : IVec S2500000 32 :=
  concatenate S2500000 0 [⟨S2400000, shapeCast S2400000 (extractStridedSlice S1x2400000 ![0, 0] ei slices_S2x2400000_S1x2400000_0_0) shapeCasts_S1x2400000_S2400000⟩, ⟨S100000, iotaInDim S100000 32 0⟩] concatenates_S2400000_S100000_S2500000_d0

def targets (ei : IVec S2x2400000 32) : IVec S2500000 32 :=
  concatenate S2500000 0 [⟨S2400000, shapeCast S2400000 (extractStridedSlice S1x2400000 ![1, 0] ei slices_S2x2400000_S1x2400000_1_0) shapeCasts_S1x2400000_S2400000⟩, ⟨S100000, iotaInDim S100000 32 0⟩] concatenates_S2400000_S100000_S2500000_d0

/-- How many messages each node receives: a one added at every message's target. -/
def degree (d : IVec S2500000 32) : FVec Ideal S100000 .f32 :=
  Host.scatterAdd scatter_S100000_S2500000x1_S2500000_n_0_0_1
    (broadcastInDim S100000 ![] bcast_S_S100000 (constant (F := Ideal) S_ .f32 0x00000000#32))
    (broadcastInDim S2500000x1 ![0] bcast_S2500000_S2500000x1_0 d)
    (broadcastInDim S2500000 ![] bcast_S_S2500000 (constant (F := Ideal) S_ .f32 0x3F800000#32))

/-- The weight a degree gives: its reciprocal square root where it is positive, zero elsewhere. -/
def weightOf (g : FVec Ideal S100000 .f32) : FVec Ideal S100000 .f32 :=
  select (cmpf .ogt g (broadcastInDim S100000 ![] bcast_S_S100000 (constant (F := Ideal) S_ .f32 0x00000000#32)))
    (Host.rsqrt g)
    (broadcastInDim S100000 ![] bcast_S_S100000 (id (constant (F := Ideal) S_ .f32 0x00000000#32)))

/-- A node's weight: the reciprocal square root of its degree where the degree is positive, zero elsewhere. -/
def weight (d : IVec S2500000 32) : FVec Ideal S100000 .f32 := weightOf (degree d)

/-- Start indices as a column, those below zero moved up by the number of nodes. -/
def wrapped (s : IVec S2500000 32) : IVec S2500000x1 32 :=
  broadcastInDim S2500000x1 ![0] bcast_S2500000_S2500000x1_0
    (select (cmpi .slt s (broadcastInDim S2500000 ![] bcast_S_S2500000 (constantI S_ 32 0#32)))
      (addi s (broadcastInDim S2500000 ![] bcast_S_S2500000 (constantI S_ 32 100000#32))) s)

/-- The messages' coefficients from the nodes' weights: the product of the source's and the target's, as a column. -/
def coeffOf (w : FVec Ideal S100000 .f32) (s d : IVec S2500000 32) : FVec Ideal S2500000x1 .f32 :=
  broadcastInDim S2500000x1 ![0] bcast_S2500000_S2500000x1_0
    (mulf (Host.gather gather_S100000_S2500000x1_S2500000_n_0_n_n_0_1_1 w (wrapped s))
      (Host.gather gather_S100000_S2500000x1_S2500000_n_0_n_n_0_1_1 w (wrapped d)))

/-- A message's coefficient: the product of its source's and its target's weights, as a column. -/
def coeff (s d : IVec S2500000 32) : FVec Ideal S2500000x1 .f32 := coeffOf (weight d) s d

/-- One aggregation of 32-column features: each message's source row, scaled by the coefficient, added at the target. -/
def aggregate (h : FVec Ideal S100000x32 .f32) (s d : IVec S2500000 32) (n : FVec Ideal S2500000x1 .f32) :
    FVec Ideal S100000x32 .f32 :=
  Host.scatterAdd scatter_S100000x32_S2500000x1_S2500000x32_1_0_0_1
    (broadcastInDim S100000x32 ![] bcast_S_S100000x32 (constant (F := Ideal) S_ .f32 0x00000000#32))
    (broadcastInDim S2500000x1 ![0] bcast_S2500000_S2500000x1_0 d)
    (mulf (broadcastInDim S2500000x32 ![0, 1] bcast_S2500000x1_S2500000x32_0_1 n)
      (Host.gather gather_S100000x32_S2500000x1_S2500000x32_1_0_n_n_0_1_132 h (wrapped s)))

/-- The same for a one-column array. -/
def aggregate1 (h : FVec Ideal S100000x1 .f32) (s d : IVec S2500000 32) (n : FVec Ideal S2500000x1 .f32) :
    FVec Ideal S100000x1 .f32 :=
  Host.scatterAdd scatter_S100000x1_S2500000x1_S2500000x1_1_0_0_1
    (broadcastInDim S100000x1 ![] bcast_S_S100000x1 (constant (F := Ideal) S_ .f32 0x00000000#32))
    (broadcastInDim S2500000x1 ![0] bcast_S2500000_S2500000x1_0 d)
    (mulf n (Host.gather gather_S100000x1_S2500000x1_S2500000x1_1_0_n_n_0_1_11 h (wrapped s)))

/-- The first layer: `max (aggregate (x · W1) + b1) 0`. -/
def layer1 (x : FVec Ideal S100000x2 .f32) (w : FVec Ideal S2x32 .f32) (b : FVec Ideal S32 .f32)
    (s d : IVec S2500000 32) (n : FVec Ideal S2500000x1 .f32) : FVec Ideal S100000x32 .f32 :=
  rectified (n := 100000) (c := 32) (aggregate (rowsByCols (M := 100000) (K := 2) (N := 32) x w) s d n) b

/-- The second layer: `max (aggregate (h · W2) + b2) 0`. -/
def layer2 (h : FVec Ideal S100000x32 .f32) (w : FVec Ideal S32x32 .f32) (b : FVec Ideal S32 .f32)
    (s d : IVec S2500000 32) (n : FVec Ideal S2500000x1 .f32) : FVec Ideal S100000x32 .f32 :=
  rectified (n := 100000) (c := 32) (aggregate (rowsByCols (M := 100000) (K := 32) (N := 32) h w) s d n) b

/-- The last layer: `aggregate (h · W3) + b3`, one column. -/
def layer3 (h : FVec Ideal S100000x32 .f32) (w : FVec Ideal S32x1 .f32) (b : FVec Ideal S1 .f32)
    (s d : IVec S2500000 32) (n : FVec Ideal S2500000x1 .f32) : FVec Ideal S100000x1 .f32 :=
  biased (n := 100000) (c := 1) (aggregate1 (rowsByCols (M := 100000) (K := 32) (N := 1) h w) s d n) b

/-- The whole network: the three layers over the one graph, the last layer's column as a vector. -/
def network (x : FVec Ideal S100000x2 .f32) (ei : IVec S2x2400000 32) (w1 : FVec Ideal S2x32 .f32) (b1 : FVec Ideal S32 .f32)
    (w2 : FVec Ideal S32x32 .f32) (b2 : FVec Ideal S32 .f32) (w3 : FVec Ideal S32x1 .f32) (b3 : FVec Ideal S1 .f32) :
    FVec Ideal S100000 .f32 :=
  shapeCast S100000
    (layer3 (layer2 (layer1 x w1 b1 (sources ei) (targets ei) (coeff (sources ei) (targets ei)))
        w2 b2 (sources ei) (targets ei) (coeff (sources ei) (targets ei)))
      w3 b3 (sources ei) (targets ei) (coeff (sources ei) (targets ei)))
    shapeCasts_S100000x1_S100000

end Cert.Spec

end
-- ==== Proof.KernelHost.lean ====
/-
  The idealized kernel's host stretches, each as a function of the buffers it reads.

  Between its regions the program runs stretches of host operations: the first three build the message sources and
  targets from the edge list, the degrees, the nodes' weights and the messages' coefficients; the stretch before each
  bias region gathers the rows of the product just computed, scales them and adds them at the targets, and recasts the
  layer's bias vector as a one-row array; the last recasts the result column as a vector. Each is read here off the
  fold of its operations, for any contents the stretch starts from, and named by the function of the specification it
  is. A buffer no operation of a stretch writes keeps its contents through it.
-/
import proofs.«169840_j11390253269707_1_alg».proof.Proof.Gen.KernelIdeal.Launch
import proofs.«169840_j11390253269707_1_alg».proof.Proof.Spec
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.Spec

/-! ## What each stretch leaves unchanged -/

/-- The references the stretch `hostOps0` writes. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt Ideal))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_⟩ <;> exact List.mem_map_of_mem (by decide))
/-- A buffer the stretch does not write keeps its contents. -/
theorem hostOps0_keeps (V : Valuation τ sig (Elt Ideal)) (r : Ref sig .tc) (h : r ∉ hostOps0_W) :
    after hostOps0 V (Proc.devRef .tc r) = V (Proc.devRef .tc r) :=
  after_of_writes_sub hostOps0 V hostOps0_writes h

/-- The references the stretch `hostOps0_1` writes. -/
abbrev hostOps0_1_W : List (Ref sig .tc) := [main_call0_v0, main_call0_v1, main_v14]
theorem hostOps0_1_writes : (hostOps0_1 : List (HloOp τ sig (Elt Ideal))).Forall fun op => op.writes ⊆ (hostOps0_1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_⟩ <;> exact List.mem_map_of_mem (by decide))
/-- A buffer the stretch does not write keeps its contents. -/
theorem hostOps0_1_keeps (V : Valuation τ sig (Elt Ideal)) (r : Ref sig .tc) (h : r ∉ hostOps0_1_W) :
    after hostOps0_1 V (Proc.devRef .tc r) = V (Proc.devRef .tc r) :=
  after_of_writes_sub hostOps0_1 V hostOps0_1_writes h

/-- The references the stretch `hostOps0_2` writes. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30]
theorem hostOps0_2_writes : (hostOps0_2 : List (HloOp τ sig (Elt Ideal))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_⟩ <;> exact List.mem_map_of_mem (by decide))
/-- A buffer the stretch does not write keeps its contents. -/
theorem hostOps0_2_keeps (V : Valuation τ sig (Elt Ideal)) (r : Ref sig .tc) (h : r ∉ hostOps0_2_W) :
    after hostOps0_2 V (Proc.devRef .tc r) = V (Proc.devRef .tc r) :=
  after_of_writes_sub hostOps0_2 V hostOps0_2_writes h

/-- The references the stretch `hostOps1` writes. -/
abbrev hostOps1_W : List (Ref sig .tc) := [main_c_6, main_v32, main_v33, main_c_7, main_v34, main_v35, main_v36, main_v37, main_v38, main_v39, main_v40, main_cst_8, main_v41, main_v42, main_v43, main_v44]
theorem hostOps1_writes : (hostOps1 : List (HloOp τ sig (Elt Ideal))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_⟩ <;> exact List.mem_map_of_mem (by decide))
/-- A buffer the stretch does not write keeps its contents. -/
theorem hostOps1_keeps (V : Valuation τ sig (Elt Ideal)) (r : Ref sig .tc) (h : r ∉ hostOps1_W) :
    after hostOps1 V (Proc.devRef .tc r) = V (Proc.devRef .tc r) :=
  after_of_writes_sub hostOps1 V hostOps1_writes h

/-- The references the stretch `hostOps3` writes. -/
abbrev hostOps3_W : List (Ref sig .tc) := [main_c_9, main_v47, main_v48, main_c_10, main_v49, main_v50, main_v51, main_v52, main_v53, main_v54, main_v55, main_cst_11, main_v56, main_v57, main_v58, main_v59]
theorem hostOps3_writes : (hostOps3 : List (HloOp τ sig (Elt Ideal))).Forall fun op => op.writes ⊆ (hostOps3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_⟩ <;> exact List.mem_map_of_mem (by decide))
/-- A buffer the stretch does not write keeps its contents. -/
theorem hostOps3_keeps (V : Valuation τ sig (Elt Ideal)) (r : Ref sig .tc) (h : r ∉ hostOps3_W) :
    after hostOps3 V (Proc.devRef .tc r) = V (Proc.devRef .tc r) :=
  after_of_writes_sub hostOps3 V hostOps3_writes h

/-- The references the stretch `hostOps5` writes. -/
abbrev hostOps5_W : List (Ref sig .tc) := [main_c_12, main_v62, main_v63, main_c_13, main_v64, main_v65, main_v66, main_v67, main_v68, main_v69, main_cst_14, main_v70, main_v71, main_v72, main_v73]
theorem hostOps5_writes : (hostOps5 : List (HloOp τ sig (Elt Ideal))).Forall fun op => op.writes ⊆ (hostOps5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_⟩ <;> exact List.mem_map_of_mem (by decide))
/-- A buffer the stretch does not write keeps its contents. -/
theorem hostOps5_keeps (V : Valuation τ sig (Elt Ideal)) (r : Ref sig .tc) (h : r ∉ hostOps5_W) :
    after hostOps5 V (Proc.devRef .tc r) = V (Proc.devRef .tc r) :=
  after_of_writes_sub hostOps5 V hostOps5_writes h

/-- The references the stretch `hostOps6` writes. -/
abbrev hostOps6_W : List (Ref sig .tc) := [main_v75]
theorem hostOps6_writes : (hostOps6 : List (HloOp τ sig (Elt Ideal))).Forall fun op => op.writes ⊆ (hostOps6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem hostOps6_keeps (V : Valuation τ sig (Elt Ideal)) (r : Ref sig .tc) (h : r ∉ hostOps6_W) :
    after hostOps6 V (Proc.devRef .tc r) = V (Proc.devRef .tc r) :=
  after_of_writes_sub hostOps6 V hostOps6_writes h

/-! ## What each stretch computes -/

variable (V : Valuation τ sig (Elt Ideal))

/-- The first stretch: the message sources … -/
theorem sources_eq : after hostOps0 V (Proc.devRef .tc main_v3) = sources (V (Proc.devRef .tc main_arg1)) := by
  after_results; rfl
/-- … the message targets … -/
theorem targets_eq : after hostOps0 V (Proc.devRef .tc main_v6) = targets (V (Proc.devRef .tc main_arg1)) := by
  after_results; rfl
/-- … where the degree is positive … -/
theorem positive_eq : after hostOps0 V (Proc.devRef .tc main_v12)
    = cmpf .ogt (degree (targets (V (Proc.devRef .tc main_arg1)))) (broadcastInDim S100000 ![] bcast_S_S100000 (constant (F := Ideal) S_ .f32 0x00000000#32)) := by
  after_results; rfl
/-- … the degree's reciprocal square root … -/
theorem rsqrt_eq : after hostOps0 V (Proc.devRef .tc main_v13) = Host.rsqrt (degree (targets (V (Proc.devRef .tc main_arg1)))) := by
  after_results; rfl
/-- … and a zero. -/
theorem zero_eq : after hostOps0 V (Proc.devRef .tc main_cst_2) = constant (F := Ideal) S_ .f32 0x00000000#32 := by
  after_results

/-- The second stretch chooses between the two. -/
theorem where_eq : after hostOps0_1 V (Proc.devRef .tc main_v14)
    = select (V (Proc.devRef .tc main_v12)) (V (Proc.devRef .tc main_v13))
        (broadcastInDim S100000 ![] bcast_S_S100000 (id (V (Proc.devRef .tc main_cst_2)))) := by
  after_results; rfl

set_option maxHeartbeats 4000000 in
/-- The third stretch: the messages' coefficients from the nodes' weights. -/
theorem coeff_eq : after hostOps0_2 V (Proc.devRef .tc main_v30)
    = coeffOf (V (Proc.devRef .tc main_v14)) (V (Proc.devRef .tc main_v3)) (V (Proc.devRef .tc main_v6)) := by
  after_results; rfl

set_option maxHeartbeats 4000000 in
/-- Before the first bias region: the first product aggregated … -/
theorem aggregate_1 : after hostOps1 V (Proc.devRef .tc main_v43)
    = aggregate (V (Proc.devRef .tc main_v31)) (V (Proc.devRef .tc main_v3)) (V (Proc.devRef .tc main_v6)) (V (Proc.devRef .tc main_v30)) := by
  after_results; rfl
/-- … and the first bias as a row. -/
theorem bias_1 : after hostOps1 V (Proc.devRef .tc main_v44) = shapeCast S1x32 (V (Proc.devRef .tc main_arg3)) shapeCasts_S32_S1x32 := by
  after_results; rfl

set_option maxHeartbeats 4000000 in
/-- Before the second bias region: the second product aggregated … -/
theorem aggregate_2 : after hostOps3 V (Proc.devRef .tc main_v58)
    = aggregate (V (Proc.devRef .tc main_v46)) (V (Proc.devRef .tc main_v3)) (V (Proc.devRef .tc main_v6)) (V (Proc.devRef .tc main_v30)) := by
  after_results; rfl
/-- … and the second bias as a row. -/
theorem bias_2 : after hostOps3 V (Proc.devRef .tc main_v59) = shapeCast S1x32 (V (Proc.devRef .tc main_arg5)) shapeCasts_S32_S1x32 := by
  after_results; rfl

set_option maxHeartbeats 4000000 in
/-- Before the last bias region: the one-column product aggregated … -/
theorem aggregate_3 : after hostOps5 V (Proc.devRef .tc main_v72)
    = aggregate1 (V (Proc.devRef .tc main_v61)) (V (Proc.devRef .tc main_v3)) (V (Proc.devRef .tc main_v6)) (V (Proc.devRef .tc main_v30)) := by
  after_results; rfl
/-- … and the last bias as a one-entry row. -/
theorem bias_3 : after hostOps5 V (Proc.devRef .tc main_v73) = shapeCast S1x1 (V (Proc.devRef .tc main_arg7)) shapeCasts_S1_S1x1 := by
  after_results; rfl

/-- The last stretch: the result column as a vector. -/
theorem result_eq : after hostOps6 V (Proc.devRef .tc main_v75) = shapeCast S100000 (V (Proc.devRef .tc main_v74)) shapeCasts_S100000x1_S100000 := by
  after_results; rfl

end Cert.KernelIdeal.Host

end
-- ==== Proof.Region0.lean ====
/-
  Region 0 of the idealized kernel: the first layer's feature transform x · W1.

  The region multiplies a [100000, 2] array by a [2, 32] array, 25000 rows at a time: at grid point t the left
  window's block is rows 25000·t … 25000·t + 24999 of the left array, the right window's block is the whole right array,
  and the body stores their product (a matrix product into a zero accumulator; the change of float format in front of
  it is the identity on the extended reals). Rows of a product are the product of the rows, so every point writes back
  its block of rows of the one product of the whole arrays, and the four blocks cover the result array.
-/
import proofs.«169840_j11390253269707_1_alg».proof.Proof.Gen.KernelIdeal.Frame
import proofs.«169840_j11390253269707_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainDot

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is the product of its two loaded blocks. -/
theorem payload_eq (x0 : Vec Ideal S25000x2 .f32) (x1 : Vec Ideal S2x32 .f32) :
    k0_pay1 x0 x1 = rowsByCols (M := 25000) (K := 2) (N := 32) x0 x1 := by
  unfold k0_pay1
  exact matmul_zero_eq (M := 25000) (K := 2) (N := 32) _ rfl none _ _

/-- Where the windows' blocks sit, decided over the grid: the left and the result windows move down one block of rows
    per point, the right window stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 25000·t … of the left array. -/
theorem left_block (c : Dev nD) (t : Fin cfg0.N) (y : S25000x2.Idx) (z : S100000x2.Idx)
    (hz0 : (z 0).val = 25000 * t.val + (y 0).val) (hz1 : (z 1).val = (y 1).val) :
    (iblk0 V c 0 t : Vec Ideal S25000x2 .f32) y = (V c main_arg0 : S100000x2.Idx → EReal) z := by
  obtain ⟨e0, e1, -, -, -, -⟩ := index_facts t
  unfold iblk0
  rw [View.read_apply]
  show V c main_arg0 _ = V c main_arg0 _
  congr 1
  funext a
  apply Fin.ext
  match a with
  | ⟨0, _⟩ => show win0_0.index t (0 : Fin 2) * 25000 + 1 * (y 0).val = (z 0).val; rw [e0, hz0]; omega
  | ⟨1, _⟩ => show win0_0.index t (1 : Fin 2) * 2 + 1 * (y 1).val = (z 1).val; rw [e1, hz1]; omega

/-- The right window's block at every point is the whole right array. -/
theorem right_block (c : Dev nD) (t : Fin cfg0.N) (y : S2x32.Idx) :
    (iblk0 V c 1 t : Vec Ideal S2x32 .f32) y = (V c main_arg2 : S2x32.Idx → EReal) y := by
  obtain ⟨-, -, e2, e3, -, -⟩ := index_facts t
  unfold iblk0
  rw [View.read_apply]
  show V c main_arg2 _ = V c main_arg2 _
  congr 1
  funext a
  apply Fin.ext
  match a with
  | ⟨0, _⟩ => show win0_1.index t (0 : Fin 2) * 2 + 1 * (y 0).val = (y 0).val; rw [e2]; omega
  | ⟨1, _⟩ => show win0_1.index t (1 : Fin 2) * 32 + 1 * (y 1).val = (y 1).val; rw [e3]; omega

/-- What point t writes back is block t of the product of the whole arrays. -/
theorem flushed_eq (c : Dev nD) (t : Fin cfg0.N) :
    (dat0 V c).flushed 2 t = ((cfg0.win 2).blk t).view.read (Elt Ideal)
      (rowsByCols (M := 100000) (K := 2) (N := 32) (V c main_arg0) (V c main_arg2)) := by
  show (cfg0.win 2).cut (grid0.coords t) ((dat0 V c).after 2 t) = _
  rw [after0_2]
  unfold out0_2
  rw [View.canon_unit_zero zero_offsets]
  simp only [View.ld_unit_zero (S := S25000x2) zero_offsets, View.ld_unit_zero (S := S2x32) zero_offsets]
  rw [payload_eq]
  obtain ⟨-, -, -, -, e4, e5⟩ := index_facts t
  funext j
  rw [View.read_apply]
  have hr0 : ((((cfg0.win 2).blk t).view.emb j) 0).val = 25000 * t.val + (j 0).val := by
    show win0_2.index t (0 : Fin 2) * 25000 + 1 * (j 0).val = _; rw [e4]; omega
  have hr1 : ((((cfg0.win 2).blk t).view.emb j) 1).val = (j 1).val := by
    show win0_2.index t (1 : Fin 2) * 32 + 1 * (j 1).val = _; rw [e5]; omega
  refine rowsByCols_congr (M := 100000) (M' := 25000) (K := 2) (N := 32) (N' := 32) _ _ _ _ j _ (fun k => ?_) (fun k => ?_)
  · exact left_block V c t _ _ hr0 rfl
  · rw [right_block V c t]
    exact congrArg _ (funext fun a => Fin.ext (by
      match a with
      | ⟨0, _⟩ => rfl
      | ⟨1, _⟩ => exact hr1.symm))

/-- An index of the result array is in point t's block iff each coordinate is in the block's range on its axis. -/
theorem mem_block (t : Fin cfg0.N) (i : S100000x32.Idx) :
    i ∈ ((cfg0.win 2).blk t).view.set ↔ ∀ a : Fin 2, win0_2.index t a * S25000x32.size a ≤ (i a).val ∧ (i a).val < win0_2.index t a * S25000x32.size a + S25000x32.size a := by
  show i ∈ ((View.whole main_v31).slice (win0_2.rect t)).set ↔ _
  rw [View.set_slice_whole, Rect.mem_set_unit]
  exact Iff.rfl

/-- Every row of the result array is in the block of the point its number divided by 25000 names. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 4 := N_0
  let t : Fin cfg0.N := ⟨(i 0).val / 25000, by rw [hN]; omega⟩
  obtain ⟨-, -, -, -, e4, e5⟩ := index_facts t
  refine ⟨t, flush0_2 t, ?_⟩
  rw [mem_block]
  intro a
  match a with
  | ⟨0, _⟩ =>
    show win0_2.index t (0 : Fin 2) * 25000 ≤ (i 0).val ∧ (i 0).val < win0_2.index t (0 : Fin 2) * 25000 + 25000
    rw [e4]; show (i 0).val / 25000 * 25000 ≤ (i 0).val ∧ (i 0).val < (i 0).val / 25000 * 25000 + 25000; omega
  | ⟨1, _⟩ =>
    show win0_2.index t (1 : Fin 2) * 32 ≤ (i 1).val ∧ (i 1).val < win0_2.index t (1 : Fin 2) * 32 + 32
    rw [e5]; omega

/-- The result array after the region is the product of the two arrays as the region finds them. -/
theorem final (c : Dev nD) :
    (dat0 V c).arrAt 2 cfg0.N = rowsByCols (M := 100000) (K := 2) (N := 32) (V c main_arg0) (V c main_arg2) :=
  (dat0 V c).arrAt_eq_of_cover 2 _ (fun t _ => flushed_eq V c t) covered

end Cert.KernelIdeal.Region0

end
-- ==== Proof.Region1.lean ====
/-
  Region 1 of the idealized kernel: the first layer's bias and rectification.

  The region adds a one-row bias to every row of a [100000, 32] array and takes the maximum with zero, 25000 rows at a
  time: at grid point t the first window's block is rows 25000·t … 25000·t + 24999 of the array, the second window's
  block is the whole bias row, and the body stores the block plus the row spread over it, rectified. The value at an entry
  depends only on that entry and on the bias entry of its column, so every point writes back its block of rows of the
  one such function of the whole arrays, and the four blocks cover the result array.
-/
import proofs.«169840_j11390253269707_1_alg».proof.Proof.Gen.KernelIdeal.Frame
import proofs.«169840_j11390253269707_1_alg».proof.Proof.LibBiasRect
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.BiasRect

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is its block plus the bias row, rectified, entry by entry. -/
theorem payload_eq (x0 : Vec Ideal S25000x32 .f32) (x1 : Vec Ideal S1x32 .f32) :
    k1_pay1 x0 x1 = biasRect (n := 25000) (c := 32) x0 x1 := by
  funext j
  obtain ⟨p, q, rfl⟩ : ∃ (p : Fin 25000) (q : Fin 32), j = ix2 p q := ⟨j 0, j 1, eq_ix2 j⟩
  simp only [k1_pay1, biasRect, maximumf_apply, addf_apply, shapeCast_self, broadcastTo_1b_ab_apply, broadcast_apply]
  rfl

/-- Where the windows' blocks sit, decided over the grid: the array's and the result's windows move down one block of
    rows per point, the bias window stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first window's block at point t is rows 25000·t … of the array. -/
theorem left_block (c : Dev nD) (t : Fin cfg1.N) (y : S25000x32.Idx) (z : S100000x32.Idx)
    (hz0 : (z 0).val = 25000 * t.val + (y 0).val) (hz1 : (z 1).val = (y 1).val) :
    (iblk1 V c 0 t : Vec Ideal S25000x32 .f32) y = (V c main_v43 : S100000x32.Idx → EReal) z := by
  obtain ⟨e0, e1, -, -, -, -⟩ := index_facts t
  unfold iblk1
  rw [View.read_apply]
  show V c main_v43 _ = V c main_v43 _
  congr 1
  funext a
  apply Fin.ext
  match a with
  | ⟨0, _⟩ => show win1_0.index t (0 : Fin 2) * 25000 + 1 * (y 0).val = (z 0).val; rw [e0, hz0]; omega
  | ⟨1, _⟩ => show win1_0.index t (1 : Fin 2) * 32 + 1 * (y 1).val = (z 1).val; rw [e1, hz1]; omega

/-- The bias window's block at every point is the whole bias row. -/
theorem right_block (c : Dev nD) (t : Fin cfg1.N) (y : S1x32.Idx) :
    (iblk1 V c 1 t : Vec Ideal S1x32 .f32) y = (V c main_v44 : S1x32.Idx → EReal) y := by
  obtain ⟨-, -, e2, e3, -, -⟩ := index_facts t
  unfold iblk1
  rw [View.read_apply]
  show V c main_v44 _ = V c main_v44 _
  congr 1
  funext a
  apply Fin.ext
  match a with
  | ⟨0, _⟩ => show win1_1.index t (0 : Fin 2) * 1 + 1 * (y 0).val = (y 0).val; rw [e2]; omega
  | ⟨1, _⟩ => show win1_1.index t (1 : Fin 2) * 32 + 1 * (y 1).val = (y 1).val; rw [e3]; omega

/-- What point t writes back is block t of the biased, rectified whole array. -/
theorem flushed_eq (c : Dev nD) (t : Fin cfg1.N) :
    (dat1 V c).flushed 2 t = ((cfg1.win 2).blk t).view.read (Elt Ideal)
      (biasRect (n := 100000) (c := 32) (V c main_v43) (V c main_v44)) := by
  show (cfg1.win 2).cut (grid1.coords t) ((dat1 V c).after 2 t) = _
  rw [after1_2]
  unfold out1_2
  rw [View.canon_unit_zero zero_offsets]
  simp only [View.ld_unit_zero (S := S25000x32) zero_offsets, View.ld_unit_zero (S := S1x32) zero_offsets]
  rw [payload_eq]
  obtain ⟨-, -, -, -, e4, e5⟩ := index_facts t
  funext j
  rw [View.read_apply]
  have hr0 : ((((cfg1.win 2).blk t).view.emb j) 0).val = 25000 * t.val + (j 0).val := by
    show win1_2.index t (0 : Fin 2) * 25000 + 1 * (j 0).val = _; rw [e4]; omega
  have hr1 : ((((cfg1.win 2).blk t).view.emb j) 1).val = (j 1).val := by
    show win1_2.index t (1 : Fin 2) * 32 + 1 * (j 1).val = _; rw [e5]; omega
  refine biasRect_congr (n := 100000) (n' := 25000) (c := 32) (c' := 32) _ _ _ _ j _ ?_ ?_
  · exact left_block V c t _ _ hr0 hr1
  · rw [right_block V c t]
    exact congrArg _ (funext fun a => Fin.ext (by
      match a with
      | ⟨0, _⟩ => rfl
      | ⟨1, _⟩ => exact hr1.symm))

/-- An index of the result array is in point t's block iff each coordinate is in the block's range on its axis. -/
theorem mem_block (t : Fin cfg1.N) (i : S100000x32.Idx) :
    i ∈ ((cfg1.win 2).blk t).view.set ↔ ∀ a : Fin 2, win1_2.index t a * S25000x32.size a ≤ (i a).val ∧ (i a).val < win1_2.index t a * S25000x32.size a + S25000x32.size a := by
  show i ∈ ((View.whole main_v45).slice (win1_2.rect t)).set ↔ _
  rw [View.set_slice_whole, Rect.mem_set_unit]
  exact Iff.rfl

/-- Every row of the result array is in the block of the point its number divided by 25000 names. -/
theorem covered (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 4 := N_1
  let t : Fin cfg1.N := ⟨(i 0).val / 25000, by rw [hN]; omega⟩
  obtain ⟨-, -, -, -, e4, e5⟩ := index_facts t
  refine ⟨t, flush1_2 t, ?_⟩
  rw [mem_block]
  intro a
  match a with
  | ⟨0, _⟩ =>
    show win1_2.index t (0 : Fin 2) * 25000 ≤ (i 0).val ∧ (i 0).val < win1_2.index t (0 : Fin 2) * 25000 + 25000
    rw [e4]; show (i 0).val / 25000 * 25000 ≤ (i 0).val ∧ (i 0).val < (i 0).val / 25000 * 25000 + 25000; omega
  | ⟨1, _⟩ =>
    show win1_2.index t (1 : Fin 2) * 32 ≤ (i 1).val ∧ (i 1).val < win1_2.index t (1 : Fin 2) * 32 + 32
    rw [e5]; omega

/-- The result array after the region is the array as the region finds it plus the bias row, rectified. -/
theorem final (c : Dev nD) :
    (dat1 V c).arrAt 2 cfg1.N = biasRect (n := 100000) (c := 32) (V c main_v43) (V c main_v44) :=
  (dat1 V c).arrAt_eq_of_cover 2 _ (fun t _ => flushed_eq V c t) covered

end Cert.KernelIdeal.Region1

end
-- ==== Proof.Region2.lean ====
/-
  Region 2 of the idealized kernel: the second layer's feature transform h · W2.

  The region multiplies a [100000, 32] array by a [32, 32] array, 25000 rows at a time: at grid point t the left
  window's block is rows 25000·t … 25000·t + 24999 of the left array, the right window's block is the whole right array,
  and the body stores their product (a matrix product into a zero accumulator; the change of float format in front of
  it is the identity on the extended reals). Rows of a product are the product of the rows, so every point writes back
  its block of rows of the one product of the whole arrays, and the four blocks cover the result array.
-/
import proofs.«169840_j11390253269707_1_alg».proof.Proof.Gen.KernelIdeal.Frame
import proofs.«169840_j11390253269707_1_alg».proof.Proof.LibPlainDot
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainDot

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is the product of its two loaded blocks. -/
theorem payload_eq (x0 : Vec Ideal S25000x32 .f32) (x1 : Vec Ideal S32x32 .f32) :
    k2_pay1 x0 x1 = rowsByCols (M := 25000) (K := 32) (N := 32) x0 x1 := by
  unfold k2_pay1
  simp only [shapeCast_self]
  exact matmul_zero_eq (M := 25000) (K := 32) (N := 32) _ rfl none _ _

/-- Where the windows' blocks sit, decided over the grid: the left and the result windows move down one block of rows
    per point, the right window stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 25000·t … of the left array. -/
theorem left_block (c : Dev nD) (t : Fin cfg2.N) (y : S25000x32.Idx) (z : S100000x32.Idx)
    (hz0 : (z 0).val = 25000 * t.val + (y 0).val) (hz1 : (z 1).val = (y 1).val) :
    (iblk2 V c 0 t : Vec Ideal S25000x32 .f32) y = (V c main_v45 : S100000x32.Idx → EReal) z := by
  obtain ⟨e0, e1, -, -, -, -⟩ := index_facts t
  unfold iblk2
  rw [View.read_apply]
  show V c main_v45 _ = V c main_v45 _
  congr 1
  funext a
  apply Fin.ext
  match a with
  | ⟨0, _⟩ => show win2_0.index t (0 : Fin 2) * 25000 + 1 * (y 0).val = (z 0).val; rw [e0, hz0]; omega
  | ⟨1, _⟩ => show win2_0.index t (1 : Fin 2) * 32 + 1 * (y 1).val = (z 1).val; rw [e1, hz1]; omega

/-- The right window's block at every point is the whole right array. -/
theorem right_block (c : Dev nD) (t : Fin cfg2.N) (y : S32x32.Idx) :
    (iblk2 V c 1 t : Vec Ideal S32x32 .f32) y = (V c main_arg4 : S32x32.Idx → EReal) y := by
  obtain ⟨-, -, e2, e3, -, -⟩ := index_facts t
  unfold iblk2
  rw [View.read_apply]
  show V c main_arg4 _ = V c main_arg4 _
  congr 1
  funext a
  apply Fin.ext
  match a with
  | ⟨0, _⟩ => show win2_1.index t (0 : Fin 2) * 32 + 1 * (y 0).val = (y 0).val; rw [e2]; omega
  | ⟨1, _⟩ => show win2_1.index t (1 : Fin 2) * 32 + 1 * (y 1).val = (y 1).val; rw [e3]; omega

/-- What point t writes back is block t of the product of the whole arrays. -/
theorem flushed_eq (c : Dev nD) (t : Fin cfg2.N) :
    (dat2 V c).flushed 2 t = ((cfg2.win 2).blk t).view.read (Elt Ideal)
      (rowsByCols (M := 100000) (K := 32) (N := 32) (V c main_v45) (V c main_arg4)) := by
  show (cfg2.win 2).cut (grid2.coords t) ((dat2 V c).after 2 t) = _
  rw [after2_2]
  unfold out2_2
  rw [View.canon_unit_zero zero_offsets]
  simp only [View.ld_unit_zero (S := S25000x32) zero_offsets, View.ld_unit_zero (S := S32x32) zero_offsets]
  rw [payload_eq]
  obtain ⟨-, -, -, -, e4, e5⟩ := index_facts t
  funext j
  rw [View.read_apply]
  have hr0 : ((((cfg2.win 2).blk t).view.emb j) 0).val = 25000 * t.val + (j 0).val := by
    show win2_2.index t (0 : Fin 2) * 25000 + 1 * (j 0).val = _; rw [e4]; omega
  have hr1 : ((((cfg2.win 2).blk t).view.emb j) 1).val = (j 1).val := by
    show win2_2.index t (1 : Fin 2) * 32 + 1 * (j 1).val = _; rw [e5]; omega
  refine rowsByCols_congr (M := 100000) (M' := 25000) (K := 32) (N := 32) (N' := 32) _ _ _ _ j _ (fun k => ?_) (fun k => ?_)
  · exact left_block V c t _ _ hr0 rfl
  · rw [right_block V c t]
    exact congrArg _ (funext fun a => Fin.ext (by
      match a with
      | ⟨0, _⟩ => rfl
      | ⟨1, _⟩ => exact hr1.symm))

/-- An index of the result array is in point t's block iff each coordinate is in the block's range on its axis. -/
theorem mem_block (t : Fin cfg2.N) (i : S100000x32.Idx) :
    i ∈ ((cfg2.win 2).blk t).view.set ↔ ∀ a : Fin 2, win2_2.index t a * S25000x32.size a ≤ (i a).val ∧ (i a).val < win2_2.index t a * S25000x32.size a + S25000x32.size a := by
  show i ∈ ((View.whole main_v46).slice (win2_2.rect t)).set ↔ _
  rw [View.set_slice_whole, Rect.mem_set_unit]
  exact Iff.rfl

/-- Every row of the result array is in the block of the point its number divided by 25000 names. -/
theorem covered (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 4 := N_2
  let t : Fin cfg2.N := ⟨(i 0).val / 25000, by rw [hN]; omega⟩
  obtain ⟨-, -, -, -, e4, e5⟩ := index_facts t
  refine ⟨t, flush2_2 t, ?_⟩
  rw [mem_block]
  intro a
  match a with
  | ⟨0, _⟩ =>
    show win2_2.index t (0 : Fin 2) * 25000 ≤ (i 0).val ∧ (i 0).val < win2_2.index t (0 : Fin 2) * 25000 + 25000
    rw [e4]; show (i 0).val / 25000 * 25000 ≤ (i 0).val ∧ (i 0).val < (i 0).val / 25000 * 25000 + 25000; omega
  | ⟨1, _⟩ =>
    show win2_2.index t (1 : Fin 2) * 32 ≤ (i 1).val ∧ (i 1).val < win2_2.index t (1 : Fin 2) * 32 + 32
    rw [e5]; omega

/-- The result array after the region is the product of the two arrays as the region finds them. -/
theorem final (c : Dev nD) :
    (dat2 V c).arrAt 2 cfg2.N = rowsByCols (M := 100000) (K := 32) (N := 32) (V c main_v45) (V c main_arg4) :=
  (dat2 V c).arrAt_eq_of_cover 2 _ (fun t _ => flushed_eq V c t) covered

end Cert.KernelIdeal.Region2

end
-- ==== Proof.Region3.lean ====
/-
  Region 3 of the idealized kernel: the second layer's bias and rectification.

  The region adds a one-row bias to every row of a [100000, 32] array and takes the maximum with zero, 25000 rows at a
  time: at grid point t the first window's block is rows 25000·t … 25000·t + 24999 of the array, the second window's
  block is the whole bias row, and the body stores the block plus the row spread over it, rectified. The value at an entry
  depends only on that entry and on the bias entry of its column, so every point writes back its block of rows of the
  one such function of the whole arrays, and the four blocks cover the result array.
-/
import proofs.«169840_j11390253269707_1_alg».proof.Proof.Gen.KernelIdeal.Frame
import proofs.«169840_j11390253269707_1_alg».proof.Proof.LibBiasRect
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.BiasRect

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is its block plus the bias row, rectified, entry by entry. -/
theorem payload_eq (x0 : Vec Ideal S25000x32 .f32) (x1 : Vec Ideal S1x32 .f32) :
    k3_pay1 x0 x1 = biasRect (n := 25000) (c := 32) x0 x1 := by
  funext j
  obtain ⟨p, q, rfl⟩ : ∃ (p : Fin 25000) (q : Fin 32), j = ix2 p q := ⟨j 0, j 1, eq_ix2 j⟩
  simp only [k3_pay1, biasRect, maximumf_apply, addf_apply, shapeCast_self, broadcastTo_1b_ab_apply, broadcast_apply]
  rfl

/-- Where the windows' blocks sit, decided over the grid: the array's and the result's windows move down one block of
    rows per point, the bias window stays. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first window's block at point t is rows 25000·t … of the array. -/
theorem left_block (c : Dev nD) (t : Fin cfg3.N) (y : S25000x32.Idx) (z : S100000x32.Idx)
    (hz0 : (z 0).val = 25000 * t.val + (y 0).val) (hz1 : (z 1).val = (y 1).val) :
    (iblk3 V c 0 t : Vec Ideal S25000x32 .f32) y = (V c main_v58 : S100000x32.Idx → EReal) z := by
  obtain ⟨e0, e1, -, -, -, -⟩ := index_facts t
  unfold iblk3
  rw [View.read_apply]
  show V c main_v58 _ = V c main_v58 _
  congr 1
  funext a
  apply Fin.ext
  match a with
  | ⟨0, _⟩ => show win3_0.index t (0 : Fin 2) * 25000 + 1 * (y 0).val = (z 0).val; rw [e0, hz0]; omega
  | ⟨1, _⟩ => show win3_0.index t (1 : Fin 2) * 32 + 1 * (y 1).val = (z 1).val; rw [e1, hz1]; omega

/-- The bias window's block at every point is the whole bias row. -/
theorem right_block (c : Dev nD) (t : Fin cfg3.N) (y : S1x32.Idx) :
    (iblk3 V c 1 t : Vec Ideal S1x32 .f32) y = (V c main_v59 : S1x32.Idx → EReal) y := by
  obtain ⟨-, -, e2, e3, -, -⟩ := index_facts t
  unfold iblk3
  rw [View.read_apply]
  show V c main_v59 _ = V c main_v59 _
  congr 1
  funext a
  apply Fin.ext
  match a with
  | ⟨0, _⟩ => show win3_1.index t (0 : Fin 2) * 1 + 1 * (y 0).val = (y 0).val; rw [e2]; omega
  | ⟨1, _⟩ => show win3_1.index t (1 : Fin 2) * 32 + 1 * (y 1).val = (y 1).val; rw [e3]; omega

/-- What point t writes back is block t of the biased, rectified whole array. -/
theorem flushed_eq (c : Dev nD) (t : Fin cfg3.N) :
    (dat3 V c).flushed 2 t = ((cfg3.win 2).blk t).view.read (Elt Ideal)
      (biasRect (n := 100000) (c := 32) (V c main_v58) (V c main_v59)) := by
  show (cfg3.win 2).cut (grid3.coords t) ((dat3 V c).after 2 t) = _
  rw [after3_2]
  unfold out3_2
  rw [View.canon_unit_zero zero_offsets]
  simp only [View.ld_unit_zero (S := S25000x32) zero_offsets, View.ld_unit_zero (S := S1x32) zero_offsets]
  rw [payload_eq]
  obtain ⟨-, -, -, -, e4, e5⟩ := index_facts t
  funext j
  rw [View.read_apply]
  have hr0 : ((((cfg3.win 2).blk t).view.emb j) 0).val = 25000 * t.val + (j 0).val := by
    show win3_2.index t (0 : Fin 2) * 25000 + 1 * (j 0).val = _; rw [e4]; omega
  have hr1 : ((((cfg3.win 2).blk t).view.emb j) 1).val = (j 1).val := by
    show win3_2.index t (1 : Fin 2) * 32 + 1 * (j 1).val = _; rw [e5]; omega
  refine biasRect_congr (n := 100000) (n' := 25000) (c := 32) (c' := 32) _ _ _ _ j _ ?_ ?_
  · exact left_block V c t _ _ hr0 hr1
  · rw [right_block V c t]
    exact congrArg _ (funext fun a => Fin.ext (by
      match a with
      | ⟨0, _⟩ => rfl
      | ⟨1, _⟩ => exact hr1.symm))

/-- An index of the result array is in point t's block iff each coordinate is in the block's range on its axis. -/
theorem mem_block (t : Fin cfg3.N) (i : S100000x32.Idx) :
    i ∈ ((cfg3.win 2).blk t).view.set ↔ ∀ a : Fin 2, win3_2.index t a * S25000x32.size a ≤ (i a).val ∧ (i a).val < win3_2.index t a * S25000x32.size a + S25000x32.size a := by
  show i ∈ ((View.whole main_v60).slice (win3_2.rect t)).set ↔ _
  rw [View.set_slice_whole, Rect.mem_set_unit]
  exact Iff.rfl

/-- Every row of the result array is in the block of the point its number divided by 25000 names. -/
theorem covered (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 4 := N_3
  let t : Fin cfg3.N := ⟨(i 0).val / 25000, by rw [hN]; omega⟩
  obtain ⟨-, -, -, -, e4, e5⟩ := index_facts t
  refine ⟨t, flush3_2 t, ?_⟩
  rw [mem_block]
  intro a
  match a with
  | ⟨0, _⟩ =>
    show win3_2.index t (0 : Fin 2) * 25000 ≤ (i 0).val ∧ (i 0).val < win3_2.index t (0 : Fin 2) * 25000 + 25000
    rw [e4]; show (i 0).val / 25000 * 25000 ≤ (i 0).val ∧ (i 0).val < (i 0).val / 25000 * 25000 + 25000; omega
  | ⟨1, _⟩ =>
    show win3_2.index t (1 : Fin 2) * 32 ≤ (i 1).val ∧ (i 1).val < win3_2.index t (1 : Fin 2) * 32 + 32
    rw [e5]; omega

/-- The result array after the region is the array as the region finds it plus the bias row, rectified. -/
theorem final (c : Dev nD) :
    (dat3 V c).arrAt 2 cfg3.N = biasRect (n := 100000) (c := 32) (V c main_v58) (V c main_v59) :=
  (dat3 V c).arrAt_eq_of_cover 2 _ (fun t _ => flushed_eq V c t) covered

end Cert.KernelIdeal.Region3

end
-- ==== Proof.Region4.lean ====
/-
  Region 4 of the idealized kernel: the third layer's feature transform h · W3.

  The region multiplies a [100000, 32] array by a [32, 1] array, 25000 rows at a time: at grid point t the left
  window's block is rows 25000·t … 25000·t + 24999 of the left array, the right window's block is the whole right array,
  and the body stores their product (a matrix product into a zero accumulator; the change of float format in front of
  it is the identity on the extended reals). Rows of a product are the product of the rows, so every point writes back
  its block of rows of the one product of the whole arrays, and the four blocks cover the result array.
-/
import proofs.«169840_j11390253269707_1_alg».proof.Proof.Gen.KernelIdeal.Frame
import proofs.«169840_j11390253269707_1_alg».proof.Proof.LibPlainDot
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainDot

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is the product of its two loaded blocks. -/
theorem payload_eq (x0 : Vec Ideal S25000x32 .f32) (x1 : Vec Ideal S32x1 .f32) :
    k4_pay1 x0 x1 = rowsByCols (M := 25000) (K := 32) (N := 1) x0 x1 := by
  unfold k4_pay1
  simp only [shapeCast_self]
  exact matmul_zero_eq (M := 25000) (K := 32) (N := 1) _ rfl none _ _

/-- Where the windows' blocks sit, decided over the grid: the left and the result windows move down one block of rows
    per point, the right window stays. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left window's block at point t is rows 25000·t … of the left array. -/
theorem left_block (c : Dev nD) (t : Fin cfg4.N) (y : S25000x32.Idx) (z : S100000x32.Idx)
    (hz0 : (z 0).val = 25000 * t.val + (y 0).val) (hz1 : (z 1).val = (y 1).val) :
    (iblk4 V c 0 t : Vec Ideal S25000x32 .f32) y = (V c main_v60 : S100000x32.Idx → EReal) z := by
  obtain ⟨e0, e1, -, -, -, -⟩ := index_facts t
  unfold iblk4
  rw [View.read_apply]
  show V c main_v60 _ = V c main_v60 _
  congr 1
  funext a
  apply Fin.ext
  match a with
  | ⟨0, _⟩ => show win4_0.index t (0 : Fin 2) * 25000 + 1 * (y 0).val = (z 0).val; rw [e0, hz0]; omega
  | ⟨1, _⟩ => show win4_0.index t (1 : Fin 2) * 32 + 1 * (y 1).val = (z 1).val; rw [e1, hz1]; omega

/-- The right window's block at every point is the whole right array. -/
theorem right_block (c : Dev nD) (t : Fin cfg4.N) (y : S32x1.Idx) :
    (iblk4 V c 1 t : Vec Ideal S32x1 .f32) y = (V c main_arg6 : S32x1.Idx → EReal) y := by
  obtain ⟨-, -, e2, e3, -, -⟩ := index_facts t
  unfold iblk4
  rw [View.read_apply]
  show V c main_arg6 _ = V c main_arg6 _
  congr 1
  funext a
  apply Fin.ext
  match a with
  | ⟨0, _⟩ => show win4_1.index t (0 : Fin 2) * 32 + 1 * (y 0).val = (y 0).val; rw [e2]; omega
  | ⟨1, _⟩ => show win4_1.index t (1 : Fin 2) * 1 + 1 * (y 1).val = (y 1).val; rw [e3]; omega

/-- What point t writes back is block t of the product of the whole arrays. -/
theorem flushed_eq (c : Dev nD) (t : Fin cfg4.N) :
    (dat4 V c).flushed 2 t = ((cfg4.win 2).blk t).view.read (Elt Ideal)
      (rowsByCols (M := 100000) (K := 32) (N := 1) (V c main_v60) (V c main_arg6)) := by
  show (cfg4.win 2).cut (grid4.coords t) ((dat4 V c).after 2 t) = _
  rw [after4_2]
  unfold out4_2
  rw [View.canon_unit_zero zero_offsets]
  simp only [View.ld_unit_zero (S := S25000x32) zero_offsets, View.ld_unit_zero (S := S32x1) zero_offsets]
  rw [payload_eq]
  obtain ⟨-, -, -, -, e4, e5⟩ := index_facts t
  funext j
  rw [View.read_apply]
  have hr0 : ((((cfg4.win 2).blk t).view.emb j) 0).val = 25000 * t.val + (j 0).val := by
    show win4_2.index t (0 : Fin 2) * 25000 + 1 * (j 0).val = _; rw [e4]; omega
  have hr1 : ((((cfg4.win 2).blk t).view.emb j) 1).val = (j 1).val := by
    show win4_2.index t (1 : Fin 2) * 1 + 1 * (j 1).val = _; rw [e5]; omega
  refine rowsByCols_congr (M := 100000) (M' := 25000) (K := 32) (N := 1) (N' := 1) _ _ _ _ j _ (fun k => ?_) (fun k => ?_)
  · exact left_block V c t _ _ hr0 rfl
  · rw [right_block V c t]
    exact congrArg _ (funext fun a => Fin.ext (by
      match a with
      | ⟨0, _⟩ => rfl
      | ⟨1, _⟩ => exact hr1.symm))

/-- An index of the result array is in point t's block iff each coordinate is in the block's range on its axis. -/
theorem mem_block (t : Fin cfg4.N) (i : S100000x1.Idx) :
    i ∈ ((cfg4.win 2).blk t).view.set ↔ ∀ a : Fin 2, win4_2.index t a * S25000x1.size a ≤ (i a).val ∧ (i a).val < win4_2.index t a * S25000x1.size a + S25000x1.size a := by
  show i ∈ ((View.whole main_v61).slice (win4_2.rect t)).set ↔ _
  rw [View.set_slice_whole, Rect.mem_set_unit]
  exact Iff.rfl

/-- Every row of the result array is in the block of the point its number divided by 25000 names. -/
theorem covered (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 4 := N_4
  let t : Fin cfg4.N := ⟨(i 0).val / 25000, by rw [hN]; omega⟩
  obtain ⟨-, -, -, -, e4, e5⟩ := index_facts t
  refine ⟨t, flush4_2 t, ?_⟩
  rw [mem_block]
  intro a
  match a with
  | ⟨0, _⟩ =>
    show win4_2.index t (0 : Fin 2) * 25000 ≤ (i 0).val ∧ (i 0).val < win4_2.index t (0 : Fin 2) * 25000 + 25000
    rw [e4]; show (i 0).val / 25000 * 25000 ≤ (i 0).val ∧ (i 0).val < (i 0).val / 25000 * 25000 + 25000; omega
  | ⟨1, _⟩ =>
    show win4_2.index t (1 : Fin 2) * 1 ≤ (i 1).val ∧ (i 1).val < win4_2.index t (1 : Fin 2) * 1 + 1
    rw [e5]; omega

/-- The result array after the region is the product of the two arrays as the region finds them. -/
theorem final (c : Dev nD) :
    (dat4 V c).arrAt 2 cfg4.N = rowsByCols (M := 100000) (K := 32) (N := 1) (V c main_v60) (V c main_arg6) :=
  (dat4 V c).arrAt_eq_of_cover 2 _ (fun t _ => flushed_eq V c t) covered

end Cert.KernelIdeal.Region4

end
-- ==== Proof.Region5.lean ====
/-
  Region 5 of the idealized kernel: the third layer's bias.

  The region adds a one-row bias to every row of a [100000, 1] array, 25000 rows at a
  time: at grid point t the first window's block is rows 25000·t … 25000·t + 24999 of the array, the second window's
  block is the whole bias row, and the body stores the block plus the row spread over it. The value at an entry
  depends only on that entry and on the bias entry of its column, so every point writes back its block of rows of the
  one such function of the whole arrays, and the four blocks cover the result array.
-/
import proofs.«169840_j11390253269707_1_alg».proof.Proof.Gen.KernelIdeal.Frame
import proofs.«169840_j11390253269707_1_alg».proof.Proof.LibBiasRow
import Idealize.ShloMosaic.Lib.Pipeline.Value
import Idealize.ShloMosaic.Lib.ValueIdx
import Idealize.ShloMosaic.Lib.ValueLayout

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.BiasRow

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is its block plus the bias row, entry by entry. -/
theorem payload_eq (x0 : Vec Ideal S25000x1 .f32) (x1 : Vec Ideal S1x1 .f32) :
    k5_pay1 x0 x1 = biasRow (n := 25000) (c := 1) x0 x1 := by
  funext j
  obtain ⟨p, q, rfl⟩ : ∃ (p : Fin 25000) (q : Fin 1), j = ix2 p q := ⟨j 0, j 1, eq_ix2 j⟩
  simp only [k5_pay1, biasRow, addf_apply, shapeCast_self, broadcastTo_1b_ab_apply]

/-- Where the windows' blocks sit, decided over the grid: the array's and the result's windows move down one block of
    rows per point, the bias window stays. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The first window's block at point t is rows 25000·t … of the array. -/
theorem left_block (c : Dev nD) (t : Fin cfg5.N) (y : S25000x1.Idx) (z : S100000x1.Idx)
    (hz0 : (z 0).val = 25000 * t.val + (y 0).val) (hz1 : (z 1).val = (y 1).val) :
    (iblk5 V c 0 t : Vec Ideal S25000x1 .f32) y = (V c main_v72 : S100000x1.Idx → EReal) z := by
  obtain ⟨e0, e1, -, -, -, -⟩ := index_facts t
  unfold iblk5
  rw [View.read_apply]
  show V c main_v72 _ = V c main_v72 _
  congr 1
  funext a
  apply Fin.ext
  match a with
  | ⟨0, _⟩ => show win5_0.index t (0 : Fin 2) * 25000 + 1 * (y 0).val = (z 0).val; rw [e0, hz0]; omega
  | ⟨1, _⟩ => show win5_0.index t (1 : Fin 2) * 1 + 1 * (y 1).val = (z 1).val; rw [e1, hz1]; omega

/-- The bias window's block at every point is the whole bias row. -/
theorem right_block (c : Dev nD) (t : Fin cfg5.N) (y : S1x1.Idx) :
    (iblk5 V c 1 t : Vec Ideal S1x1 .f32) y = (V c main_v73 : S1x1.Idx → EReal) y := by
  obtain ⟨-, -, e2, e3, -, -⟩ := index_facts t
  unfold iblk5
  rw [View.read_apply]
  show V c main_v73 _ = V c main_v73 _
  congr 1
  funext a
  apply Fin.ext
  match a with
  | ⟨0, _⟩ => show win5_1.index t (0 : Fin 2) * 1 + 1 * (y 0).val = (y 0).val; rw [e2]; omega
  | ⟨1, _⟩ => show win5_1.index t (1 : Fin 2) * 1 + 1 * (y 1).val = (y 1).val; rw [e3]; omega

/-- What point t writes back is block t of the biased whole array. -/
theorem flushed_eq (c : Dev nD) (t : Fin cfg5.N) :
    (dat5 V c).flushed 2 t = ((cfg5.win 2).blk t).view.read (Elt Ideal)
      (biasRow (n := 100000) (c := 1) (V c main_v72) (V c main_v73)) := by
  show (cfg5.win 2).cut (grid5.coords t) ((dat5 V c).after 2 t) = _
  rw [after5_2]
  unfold out5_2
  rw [View.canon_unit_zero zero_offsets]
  simp only [View.ld_unit_zero (S := S25000x1) zero_offsets, View.ld_unit_zero (S := S1x1) zero_offsets]
  rw [payload_eq]
  obtain ⟨-, -, -, -, e4, e5⟩ := index_facts t
  funext j
  rw [View.read_apply]
  have hr0 : ((((cfg5.win 2).blk t).view.emb j) 0).val = 25000 * t.val + (j 0).val := by
    show win5_2.index t (0 : Fin 2) * 25000 + 1 * (j 0).val = _; rw [e4]; omega
  have hr1 : ((((cfg5.win 2).blk t).view.emb j) 1).val = (j 1).val := by
    show win5_2.index t (1 : Fin 2) * 1 + 1 * (j 1).val = _; rw [e5]; omega
  refine biasRow_congr (n := 100000) (n' := 25000) (c := 1) (c' := 1) _ _ _ _ j _ ?_ ?_
  · exact left_block V c t _ _ hr0 hr1
  · rw [right_block V c t]
    exact congrArg _ (funext fun a => Fin.ext (by
      match a with
      | ⟨0, _⟩ => rfl
      | ⟨1, _⟩ => exact hr1.symm))

/-- An index of the result array is in point t's block iff each coordinate is in the block's range on its axis. -/
theorem mem_block (t : Fin cfg5.N) (i : S100000x1.Idx) :
    i ∈ ((cfg5.win 2).blk t).view.set ↔ ∀ a : Fin 2, win5_2.index t a * S25000x1.size a ≤ (i a).val ∧ (i a).val < win5_2.index t a * S25000x1.size a + S25000x1.size a := by
  show i ∈ ((View.whole main_v74).slice (win5_2.rect t)).set ↔ _
  rw [View.set_slice_whole, Rect.mem_set_unit]
  exact Iff.rfl

/-- Every row of the result array is in the block of the point its number divided by 25000 names. -/
theorem covered (i : S100000x1.Idx) :
    ∃ t : Fin cfg5.N, (cfg5.win 2).flush t = true ∧ i ∈ ((cfg5.win 2).blk t).view.set := by
  have hi0 : (i 0).val < 100000 := (i 0).isLt
  have hi1 : (i 1).val < 1 := (i 1).isLt
  have hN : cfg5.N = 4 := N_5
  let t : Fin cfg5.N := ⟨(i 0).val / 25000, by rw [hN]; omega⟩
  obtain ⟨-, -, -, -, e4, e5⟩ := index_facts t
  refine ⟨t, flush5_2 t, ?_⟩
  rw [mem_block]
  intro a
  match a with
  | ⟨0, _⟩ =>
    show win5_2.index t (0 : Fin 2) * 25000 ≤ (i 0).val ∧ (i 0).val < win5_2.index t (0 : Fin 2) * 25000 + 25000
    rw [e4]; show (i 0).val / 25000 * 25000 ≤ (i 0).val ∧ (i 0).val < (i 0).val / 25000 * 25000 + 25000; omega
  | ⟨1, _⟩ =>
    show win5_2.index t (1 : Fin 2) * 1 ≤ (i 1).val ∧ (i 1).val < win5_2.index t (1 : Fin 2) * 1 + 1
    rw [e5]; omega

/-- The result array after the region is the array as the region finds it plus the bias row. -/
theorem final (c : Dev nD) :
    (dat5 V c).arrAt 2 cfg5.N = biasRow (n := 100000) (c := 1) (V c main_v72) (V c main_v73) :=
  (dat5 V c).arrAt_eq_of_cover 2 _ (fun t _ => flushed_eq V c t) covered

end Cert.KernelIdeal.Region5

end
-- ==== Proof.KernelValue.lean ====
/-
  What the idealized kernel returns: the network of the specification, of the argument arrays.

  The run's last boundary is a fold: host stretches and the regions' write-backs, one after the other, from the launch
  memory. It is read here buffer by buffer. The message sources, targets and coefficients are computed once, before the
  first region, and no later stretch or region writes them, so every later stretch finds them unchanged; the same holds
  of each argument array up to the place that reads it. Each region leaves in its result array the product, or the
  biased (and rectified) array, of the arrays it was entered with; each stretch between them is one aggregation. Composed,
  the result buffer ends at `network` of the eight arguments.
-/
import proofs.«169840_j11390253269707_1_alg».proof.Proof.KernelRun
import proofs.«169840_j11390253269707_1_alg».proof.Proof.KernelHost
import proofs.«169840_j11390253269707_1_alg».proof.Proof.Region0
import proofs.«169840_j11390253269707_1_alg».proof.Proof.Region1
import proofs.«169840_j11390253269707_1_alg».proof.Proof.Region2
import proofs.«169840_j11390253269707_1_alg».proof.Proof.Region3
import proofs.«169840_j11390253269707_1_alg».proof.Proof.Region4
import proofs.«169840_j11390253269707_1_alg».proof.Proof.Region5

set_option maxRecDepth 16384

noncomputable section

namespace Cert.KernelIdeal.Whole

open Cert.KernelIdeal Cert.KernelIdeal.Gen Cert.KernelIdeal.Facts₀ Cert.KernelIdeal.Facts
open Idealize.ShloMosaic Idealize.ShloMosaic.TcCoe Idealize.SL.Sem
open Cert.Spec Cert.Lib.PlainDot Cert.Lib.BiasRect Cert.Lib.BiasRow

variable (m : (ℓ : Loc nD τ sig) → Buf (Elt Ideal) ℓ) (ρ : Dev nD → PrngReg) (c : Dev nD)

/-! ## The argument arrays, where they are read -/

theorem arg0_at3 : W3 m ρ c (Proc.devRef .tc main_arg0) = (m ((c : Thread nD τ).loc main_arg0)) :=
  ((Host.hostOps0_2_keeps (W2 m ρ c) main_arg0 (by decide)).trans ((Host.hostOps0_1_keeps (W1 m ρ c) main_arg0 (by decide)).trans (Host.hostOps0_keeps (W0 m ρ c) main_arg0 (by decide)))).trans rfl
theorem arg2_at3 : W3 m ρ c (Proc.devRef .tc main_arg2) = (m ((c : Thread nD τ).loc main_arg2)) :=
  ((Host.hostOps0_2_keeps (W2 m ρ c) main_arg2 (by decide)).trans ((Host.hostOps0_1_keeps (W1 m ρ c) main_arg2 (by decide)).trans (Host.hostOps0_keeps (W0 m ρ c) main_arg2 (by decide)))).trans rfl
theorem arg3_at4 : W4 m ρ c (Proc.devRef .tc main_arg3) = (m ((c : Thread nD τ).loc main_arg3)) :=
  ((W4_of_ne m ρ c main_arg3 (by decide)).trans ((Host.hostOps0_2_keeps (W2 m ρ c) main_arg3 (by decide)).trans ((Host.hostOps0_1_keeps (W1 m ρ c) main_arg3 (by decide)).trans (Host.hostOps0_keeps (W0 m ρ c) main_arg3 (by decide))))).trans rfl
theorem arg4_at6 : W6 m ρ c (Proc.devRef .tc main_arg4) = (m ((c : Thread nD τ).loc main_arg4)) :=
  ((W6_of_ne m ρ c main_arg4 (by decide)).trans ((Host.hostOps1_keeps (W4 m ρ c) main_arg4 (by decide)).trans ((W4_of_ne m ρ c main_arg4 (by decide)).trans ((Host.hostOps0_2_keeps (W2 m ρ c) main_arg4 (by decide)).trans ((Host.hostOps0_1_keeps (W1 m ρ c) main_arg4 (by decide)).trans (Host.hostOps0_keeps (W0 m ρ c) main_arg4 (by decide))))))).trans rfl
theorem arg5_at7 : W7 m ρ c (Proc.devRef .tc main_arg5) = (m ((c : Thread nD τ).loc main_arg5)) :=
  ((W7_of_ne m ρ c main_arg5 (by decide)).trans ((W6_of_ne m ρ c main_arg5 (by decide)).trans ((Host.hostOps1_keeps (W4 m ρ c) main_arg5 (by decide)).trans ((W4_of_ne m ρ c main_arg5 (by decide)).trans ((Host.hostOps0_2_keeps (W2 m ρ c) main_arg5 (by decide)).trans ((Host.hostOps0_1_keeps (W1 m ρ c) main_arg5 (by decide)).trans (Host.hostOps0_keeps (W0 m ρ c) main_arg5 (by decide)))))))).trans rfl
theorem arg6_at9 : W9 m ρ c (Proc.devRef .tc main_arg6) = (m ((c : Thread nD τ).loc main_arg6)) :=
  ((W9_of_ne m ρ c main_arg6 (by decide)).trans ((Host.hostOps3_keeps (W7 m ρ c) main_arg6 (by decide)).trans ((W7_of_ne m ρ c main_arg6 (by decide)).trans ((W6_of_ne m ρ c main_arg6 (by decide)).trans ((Host.hostOps1_keeps (W4 m ρ c) main_arg6 (by decide)).trans ((W4_of_ne m ρ c main_arg6 (by decide)).trans ((Host.hostOps0_2_keeps (W2 m ρ c) main_arg6 (by decide)).trans ((Host.hostOps0_1_keeps (W1 m ρ c) main_arg6 (by decide)).trans (Host.hostOps0_keeps (W0 m ρ c) main_arg6 (by decide)))))))))).trans rfl
theorem arg7_at10 : W10 m ρ c (Proc.devRef .tc main_arg7) = (m ((c : Thread nD τ).loc main_arg7)) :=
  ((W10_of_ne m ρ c main_arg7 (by decide)).trans ((W9_of_ne m ρ c main_arg7 (by decide)).trans ((Host.hostOps3_keeps (W7 m ρ c) main_arg7 (by decide)).trans ((W7_of_ne m ρ c main_arg7 (by decide)).trans ((W6_of_ne m ρ c main_arg7 (by decide)).trans ((Host.hostOps1_keeps (W4 m ρ c) main_arg7 (by decide)).trans ((W4_of_ne m ρ c main_arg7 (by decide)).trans ((Host.hostOps0_2_keeps (W2 m ρ c) main_arg7 (by decide)).trans ((Host.hostOps0_1_keeps (W1 m ρ c) main_arg7 (by decide)).trans (Host.hostOps0_keeps (W0 m ρ c) main_arg7 (by decide))))))))))).trans rfl

/-! ## The graph's data: computed before the first region, unchanged after -/

theorem sources_at3 : W3 m ρ c (Proc.devRef .tc main_v3) = sources (m ((c : Thread nD τ).loc main_arg1)) :=
  ((Host.hostOps0_2_keeps (W2 m ρ c) main_v3 (by decide)).trans (Host.hostOps0_1_keeps (W1 m ρ c) main_v3 (by decide))).trans (Host.sources_eq (W0 m ρ c))
theorem targets_at3 : W3 m ρ c (Proc.devRef .tc main_v6) = targets (m ((c : Thread nD τ).loc main_arg1)) :=
  ((Host.hostOps0_2_keeps (W2 m ρ c) main_v6 (by decide)).trans (Host.hostOps0_1_keeps (W1 m ρ c) main_v6 (by decide))).trans (Host.targets_eq (W0 m ρ c))

/-- The nodes' weights after the second stretch. -/
theorem weight_at2 : W2 m ρ c (Proc.devRef .tc main_v14) = weight (targets (m ((c : Thread nD τ).loc main_arg1))) := by
  refine (Host.where_eq (W1 m ρ c)).trans ?_
  rw [show W1 m ρ c (Proc.devRef .tc main_v12) = _ from Host.positive_eq (W0 m ρ c), show W1 m ρ c (Proc.devRef .tc main_v13) = _ from Host.rsqrt_eq (W0 m ρ c),
    show W1 m ρ c (Proc.devRef .tc main_cst_2) = _ from Host.zero_eq (W0 m ρ c)]
  rfl

theorem coeff_at3 : W3 m ρ c (Proc.devRef .tc main_v30) = coeff (sources (m ((c : Thread nD τ).loc main_arg1))) (targets (m ((c : Thread nD τ).loc main_arg1))) := by
  refine (Host.coeff_eq (W2 m ρ c)).trans ?_
  rw [weight_at2 m ρ c,
    show W2 m ρ c (Proc.devRef .tc main_v3) = sources (m ((c : Thread nD τ).loc main_arg1)) from (Host.hostOps0_1_keeps (W1 m ρ c) main_v3 (by decide)).trans (Host.sources_eq (W0 m ρ c)),
    show W2 m ρ c (Proc.devRef .tc main_v6) = targets (m ((c : Thread nD τ).loc main_arg1)) from (Host.hostOps0_1_keeps (W1 m ρ c) main_v6 (by decide)).trans (Host.targets_eq (W0 m ρ c))]
  rfl

theorem sources_at4 : W4 m ρ c (Proc.devRef .tc main_v3) = sources (m ((c : Thread nD τ).loc main_arg1)) :=
  (W4_of_ne m ρ c main_v3 (by decide)).trans (sources_at3 m ρ c)
theorem targets_at4 : W4 m ρ c (Proc.devRef .tc main_v6) = targets (m ((c : Thread nD τ).loc main_arg1)) :=
  (W4_of_ne m ρ c main_v6 (by decide)).trans (targets_at3 m ρ c)
theorem coeff_at4 : W4 m ρ c (Proc.devRef .tc main_v30) = coeff (sources (m ((c : Thread nD τ).loc main_arg1))) (targets (m ((c : Thread nD τ).loc main_arg1))) :=
  (W4_of_ne m ρ c main_v30 (by decide)).trans (coeff_at3 m ρ c)
theorem sources_at7 : W7 m ρ c (Proc.devRef .tc main_v3) = sources (m ((c : Thread nD τ).loc main_arg1)) :=
  ((W7_of_ne m ρ c main_v3 (by decide)).trans ((W6_of_ne m ρ c main_v3 (by decide)).trans (Host.hostOps1_keeps (W4 m ρ c) main_v3 (by decide)))).trans (sources_at4 m ρ c)
theorem targets_at7 : W7 m ρ c (Proc.devRef .tc main_v6) = targets (m ((c : Thread nD τ).loc main_arg1)) :=
  ((W7_of_ne m ρ c main_v6 (by decide)).trans ((W6_of_ne m ρ c main_v6 (by decide)).trans (Host.hostOps1_keeps (W4 m ρ c) main_v6 (by decide)))).trans (targets_at4 m ρ c)
theorem coeff_at7 : W7 m ρ c (Proc.devRef .tc main_v30) = coeff (sources (m ((c : Thread nD τ).loc main_arg1))) (targets (m ((c : Thread nD τ).loc main_arg1))) :=
  ((W7_of_ne m ρ c main_v30 (by decide)).trans ((W6_of_ne m ρ c main_v30 (by decide)).trans (Host.hostOps1_keeps (W4 m ρ c) main_v30 (by decide)))).trans (coeff_at4 m ρ c)
theorem sources_at10 : W10 m ρ c (Proc.devRef .tc main_v3) = sources (m ((c : Thread nD τ).loc main_arg1)) :=
  ((W10_of_ne m ρ c main_v3 (by decide)).trans ((W9_of_ne m ρ c main_v3 (by decide)).trans (Host.hostOps3_keeps (W7 m ρ c) main_v3 (by decide)))).trans (sources_at7 m ρ c)
theorem targets_at10 : W10 m ρ c (Proc.devRef .tc main_v6) = targets (m ((c : Thread nD τ).loc main_arg1)) :=
  ((W10_of_ne m ρ c main_v6 (by decide)).trans ((W9_of_ne m ρ c main_v6 (by decide)).trans (Host.hostOps3_keeps (W7 m ρ c) main_v6 (by decide)))).trans (targets_at7 m ρ c)
theorem coeff_at10 : W10 m ρ c (Proc.devRef .tc main_v30) = coeff (sources (m ((c : Thread nD τ).loc main_arg1))) (targets (m ((c : Thread nD τ).loc main_arg1))) :=
  ((W10_of_ne m ρ c main_v30 (by decide)).trans ((W9_of_ne m ρ c main_v30 (by decide)).trans (Host.hostOps3_keeps (W7 m ρ c) main_v30 (by decide)))).trans (coeff_at7 m ρ c)

/-! ## The layers -/

/-- Region 0 leaves the first product. -/
theorem product1_at4 : W4 m ρ c (Proc.devRef .tc main_v31) = rowsByCols (M := 100000) (K := 2) (N := 32) (m ((c : Thread nD τ).loc main_arg0)) (m ((c : Thread nD τ).loc main_arg2)) :=
  (W4_arr m ρ c 2).trans ((Region0.final (V3 m ρ) c).trans
    (congrArg₂ (rowsByCols (M := 100000) (K := 2) (N := 32)) (arg0_at3 m ρ c) (arg2_at3 m ρ c)))

/-- The stretch after it aggregates the product and recasts the bias; region 1 adds and rectifies: the first layer. -/
theorem layer1_at6 : W6 m ρ c (Proc.devRef .tc main_v45) = layer1 (m ((c : Thread nD τ).loc main_arg0)) (m ((c : Thread nD τ).loc main_arg2)) (m ((c : Thread nD τ).loc main_arg3)) (sources (m ((c : Thread nD τ).loc main_arg1))) (targets (m ((c : Thread nD τ).loc main_arg1))) (coeff (sources (m ((c : Thread nD τ).loc main_arg1))) (targets (m ((c : Thread nD τ).loc main_arg1)))) := by
  refine (W6_arr m ρ c 2).trans ((Region1.final (V5 m ρ) c).trans ?_)
  show biasRect (n := 100000) (c := 32) (W5 m ρ c (Proc.devRef .tc main_v43)) (W5 m ρ c (Proc.devRef .tc main_v44)) = _
  rw [show W5 m ρ c (Proc.devRef .tc main_v43) = _ from Host.aggregate_1 (W4 m ρ c), show W5 m ρ c (Proc.devRef .tc main_v44) = _ from Host.bias_1 (W4 m ρ c),
    product1_at4 m ρ c, sources_at4 m ρ c, targets_at4 m ρ c, coeff_at4 m ρ c, arg3_at4 m ρ c, biasRect_cast]
  rfl

/-- Region 2 leaves the second product. -/
theorem product2_at7 : W7 m ρ c (Proc.devRef .tc main_v46) = rowsByCols (M := 100000) (K := 32) (N := 32) (layer1 (m ((c : Thread nD τ).loc main_arg0)) (m ((c : Thread nD τ).loc main_arg2)) (m ((c : Thread nD τ).loc main_arg3)) (sources (m ((c : Thread nD τ).loc main_arg1))) (targets (m ((c : Thread nD τ).loc main_arg1))) (coeff (sources (m ((c : Thread nD τ).loc main_arg1))) (targets (m ((c : Thread nD τ).loc main_arg1))))) (m ((c : Thread nD τ).loc main_arg4)) :=
  (W7_arr m ρ c 2).trans ((Region2.final (V6 m ρ) c).trans
    (congrArg₂ (rowsByCols (M := 100000) (K := 32) (N := 32)) (layer1_at6 m ρ c) (arg4_at6 m ρ c)))

/-- The second layer. -/
theorem layer2_at9 : W9 m ρ c (Proc.devRef .tc main_v60) = layer2 (layer1 (m ((c : Thread nD τ).loc main_arg0)) (m ((c : Thread nD τ).loc main_arg2)) (m ((c : Thread nD τ).loc main_arg3)) (sources (m ((c : Thread nD τ).loc main_arg1))) (targets (m ((c : Thread nD τ).loc main_arg1))) (coeff (sources (m ((c : Thread nD τ).loc main_arg1))) (targets (m ((c : Thread nD τ).loc main_arg1))))) (m ((c : Thread nD τ).loc main_arg4)) (m ((c : Thread nD τ).loc main_arg5)) (sources (m ((c : Thread nD τ).loc main_arg1))) (targets (m ((c : Thread nD τ).loc main_arg1))) (coeff (sources (m ((c : Thread nD τ).loc main_arg1))) (targets (m ((c : Thread nD τ).loc main_arg1)))) := by
  refine (W9_arr m ρ c 2).trans ((Region3.final (V8 m ρ) c).trans ?_)
  show biasRect (n := 100000) (c := 32) (W8 m ρ c (Proc.devRef .tc main_v58)) (W8 m ρ c (Proc.devRef .tc main_v59)) = _
  rw [show W8 m ρ c (Proc.devRef .tc main_v58) = _ from Host.aggregate_2 (W7 m ρ c), show W8 m ρ c (Proc.devRef .tc main_v59) = _ from Host.bias_2 (W7 m ρ c),
    product2_at7 m ρ c, sources_at7 m ρ c, targets_at7 m ρ c, coeff_at7 m ρ c, arg5_at7 m ρ c, biasRect_cast]
  rfl

/-- Region 4 leaves the last, one-column product. -/
theorem product3_at10 : W10 m ρ c (Proc.devRef .tc main_v61) = rowsByCols (M := 100000) (K := 32) (N := 1) (layer2 (layer1 (m ((c : Thread nD τ).loc main_arg0)) (m ((c : Thread nD τ).loc main_arg2)) (m ((c : Thread nD τ).loc main_arg3)) (sources (m ((c : Thread nD τ).loc main_arg1))) (targets (m ((c : Thread nD τ).loc main_arg1))) (coeff (sources (m ((c : Thread nD τ).loc main_arg1))) (targets (m ((c : Thread nD τ).loc main_arg1))))) (m ((c : Thread nD τ).loc main_arg4)) (m ((c : Thread nD τ).loc main_arg5)) (sources (m ((c : Thread nD τ).loc main_arg1))) (targets (m ((c : Thread nD τ).loc main_arg1))) (coeff (sources (m ((c : Thread nD τ).loc main_arg1))) (targets (m ((c : Thread nD τ).loc main_arg1))))) (m ((c : Thread nD τ).loc main_arg6)) :=
  (W10_arr m ρ c 2).trans ((Region4.final (V9 m ρ) c).trans
    (congrArg₂ (rowsByCols (M := 100000) (K := 32) (N := 1)) (layer2_at9 m ρ c) (arg6_at9 m ρ c)))

/-- The last layer: no rectification. -/
theorem layer3_at12 : W12 m ρ c (Proc.devRef .tc main_v74) = layer3 (layer2 (layer1 (m ((c : Thread nD τ).loc main_arg0)) (m ((c : Thread nD τ).loc main_arg2)) (m ((c : Thread nD τ).loc main_arg3)) (sources (m ((c : Thread nD τ).loc main_arg1))) (targets (m ((c : Thread nD τ).loc main_arg1))) (coeff (sources (m ((c : Thread nD τ).loc main_arg1))) (targets (m ((c : Thread nD τ).loc main_arg1))))) (m ((c : Thread nD τ).loc main_arg4)) (m ((c : Thread nD τ).loc main_arg5)) (sources (m ((c : Thread nD τ).loc main_arg1))) (targets (m ((c : Thread nD τ).loc main_arg1))) (coeff (sources (m ((c : Thread nD τ).loc main_arg1))) (targets (m ((c : Thread nD τ).loc main_arg1))))) (m ((c : Thread nD τ).loc main_arg6)) (m ((c : Thread nD τ).loc main_arg7)) (sources (m ((c : Thread nD τ).loc main_arg1))) (targets (m ((c : Thread nD τ).loc main_arg1))) (coeff (sources (m ((c : Thread nD τ).loc main_arg1))) (targets (m ((c : Thread nD τ).loc main_arg1)))) := by
  refine (W12_arr m ρ c 2).trans ((Region5.final (V11 m ρ) c).trans ?_)
  show biasRow (n := 100000) (c := 1) (W11 m ρ c (Proc.devRef .tc main_v72)) (W11 m ρ c (Proc.devRef .tc main_v73)) = _
  rw [show W11 m ρ c (Proc.devRef .tc main_v72) = _ from Host.aggregate_3 (W10 m ρ c), show W11 m ρ c (Proc.devRef .tc main_v73) = _ from Host.bias_3 (W10 m ρ c),
    product3_at10 m ρ c, sources_at10 m ρ c, targets_at10 m ρ c, coeff_at10 m ρ c, arg7_at10 m ρ c, biasRow_cast]
  rfl

/-- The result buffer at the last boundary is the network of the arguments. -/
theorem result_value : W13 m ρ c (Proc.devRef .tc main_v75)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Host.result_eq (W12 m ρ c)).trans ?_
  rw [layer3_at12 m ρ c]
  rfl

/-- The run, read: the result at the network of the arguments, the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v75) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result (F := Ideal) m ρ)

end Cert.KernelIdeal.Whole

end
-- ==== Proof.RefOps.lean ====
/-
  The idealized reference as a line of host operations, cut where the kernel's program has its regions.

  The reference is 104 host operations and no kernel. Its run ends with every buffer at the fold of the operations
  over the launch memory. The line is cut here into twelve parts: the graph's data (three parts, as in the kernel's
  program), then for each layer the product, the aggregation, and the bias step. The fold of the whole line is the
  fold of the parts in order, and a buffer a part does not write keeps its contents through it.
-/
import proofs.«169840_j11390253269707_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The parts -/

/-- The edge list's rows with the self loops appended, the degrees, where they are positive and their reciprocal square roots. -/
abbrev P0 : List (HloOp τ sig (Elt F)) :=
  [ nullary main_v0 (iotaInDim S100000 32 0),
    unary main_arg1 main_v1 ((extractStridedSlice S1x2400000 ![0, 0] · slices_S2x2400000_S1x2400000_0_0) : (⟨S2x2400000, .i32⟩ : BufTy).Contents (Elt F) → (⟨S1x2400000, .i32⟩ : BufTy).Contents (Elt F)),
    reshape main_v1 main_v2 rfl shapeCasts_S1x2400000_S2400000,
    binary main_v2 main_v0 main_v3 ((fun a b => concatenate S2500000 0 [⟨S2400000, a⟩, ⟨S100000, b⟩] concatenates_S2400000_S100000_S2500000_d0) : (⟨S2400000, .i32⟩ : BufTy).Contents (Elt F) → (⟨S100000, .i32⟩ : BufTy).Contents (Elt F) → (⟨S2500000, .i32⟩ : BufTy).Contents (Elt F)),
    unary main_arg1 main_v4 ((extractStridedSlice S1x2400000 ![1, 0] · slices_S2x2400000_S1x2400000_1_0) : (⟨S2x2400000, .i32⟩ : BufTy).Contents (Elt F) → (⟨S1x2400000, .i32⟩ : BufTy).Contents (Elt F)),
    reshape main_v4 main_v5 rfl shapeCasts_S1x2400000_S2400000,
    binary main_v5 main_v0 main_v6 ((fun a b => concatenate S2500000 0 [⟨S2400000, a⟩, ⟨S100000, b⟩] concatenates_S2400000_S100000_S2500000_d0) : (⟨S2400000, .i32⟩ : BufTy).Contents (Elt F) → (⟨S100000, .i32⟩ : BufTy).Contents (Elt F) → (⟨S2500000, .i32⟩ : BufTy).Contents (Elt F)),
    nullary main_cst (constant S_ .f32 0x3F800000#32),
    unary main_cst main_v7 (broadcastInDim S2500000 ![] bcast_S_S2500000 : (⟨S_, .f32⟩ : BufTy).Contents (Elt F) → (⟨S2500000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S2500000x1 ![0] bcast_S2500000_S2500000x1_0 : (⟨S2500000, .i32⟩ : BufTy).Contents (Elt F) → (⟨S2500000x1, .i32⟩ : BufTy).Contents (Elt F)),
    ternary main_v8 main_v9 main_v7 main_v10 ((fun x i u => Host.scatterAdd scatter_S100000_S2500000x1_S2500000_n_0_0_1 x i u) : (⟨S100000, .f32⟩ : BufTy).Contents (Elt F) → (⟨S2500000x1, .i32⟩ : BufTy).Contents (Elt F) → (⟨S2500000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The nodes' weights: the choice between the reciprocal square root and zero. -/
abbrev P1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The start indices wrapped, the weights gathered at both endpoints, the messages' coefficients. -/
abbrev P2 : List (HloOp τ sig (Elt F)) :=
  [ nullary main_c (constantI S_ 32 0#32),
    unary main_c main_v15 (broadcastInDim S2500000 ![] bcast_S_S2500000 : (⟨S_, .i32⟩ : BufTy).Contents (Elt F) → (⟨S2500000, .i32⟩ : BufTy).Contents (Elt F)),
    binary main_v3 main_v15 main_v16 (cmpi .slt : (⟨S2500000, .i32⟩ : BufTy).Contents (Elt F) → (⟨S2500000, .i32⟩ : BufTy).Contents (Elt F) → (⟨S2500000, .i1⟩ : BufTy).Contents (Elt F)),
    nullary main_c_3 (constantI S_ 32 100000#32),
    unary main_c_3 main_v17 (broadcastInDim S2500000 ![] bcast_S_S2500000 : (⟨S_, .i32⟩ : BufTy).Contents (Elt F) → (⟨S2500000, .i32⟩ : BufTy).Contents (Elt F)),
    binary main_v3 main_v17 main_v18 (addi : (⟨S2500000, .i32⟩ : BufTy).Contents (Elt F) → (⟨S2500000, .i32⟩ : BufTy).Contents (Elt F) → (⟨S2500000, .i32⟩ : BufTy).Contents (Elt F)),
    ternary main_v16 main_v18 main_v3 main_v19 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v19 main_v20 (broadcastInDim S2500000x1 ![0] bcast_S2500000_S2500000x1_0 : (⟨S2500000, .i32⟩ : BufTy).Contents (Elt F) → (⟨S2500000x1, .i32⟩ : BufTy).Contents (Elt F)),
    binary main_v14 main_v20 main_v21 ((fun x i => Host.gather gather_S100000_S2500000x1_S2500000_n_0_n_n_0_1_1 x i) : (⟨S100000, .f32⟩ : BufTy).Contents (Elt F) → (⟨S2500000x1, .i32⟩ : BufTy).Contents (Elt F) → (⟨S2500000, .f32⟩ : BufTy).Contents (Elt F)),
    nullary main_c_4 (constantI S_ 32 0#32),
    unary main_c_4 main_v22 (broadcastInDim S2500000 ![] bcast_S_S2500000 : (⟨S_, .i32⟩ : BufTy).Contents (Elt F) → (⟨S2500000, .i32⟩ : BufTy).Contents (Elt F)),
    binary main_v6 main_v22 main_v23 (cmpi .slt : (⟨S2500000, .i32⟩ : BufTy).Contents (Elt F) → (⟨S2500000, .i32⟩ : BufTy).Contents (Elt F) → (⟨S2500000, .i1⟩ : BufTy).Contents (Elt F)),
    nullary main_c_5 (constantI S_ 32 100000#32),
    unary main_c_5 main_v24 (broadcastInDim S2500000 ![] bcast_S_S2500000 : (⟨S_, .i32⟩ : BufTy).Contents (Elt F) → (⟨S2500000, .i32⟩ : BufTy).Contents (Elt F)),
    binary main_v6 main_v24 main_v25 (addi : (⟨S2500000, .i32⟩ : BufTy).Contents (Elt F) → (⟨S2500000, .i32⟩ : BufTy).Contents (Elt F) → (⟨S2500000, .i32⟩ : BufTy).Contents (Elt F)),
    ternary main_v23 main_v25 main_v6 main_v26 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v26 main_v27 (broadcastInDim S2500000x1 ![0] bcast_S2500000_S2500000x1_0 : (⟨S2500000, .i32⟩ : BufTy).Contents (Elt F) → (⟨S2500000x1, .i32⟩ : BufTy).Contents (Elt F)),
    binary main_v14 main_v27 main_v28 ((fun x i => Host.gather gather_S100000_S2500000x1_S2500000_n_0_n_n_0_1_1 x i) : (⟨S100000, .f32⟩ : BufTy).Contents (Elt F) → (⟨S2500000x1, .i32⟩ : BufTy).Contents (Elt F) → (⟨S2500000, .f32⟩ : BufTy).Contents (Elt F)),
    binary main_v21 main_v28 main_v29 (mulf : (⟨S2500000, .f32⟩ : BufTy).Contents (Elt F) → (⟨S2500000, .f32⟩ : BufTy).Contents (Elt F) → (⟨S2500000, .f32⟩ : BufTy).Contents (Elt F)),
    unary main_v29 main_v30 (broadcastInDim S2500000x1 ![0] bcast_S2500000_S2500000x1_0 : (⟨S2500000, .f32⟩ : BufTy).Contents (Elt F) → (⟨S2500000x1, .f32⟩ : BufTy).Contents (Elt F)) ]

/-- The first layer's product. -/
abbrev D1 : List (HloOp τ sig (Elt F)) :=
  [ binary main_arg0 main_arg2 main_v31 ((fun l r => Host.dotGeneral dot_S100000x2_S2x32_S100000x32_1_0_0_1_n_n none l r) : (⟨S100000x2, .f32⟩ : BufTy).Contents (Elt F) → (⟨S2x32, .f32⟩ : BufTy).Contents (Elt F) → (⟨S100000x32, .f32⟩ : BufTy).Contents (Elt F)) ]

/-- The first layer's aggregation. -/
abbrev G1 : List (HloOp τ sig (Elt F)) :=
  [ nullary main_c_6 (constantI S_ 32 0#32),
    unary main_c_6 main_v32 (broadcastInDim S2500000 ![] bcast_S_S2500000 : (⟨S_, .i32⟩ : BufTy).Contents (Elt F) → (⟨S2500000, .i32⟩ : BufTy).Contents (Elt F)),
    binary main_v3 main_v32 main_v33 (cmpi .slt : (⟨S2500000, .i32⟩ : BufTy).Contents (Elt F) → (⟨S2500000, .i32⟩ : BufTy).Contents (Elt F) → (⟨S2500000, .i1⟩ : BufTy).Contents (Elt F)),
    nullary main_c_7 (constantI S_ 32 100000#32),
    unary main_c_7 main_v34 (broadcastInDim S2500000 ![] bcast_S_S2500000 : (⟨S_, .i32⟩ : BufTy).Contents (Elt F) → (⟨S2500000, .i32⟩ : BufTy).Contents (Elt F)),
    binary main_v3 main_v34 main_v35 (addi : (⟨S2500000, .i32⟩ : BufTy).Contents (Elt F) → (⟨S2500000, .i32⟩ : BufTy).Contents (Elt F) → (⟨S2500000, .i32⟩ : BufTy).Contents (Elt F)),
    ternary main_v33 main_v35 main_v3 main_v36 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v36 main_v37 (broadcastInDim S2500000x1 ![0] bcast_S2500000_S2500000x1_0 : (⟨S2500000, .i32⟩ : BufTy).Contents (Elt F) → (⟨S2500000x1, .i32⟩ : BufTy).Contents (Elt F)),
    binary main_v31 main_v37 main_v38 ((fun x i => Host.gather gather_S100000x32_S2500000x1_S2500000x32_1_0_n_n_0_1_132 x i) : (⟨S100000x32, .f32⟩ : BufTy).Contents (Elt F) → (⟨S2500000x1, .i32⟩ : BufTy).Contents (Elt F) → (⟨S2500000x32, .f32⟩ : BufTy).Contents (Elt F)),
    unary main_v30 main_v39 (broadcastInDim S2500000x32 ![0, 1] bcast_S2500000x1_S2500000x32_0_1 : (⟨S2500000x1, .f32⟩ : BufTy).Contents (Elt F) → (⟨S2500000x32, .f32⟩ : BufTy).Contents (Elt F)),
    binary main_v39 main_v38 main_v40 (mulf : (⟨S2500000x32, .f32⟩ : BufTy).Contents (Elt F) → (⟨S2500000x32, .f32⟩ : BufTy).Contents (Elt F) → (⟨S2500000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S2500000x1 ![0] bcast_S2500000_S2500000x1_0 : (⟨S2500000, .i32⟩ : BufTy).Contents (Elt F) → (⟨S2500000x1, .i32⟩ : BufTy).Contents (Elt F)),
    ternary main_v41 main_v42 main_v40 main_v43 ((fun x i u => Host.scatterAdd scatter_S100000x32_S2500000x1_S2500000x32_1_0_0_1 x i u) : (⟨S100000x32, .f32⟩ : BufTy).Contents (Elt F) → (⟨S2500000x1, .i32⟩ : BufTy).Contents (Elt F) → (⟨S2500000x32, .f32⟩ : BufTy).Contents (Elt F) → (⟨S100000x32, .f32⟩ : BufTy).Contents (Elt F)) ]

/-- The first layer's bias and rectification. -/
abbrev E1 : List (HloOp τ sig (Elt F)) :=
  [ unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf ]

/-- The second layer's product. -/
abbrev D2 : List (HloOp τ sig (Elt F)) :=
  [ binary main_v47 main_arg4 main_v48 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

/-- The second layer's aggregation. -/
abbrev G2 : List (HloOp τ sig (Elt F)) :=
  [ nullary main_c_9 (constantI S_ 32 0#32),
    unary main_c_9 main_v49 (broadcastInDim S2500000 ![] bcast_S_S2500000 : (⟨S_, .i32⟩ : BufTy).Contents (Elt F) → (⟨S2500000, .i32⟩ : BufTy).Contents (Elt F)),
    binary main_v3 main_v49 main_v50 (cmpi .slt : (⟨S2500000, .i32⟩ : BufTy).Contents (Elt F) → (⟨S2500000, .i32⟩ : BufTy).Contents (Elt F) → (⟨S2500000, .i1⟩ : BufTy).Contents (Elt F)),
    nullary main_c_10 (constantI S_ 32 100000#32),
    unary main_c_10 main_v51 (broadcastInDim S2500000 ![] bcast_S_S2500000 : (⟨S_, .i32⟩ : BufTy).Contents (Elt F) → (⟨S2500000, .i32⟩ : BufTy).Contents (Elt F)),
    binary main_v3 main_v51 main_v52 (addi : (⟨S2500000, .i32⟩ : BufTy).Contents (Elt F) → (⟨S2500000, .i32⟩ : BufTy).Contents (Elt F) → (⟨S2500000, .i32⟩ : BufTy).Contents (Elt F)),
    ternary main_v50 main_v52 main_v3 main_v53 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v53 main_v54 (broadcastInDim S2500000x1 ![0] bcast_S2500000_S2500000x1_0 : (⟨S2500000, .i32⟩ : BufTy).Contents (Elt F) → (⟨S2500000x1, .i32⟩ : BufTy).Contents (Elt F)),
    binary main_v48 main_v54 main_v55 ((fun x i => Host.gather gather_S100000x32_S2500000x1_S2500000x32_1_0_n_n_0_1_132 x i) : (⟨S100000x32, .f32⟩ : BufTy).Contents (Elt F) → (⟨S2500000x1, .i32⟩ : BufTy).Contents (Elt F) → (⟨S2500000x32, .f32⟩ : BufTy).Contents (Elt F)),
    unary main_v30 main_v56 (broadcastInDim S2500000x32 ![0, 1] bcast_S2500000x1_S2500000x32_0_1 : (⟨S2500000x1, .f32⟩ : BufTy).Contents (Elt F) → (⟨S2500000x32, .f32⟩ : BufTy).Contents (Elt F)),
    binary main_v56 main_v55 main_v57 (mulf : (⟨S2500000x32, .f32⟩ : BufTy).Contents (Elt F) → (⟨S2500000x32, .f32⟩ : BufTy).Contents (Elt F) → (⟨S2500000x32, .f32⟩ : BufTy).Contents (Elt F)),
    nullary main_cst_11 (constant S_ .f32 0x00000000#32),
    unary main_cst_11 main_v58 (broadcastInDim S100000x32 ![] bcast_S_S100000x32 : (⟨S_, .f32⟩ : BufTy).Contents (Elt F) → (⟨S100000x32, .f32⟩ : BufTy).Contents (Elt F)),
    unary main_v6 main_v59 (broadcastInDim S2500000x1 ![0] bcast_S2500000_S2500000x1_0 : (⟨S2500000, .i32⟩ : BufTy).Contents (Elt F) → (⟨S2500000x1, .i32⟩ : BufTy).Contents (Elt F)),
    ternary main_v58 main_v59 main_v57 main_v60 ((fun x i u => Host.scatterAdd scatter_S100000x32_S2500000x1_S2500000x32_1_0_0_1 x i u) : (⟨S100000x32, .f32⟩ : BufTy).Contents (Elt F) → (⟨S2500000x1, .i32⟩ : BufTy).Contents (Elt F) → (⟨S2500000x32, .f32⟩ : BufTy).Contents (Elt F) → (⟨S100000x32, .f32⟩ : BufTy).Contents (Elt F)) ]

/-- The second layer's bias and rectification. -/
abbrev E2 : List (HloOp τ sig (Elt F)) :=
  [ unary main_arg5 main_v61 (broadcastInDim S1x32 ![1] bcast_S32_S1x32_1 : (⟨S32, .f32⟩ : BufTy).Contents (Elt F) → (⟨S1x32, .f32⟩ : BufTy).Contents (Elt F)),
    unary main_v61 main_v62 (broadcastInDim S100000x32 ![0, 1] bcast_S1x32_S100000x32_0_1 : (⟨S1x32, .f32⟩ : BufTy).Contents (Elt F) → (⟨S100000x32, .f32⟩ : BufTy).Contents (Elt F)),
    binary main_v60 main_v62 main_v63 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x32, .f32⟩) main_call2_v0) (broadcastInDim S100000x32 ![] bcast_S_S100000x32),
    TRef.binary (TRef.of (T := ⟨S100000x32, .f32⟩) main_v63) (TRef.of (T := ⟨S100000x32, .f32⟩) main_call2_v0) (TRef.of (T := ⟨S100000x32, .f32⟩) main_v64) maximumf ]

/-- The third layer's product. -/
abbrev D3 : List (HloOp τ sig (Elt F)) :=
  [ binary main_v64 main_arg6 main_v65 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)) ]

/-- The third layer's aggregation. -/
abbrev G3 : List (HloOp τ sig (Elt F)) :=
  [ nullary main_c_12 (constantI S_ 32 0#32),
    unary main_c_12 main_v66 (broadcastInDim S2500000 ![] bcast_S_S2500000 : (⟨S_, .i32⟩ : BufTy).Contents (Elt F) → (⟨S2500000, .i32⟩ : BufTy).Contents (Elt F)),
    binary main_v3 main_v66 main_v67 (cmpi .slt : (⟨S2500000, .i32⟩ : BufTy).Contents (Elt F) → (⟨S2500000, .i32⟩ : BufTy).Contents (Elt F) → (⟨S2500000, .i1⟩ : BufTy).Contents (Elt F)),
    nullary main_c_13 (constantI S_ 32 100000#32),
    unary main_c_13 main_v68 (broadcastInDim S2500000 ![] bcast_S_S2500000 : (⟨S_, .i32⟩ : BufTy).Contents (Elt F) → (⟨S2500000, .i32⟩ : BufTy).Contents (Elt F)),
    binary main_v3 main_v68 main_v69 (addi : (⟨S2500000, .i32⟩ : BufTy).Contents (Elt F) → (⟨S2500000, .i32⟩ : BufTy).Contents (Elt F) → (⟨S2500000, .i32⟩ : BufTy).Contents (Elt F)),
    ternary main_v67 main_v69 main_v3 main_v70 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v70 main_v71 (broadcastInDim S2500000x1 ![0] bcast_S2500000_S2500000x1_0 : (⟨S2500000, .i32⟩ : BufTy).Contents (Elt F) → (⟨S2500000x1, .i32⟩ : BufTy).Contents (Elt F)),
    binary main_v65 main_v71 main_v72 ((fun x i => Host.gather gather_S100000x1_S2500000x1_S2500000x1_1_0_n_n_0_1_11 x i) : (⟨S100000x1, .f32⟩ : BufTy).Contents (Elt F) → (⟨S2500000x1, .i32⟩ : BufTy).Contents (Elt F) → (⟨S2500000x1, .f32⟩ : BufTy).Contents (Elt F)),
    binary main_v30 main_v72 main_v73 (mulf : (⟨S2500000x1, .f32⟩ : BufTy).Contents (Elt F) → (⟨S2500000x1, .f32⟩ : BufTy).Contents (Elt F) → (⟨S2500000x1, .f32⟩ : BufTy).Contents (Elt F)),
    nullary main_cst_14 (constant S_ .f32 0x00000000#32),
    unary main_cst_14 main_v74 (broadcastInDim S100000x1 ![] bcast_S_S100000x1 : (⟨S_, .f32⟩ : BufTy).Contents (Elt F) → (⟨S100000x1, .f32⟩ : BufTy).Contents (Elt F)),
    unary main_v6 main_v75 (broadcastInDim S2500000x1 ![0] bcast_S2500000_S2500000x1_0 : (⟨S2500000, .i32⟩ : BufTy).Contents (Elt F) → (⟨S2500000x1, .i32⟩ : BufTy).Contents (Elt F)),
    ternary main_v74 main_v75 main_v73 main_v76 ((fun x i u => Host.scatterAdd scatter_S100000x1_S2500000x1_S2500000x1_1_0_0_1 x i u) : (⟨S100000x1, .f32⟩ : BufTy).Contents (Elt F) → (⟨S2500000x1, .i32⟩ : BufTy).Contents (Elt F) → (⟨S2500000x1, .f32⟩ : BufTy).Contents (Elt F) → (⟨S100000x1, .f32⟩ : BufTy).Contents (Elt F)) ]

/-- The third layer's bias, and the column recast as a vector. -/
abbrev E3 : List (HloOp τ sig (Elt F)) :=
  [ unary main_arg7 main_v77 (broadcastInDim S1x1 ![1] bcast_S1_S1x1_1 : (⟨S1, .f32⟩ : BufTy).Contents (Elt F) → (⟨S1x1, .f32⟩ : BufTy).Contents (Elt F)),
    unary main_v77 main_v78 (broadcastInDim S100000x1 ![0, 1] bcast_S1x1_S100000x1_0_1 : (⟨S1x1, .f32⟩ : BufTy).Contents (Elt F) → (⟨S100000x1, .f32⟩ : BufTy).Contents (Elt F)),
    binary main_v76 main_v78 main_v79 (addf : (⟨S100000x1, .f32⟩ : BufTy).Contents (Elt F) → (⟨S100000x1, .f32⟩ : BufTy).Contents (Elt F) → (⟨S100000x1, .f32⟩ : BufTy).Contents (Elt F)),
    reshape main_v79 main_v80 rfl shapeCasts_S100000x1_S100000 ]

/-- The whole line. -/
abbrev ops : List (HloOp τ sig (Elt F)) :=
  [ nullary main_v0 (iotaInDim S100000 32 0),
    unary main_arg1 main_v1 ((extractStridedSlice S1x2400000 ![0, 0] · slices_S2x2400000_S1x2400000_0_0) : (⟨S2x2400000, .i32⟩ : BufTy).Contents (Elt F) → (⟨S1x2400000, .i32⟩ : BufTy).Contents (Elt F)),
    reshape main_v1 main_v2 rfl shapeCasts_S1x2400000_S2400000,
    binary main_v2 main_v0 main_v3 ((fun a b => concatenate S2500000 0 [⟨S2400000, a⟩, ⟨S100000, b⟩] concatenates_S2400000_S100000_S2500000_d0) : (⟨S2400000, .i32⟩ : BufTy).Contents (Elt F) → (⟨S100000, .i32⟩ : BufTy).Contents (Elt F) → (⟨S2500000, .i32⟩ : BufTy).Contents (Elt F)),
    unary main_arg1 main_v4 ((extractStridedSlice S1x2400000 ![1, 0] · slices_S2x2400000_S1x2400000_1_0) : (⟨S2x2400000, .i32⟩ : BufTy).Contents (Elt F) → (⟨S1x2400000, .i32⟩ : BufTy).Contents (Elt F)),
    reshape main_v4 main_v5 rfl shapeCasts_S1x2400000_S2400000,
    binary main_v5 main_v0 main_v6 ((fun a b => concatenate S2500000 0 [⟨S2400000, a⟩, ⟨S100000, b⟩] concatenates_S2400000_S100000_S2500000_d0) : (⟨S2400000, .i32⟩ : BufTy).Contents (Elt F) → (⟨S100000, .i32⟩ : BufTy).Contents (Elt F) → (⟨S2500000, .i32⟩ : BufTy).Contents (Elt F)),
    nullary main_cst (constant S_ .f32 0x3F800000#32),
    unary main_cst main_v7 (broadcastInDim S2500000 ![] bcast_S_S2500000 : (⟨S_, .f32⟩ : BufTy).Contents (Elt F) → (⟨S2500000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S2500000x1 ![0] bcast_S2500000_S2500000x1_0 : (⟨S2500000, .i32⟩ : BufTy).Contents (Elt F) → (⟨S2500000x1, .i32⟩ : BufTy).Contents (Elt F)),
    ternary main_v8 main_v9 main_v7 main_v10 ((fun x i u => Host.scatterAdd scatter_S100000_S2500000x1_S2500000_n_0_0_1 x i u) : (⟨S100000, .f32⟩ : BufTy).Contents (Elt F) → (⟨S2500000x1, .i32⟩ : BufTy).Contents (Elt F) → (⟨S2500000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S2500000 ![] bcast_S_S2500000 : (⟨S_, .i32⟩ : BufTy).Contents (Elt F) → (⟨S2500000, .i32⟩ : BufTy).Contents (Elt F)),
    binary main_v3 main_v15 main_v16 (cmpi .slt : (⟨S2500000, .i32⟩ : BufTy).Contents (Elt F) → (⟨S2500000, .i32⟩ : BufTy).Contents (Elt F) → (⟨S2500000, .i1⟩ : BufTy).Contents (Elt F)),
    nullary main_c_3 (constantI S_ 32 100000#32),
    unary main_c_3 main_v17 (broadcastInDim S2500000 ![] bcast_S_S2500000 : (⟨S_, .i32⟩ : BufTy).Contents (Elt F) → (⟨S2500000, .i32⟩ : BufTy).Contents (Elt F)),
    binary main_v3 main_v17 main_v18 (addi : (⟨S2500000, .i32⟩ : BufTy).Contents (Elt F) → (⟨S2500000, .i32⟩ : BufTy).Contents (Elt F) → (⟨S2500000, .i32⟩ : BufTy).Contents (Elt F)),
    ternary main_v16 main_v18 main_v3 main_v19 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v19 main_v20 (broadcastInDim S2500000x1 ![0] bcast_S2500000_S2500000x1_0 : (⟨S2500000, .i32⟩ : BufTy).Contents (Elt F) → (⟨S2500000x1, .i32⟩ : BufTy).Contents (Elt F)),
    binary main_v14 main_v20 main_v21 ((fun x i => Host.gather gather_S100000_S2500000x1_S2500000_n_0_n_n_0_1_1 x i) : (⟨S100000, .f32⟩ : BufTy).Contents (Elt F) → (⟨S2500000x1, .i32⟩ : BufTy).Contents (Elt F) → (⟨S2500000, .f32⟩ : BufTy).Contents (Elt F)),
    nullary main_c_4 (constantI S_ 32 0#32),
    unary main_c_4 main_v22 (broadcastInDim S2500000 ![] bcast_S_S2500000 : (⟨S_, .i32⟩ : BufTy).Contents (Elt F) → (⟨S2500000, .i32⟩ : BufTy).Contents (Elt F)),
    binary main_v6 main_v22 main_v23 (cmpi .slt : (⟨S2500000, .i32⟩ : BufTy).Contents (Elt F) → (⟨S2500000, .i32⟩ : BufTy).Contents (Elt F) → (⟨S2500000, .i1⟩ : BufTy).Contents (Elt F)),
    nullary main_c_5 (constantI S_ 32 100000#32),
    unary main_c_5 main_v24 (broadcastInDim S2500000 ![] bcast_S_S2500000 : (⟨S_, .i32⟩ : BufTy).Contents (Elt F) → (⟨S2500000, .i32⟩ : BufTy).Contents (Elt F)),
    binary main_v6 main_v24 main_v25 (addi : (⟨S2500000, .i32⟩ : BufTy).Contents (Elt F) → (⟨S2500000, .i32⟩ : BufTy).Contents (Elt F) → (⟨S2500000, .i32⟩ : BufTy).Contents (Elt F)),
    ternary main_v23 main_v25 main_v6 main_v26 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v26 main_v27 (broadcastInDim S2500000x1 ![0] bcast_S2500000_S2500000x1_0 : (⟨S2500000, .i32⟩ : BufTy).Contents (Elt F) → (⟨S2500000x1, .i32⟩ : BufTy).Contents (Elt F)),
    binary main_v14 main_v27 main_v28 ((fun x i => Host.gather gather_S100000_S2500000x1_S2500000_n_0_n_n_0_1_1 x i) : (⟨S100000, .f32⟩ : BufTy).Contents (Elt F) → (⟨S2500000x1, .i32⟩ : BufTy).Contents (Elt F) → (⟨S2500000, .f32⟩ : BufTy).Contents (Elt F)),
    binary main_v21 main_v28 main_v29 (mulf : (⟨S2500000, .f32⟩ : BufTy).Contents (Elt F) → (⟨S2500000, .f32⟩ : BufTy).Contents (Elt F) → (⟨S2500000, .f32⟩ : BufTy).Contents (Elt F)),
    unary main_v29 main_v30 (broadcastInDim S2500000x1 ![0] bcast_S2500000_S2500000x1_0 : (⟨S2500000, .f32⟩ : BufTy).Contents (Elt F) → (⟨S2500000x1, .f32⟩ : BufTy).Contents (Elt F)),
    binary main_arg0 main_arg2 main_v31 ((fun l r => Host.dotGeneral dot_S100000x2_S2x32_S100000x32_1_0_0_1_n_n none l r) : (⟨S100000x2, .f32⟩ : BufTy).Contents (Elt F) → (⟨S2x32, .f32⟩ : BufTy).Contents (Elt F) → (⟨S100000x32, .f32⟩ : BufTy).Contents (Elt F)),
    nullary main_c_6 (constantI S_ 32 0#32),
    unary main_c_6 main_v32 (broadcastInDim S2500000 ![] bcast_S_S2500000 : (⟨S_, .i32⟩ : BufTy).Contents (Elt F) → (⟨S2500000, .i32⟩ : BufTy).Contents (Elt F)),
    binary main_v3 main_v32 main_v33 (cmpi .slt : (⟨S2500000, .i32⟩ : BufTy).Contents (Elt F) → (⟨S2500000, .i32⟩ : BufTy).Contents (Elt F) → (⟨S2500000, .i1⟩ : BufTy).Contents (Elt F)),
    nullary main_c_7 (constantI S_ 32 100000#32),
    unary main_c_7 main_v34 (broadcastInDim S2500000 ![] bcast_S_S2500000 : (⟨S_, .i32⟩ : BufTy).Contents (Elt F) → (⟨S2500000, .i32⟩ : BufTy).Contents (Elt F)),
    binary main_v3 main_v34 main_v35 (addi : (⟨S2500000, .i32⟩ : BufTy).Contents (Elt F) → (⟨S2500000, .i32⟩ : BufTy).Contents (Elt F) → (⟨S2500000, .i32⟩ : BufTy).Contents (Elt F)),
    ternary main_v33 main_v35 main_v3 main_v36 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v36 main_v37 (broadcastInDim S2500000x1 ![0] bcast_S2500000_S2500000x1_0 : (⟨S2500000, .i32⟩ : BufTy).Contents (Elt F) → (⟨S2500000x1, .i32⟩ : BufTy).Contents (Elt F)),
    binary main_v31 main_v37 main_v38 ((fun x i => Host.gather gather_S100000x32_S2500000x1_S2500000x32_1_0_n_n_0_1_132 x i) : (⟨S100000x32, .f32⟩ : BufTy).Contents (Elt F) → (⟨S2500000x1, .i32⟩ : BufTy).Contents (Elt F) → (⟨S2500000x32, .f32⟩ : BufTy).Contents (Elt F)),
    unary main_v30 main_v39 (broadcastInDim S2500000x32 ![0, 1] bcast_S2500000x1_S2500000x32_0_1 : (⟨S2500000x1, .f32⟩ : BufTy).Contents (Elt F) → (⟨S2500000x32, .f32⟩ : BufTy).Contents (Elt F)),
    binary main_v39 main_v38 main_v40 (mulf : (⟨S2500000x32, .f32⟩ : BufTy).Contents (Elt F) → (⟨S2500000x32, .f32⟩ : BufTy).Contents (Elt F) → (⟨S2500000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S2500000x1 ![0] bcast_S2500000_S2500000x1_0 : (⟨S2500000, .i32⟩ : BufTy).Contents (Elt F) → (⟨S2500000x1, .i32⟩ : BufTy).Contents (Elt F)),
    ternary main_v41 main_v42 main_v40 main_v43 ((fun x i u => Host.scatterAdd scatter_S100000x32_S2500000x1_S2500000x32_1_0_0_1 x i u) : (⟨S100000x32, .f32⟩ : BufTy).Contents (Elt F) → (⟨S2500000x1, .i32⟩ : BufTy).Contents (Elt F) → (⟨S2500000x32, .f32⟩ : BufTy).Contents (Elt F) → (⟨S100000x32, .f32⟩ : BufTy).Contents (Elt F)),
    unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf,
    binary main_v47 main_arg4 main_v48 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    nullary main_c_9 (constantI S_ 32 0#32),
    unary main_c_9 main_v49 (broadcastInDim S2500000 ![] bcast_S_S2500000 : (⟨S_, .i32⟩ : BufTy).Contents (Elt F) → (⟨S2500000, .i32⟩ : BufTy).Contents (Elt F)),
    binary main_v3 main_v49 main_v50 (cmpi .slt : (⟨S2500000, .i32⟩ : BufTy).Contents (Elt F) → (⟨S2500000, .i32⟩ : BufTy).Contents (Elt F) → (⟨S2500000, .i1⟩ : BufTy).Contents (Elt F)),
    nullary main_c_10 (constantI S_ 32 100000#32),
    unary main_c_10 main_v51 (broadcastInDim S2500000 ![] bcast_S_S2500000 : (⟨S_, .i32⟩ : BufTy).Contents (Elt F) → (⟨S2500000, .i32⟩ : BufTy).Contents (Elt F)),
    binary main_v3 main_v51 main_v52 (addi : (⟨S2500000, .i32⟩ : BufTy).Contents (Elt F) → (⟨S2500000, .i32⟩ : BufTy).Contents (Elt F) → (⟨S2500000, .i32⟩ : BufTy).Contents (Elt F)),
    ternary main_v50 main_v52 main_v3 main_v53 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v53 main_v54 (broadcastInDim S2500000x1 ![0] bcast_S2500000_S2500000x1_0 : (⟨S2500000, .i32⟩ : BufTy).Contents (Elt F) → (⟨S2500000x1, .i32⟩ : BufTy).Contents (Elt F)),
    binary main_v48 main_v54 main_v55 ((fun x i => Host.gather gather_S100000x32_S2500000x1_S2500000x32_1_0_n_n_0_1_132 x i) : (⟨S100000x32, .f32⟩ : BufTy).Contents (Elt F) → (⟨S2500000x1, .i32⟩ : BufTy).Contents (Elt F) → (⟨S2500000x32, .f32⟩ : BufTy).Contents (Elt F)),
    unary main_v30 main_v56 (broadcastInDim S2500000x32 ![0, 1] bcast_S2500000x1_S2500000x32_0_1 : (⟨S2500000x1, .f32⟩ : BufTy).Contents (Elt F) → (⟨S2500000x32, .f32⟩ : BufTy).Contents (Elt F)),
    binary main_v56 main_v55 main_v57 (mulf : (⟨S2500000x32, .f32⟩ : BufTy).Contents (Elt F) → (⟨S2500000x32, .f32⟩ : BufTy).Contents (Elt F) → (⟨S2500000x32, .f32⟩ : BufTy).Contents (Elt F)),
    nullary main_cst_11 (constant S_ .f32 0x00000000#32),
    unary main_cst_11 main_v58 (broadcastInDim S100000x32 ![] bcast_S_S100000x32 : (⟨S_, .f32⟩ : BufTy).Contents (Elt F) → (⟨S100000x32, .f32⟩ : BufTy).Contents (Elt F)),
    unary main_v6 main_v59 (broadcastInDim S2500000x1 ![0] bcast_S2500000_S2500000x1_0 : (⟨S2500000, .i32⟩ : BufTy).Contents (Elt F) → (⟨S2500000x1, .i32⟩ : BufTy).Contents (Elt F)),
    ternary main_v58 main_v59 main_v57 main_v60 ((fun x i u => Host.scatterAdd scatter_S100000x32_S2500000x1_S2500000x32_1_0_0_1 x i u) : (⟨S100000x32, .f32⟩ : BufTy).Contents (Elt F) → (⟨S2500000x1, .i32⟩ : BufTy).Contents (Elt F) → (⟨S2500000x32, .f32⟩ : BufTy).Contents (Elt F) → (⟨S100000x32, .f32⟩ : BufTy).Contents (Elt F)),
    unary main_arg5 main_v61 (broadcastInDim S1x32 ![1] bcast_S32_S1x32_1 : (⟨S32, .f32⟩ : BufTy).Contents (Elt F) → (⟨S1x32, .f32⟩ : BufTy).Contents (Elt F)),
    unary main_v61 main_v62 (broadcastInDim S100000x32 ![0, 1] bcast_S1x32_S100000x32_0_1 : (⟨S1x32, .f32⟩ : BufTy).Contents (Elt F) → (⟨S100000x32, .f32⟩ : BufTy).Contents (Elt F)),
    binary main_v60 main_v62 main_v63 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x32, .f32⟩) main_call2_v0) (broadcastInDim S100000x32 ![] bcast_S_S100000x32),
    TRef.binary (TRef.of (T := ⟨S100000x32, .f32⟩) main_v63) (TRef.of (T := ⟨S100000x32, .f32⟩) main_call2_v0) (TRef.of (T := ⟨S100000x32, .f32⟩) main_v64) maximumf,
    binary main_v64 main_arg6 main_v65 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    nullary main_c_12 (constantI S_ 32 0#32),
    unary main_c_12 main_v66 (broadcastInDim S2500000 ![] bcast_S_S2500000 : (⟨S_, .i32⟩ : BufTy).Contents (Elt F) → (⟨S2500000, .i32⟩ : BufTy).Contents (Elt F)),
    binary main_v3 main_v66 main_v67 (cmpi .slt : (⟨S2500000, .i32⟩ : BufTy).Contents (Elt F) → (⟨S2500000, .i32⟩ : BufTy).Contents (Elt F) → (⟨S2500000, .i1⟩ : BufTy).Contents (Elt F)),
    nullary main_c_13 (constantI S_ 32 100000#32),
    unary main_c_13 main_v68 (broadcastInDim S2500000 ![] bcast_S_S2500000 : (⟨S_, .i32⟩ : BufTy).Contents (Elt F) → (⟨S2500000, .i32⟩ : BufTy).Contents (Elt F)),
    binary main_v3 main_v68 main_v69 (addi : (⟨S2500000, .i32⟩ : BufTy).Contents (Elt F) → (⟨S2500000, .i32⟩ : BufTy).Contents (Elt F) → (⟨S2500000, .i32⟩ : BufTy).Contents (Elt F)),
    ternary main_v67 main_v69 main_v3 main_v70 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    unary main_v70 main_v71 (broadcastInDim S2500000x1 ![0] bcast_S2500000_S2500000x1_0 : (⟨S2500000, .i32⟩ : BufTy).Contents (Elt F) → (⟨S2500000x1, .i32⟩ : BufTy).Contents (Elt F)),
    binary main_v65 main_v71 main_v72 ((fun x i => Host.gather gather_S100000x1_S2500000x1_S2500000x1_1_0_n_n_0_1_11 x i) : (⟨S100000x1, .f32⟩ : BufTy).Contents (Elt F) → (⟨S2500000x1, .i32⟩ : BufTy).Contents (Elt F) → (⟨S2500000x1, .f32⟩ : BufTy).Contents (Elt F)),
    binary main_v30 main_v72 main_v73 (mulf : (⟨S2500000x1, .f32⟩ : BufTy).Contents (Elt F) → (⟨S2500000x1, .f32⟩ : BufTy).Contents (Elt F) → (⟨S2500000x1, .f32⟩ : BufTy).Contents (Elt F)),
    nullary main_cst_14 (constant S_ .f32 0x00000000#32),
    unary main_cst_14 main_v74 (broadcastInDim S100000x1 ![] bcast_S_S100000x1 : (⟨S_, .f32⟩ : BufTy).Contents (Elt F) → (⟨S100000x1, .f32⟩ : BufTy).Contents (Elt F)),
    unary main_v6 main_v75 (broadcastInDim S2500000x1 ![0] bcast_S2500000_S2500000x1_0 : (⟨S2500000, .i32⟩ : BufTy).Contents (Elt F) → (⟨S2500000x1, .i32⟩ : BufTy).Contents (Elt F)),
    ternary main_v74 main_v75 main_v73 main_v76 ((fun x i u => Host.scatterAdd scatter_S100000x1_S2500000x1_S2500000x1_1_0_0_1 x i u) : (⟨S100000x1, .f32⟩ : BufTy).Contents (Elt F) → (⟨S2500000x1, .i32⟩ : BufTy).Contents (Elt F) → (⟨S2500000x1, .f32⟩ : BufTy).Contents (Elt F) → (⟨S100000x1, .f32⟩ : BufTy).Contents (Elt F)),
    unary main_arg7 main_v77 (broadcastInDim S1x1 ![1] bcast_S1_S1x1_1 : (⟨S1, .f32⟩ : BufTy).Contents (Elt F) → (⟨S1x1, .f32⟩ : BufTy).Contents (Elt F)),
    unary main_v77 main_v78 (broadcastInDim S100000x1 ![0, 1] bcast_S1x1_S100000x1_0_1 : (⟨S1x1, .f32⟩ : BufTy).Contents (Elt F) → (⟨S100000x1, .f32⟩ : BufTy).Contents (Elt F)),
    binary main_v76 main_v78 main_v79 (addf : (⟨S100000x1, .f32⟩ : BufTy).Contents (Elt F) → (⟨S100000x1, .f32⟩ : BufTy).Contents (Elt F) → (⟨S100000x1, .f32⟩ : BufTy).Contents (Elt F)),
    reshape main_v79 main_v80 rfl shapeCasts_S100000x1_S100000 ]

/-- The line is its parts in order. -/
theorem ops_split : (ops : List (HloOp τ sig (Elt F))) = P0 ++ (P1 ++ (P2 ++ (D1 ++ (G1 ++ (E1 ++ (D2 ++ (G2 ++ (E2 ++ (D3 ++ (G3 ++ (E3))))))))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., unary_bufs_sub .., binary_bufs_sub .., reshape_bufs_sub ..⟩

set_option maxRecDepth 8192 in
set_option maxHeartbeats 40000000 in
/-- Every weakly fair execution of the reference terminates with every buffer at the fold of the line over the launch
    memory. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The fold of the line is the fold of its parts, one after the other. -/
theorem fold_parts (V : Valuation τ sig (Elt F)) :
    after ops V = after E3 (after G3 (after D3 (after E2 (after G2 (after D2 (after E1 (after G1 (after D1 (after P2 (after P1 (after P0 (V)))))))))))) := by
  rw [ops_split]
  simp only [StableHlo.after_append]

/-! ## What each part leaves unchanged -/

/-- The references part `P0` writes. -/
abbrev P0_W : List (Ref sig .tc) := [main_v0, main_v1, main_v2, main_v3, main_v4, main_v5, main_v6, main_cst, main_v7, main_cst_0, main_v8, main_v9, main_v10, main_cst_1, main_v11, main_v12, main_v13, main_cst_2]
theorem P0_writes : (P0 : List (HloOp τ sig (Elt F))).Forall fun op => op.writes ⊆ (P0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_⟩ <;> exact List.mem_map_of_mem (by decide))
/-- A buffer the part does not write keeps its contents. -/
theorem P0_keeps (V : Valuation τ sig (Elt F)) (r : Ref sig .tc) (h : r ∉ P0_W) :
    after P0 V (Proc.devRef .tc r) = V (Proc.devRef .tc r) :=
  after_of_writes_sub P0 V P0_writes h

/-- The references part `P1` writes. -/
abbrev P1_W : List (Ref sig .tc) := [main_call0_v0, main_call0_v1, main_v14]
theorem P1_writes : (P1 : List (HloOp τ sig (Elt F))).Forall fun op => op.writes ⊆ (P1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_⟩ <;> exact List.mem_map_of_mem (by decide))
/-- A buffer the part does not write keeps its contents. -/
theorem P1_keeps (V : Valuation τ sig (Elt F)) (r : Ref sig .tc) (h : r ∉ P1_W) :
    after P1 V (Proc.devRef .tc r) = V (Proc.devRef .tc r) :=
  after_of_writes_sub P1 V P1_writes h

/-- The references part `P2` writes. -/
abbrev P2_W : List (Ref sig .tc) := [main_c, main_v15, main_v16, main_c_3, main_v17, main_v18, main_v19, main_v20, main_v21, main_c_4, main_v22, main_v23, main_c_5, main_v24, main_v25, main_v26, main_v27, main_v28, main_v29, main_v30]
theorem P2_writes : (P2 : List (HloOp τ sig (Elt F))).Forall fun op => op.writes ⊆ (P2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_⟩ <;> exact List.mem_map_of_mem (by decide))
/-- A buffer the part does not write keeps its contents. -/
theorem P2_keeps (V : Valuation τ sig (Elt F)) (r : Ref sig .tc) (h : r ∉ P2_W) :
    after P2 V (Proc.devRef .tc r) = V (Proc.devRef .tc r) :=
  after_of_writes_sub P2 V P2_writes h

/-- The references part `D1` writes. -/
abbrev D1_W : List (Ref sig .tc) := [main_v31]
theorem D1_writes : (D1 : List (HloOp τ sig (Elt F))).Forall fun op => op.writes ⊆ (D1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the part does not write keeps its contents. -/
theorem D1_keeps (V : Valuation τ sig (Elt F)) (r : Ref sig .tc) (h : r ∉ D1_W) :
    after D1 V (Proc.devRef .tc r) = V (Proc.devRef .tc r) :=
  after_of_writes_sub D1 V D1_writes h

/-- The references part `G1` writes. -/
abbrev G1_W : List (Ref sig .tc) := [main_c_6, main_v32, main_v33, main_c_7, main_v34, main_v35, main_v36, main_v37, main_v38, main_v39, main_v40, main_cst_8, main_v41, main_v42, main_v43]
theorem G1_writes : (G1 : List (HloOp τ sig (Elt F))).Forall fun op => op.writes ⊆ (G1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_⟩ <;> exact List.mem_map_of_mem (by decide))
/-- A buffer the part does not write keeps its contents. -/
theorem G1_keeps (V : Valuation τ sig (Elt F)) (r : Ref sig .tc) (h : r ∉ G1_W) :
    after G1 V (Proc.devRef .tc r) = V (Proc.devRef .tc r) :=
  after_of_writes_sub G1 V G1_writes h

/-- The references part `E1` writes. -/
abbrev E1_W : List (Ref sig .tc) := [main_v44, main_v45, main_v46, main_call1_cst, main_call1_v0, main_v47]
theorem E1_writes : (E1 : List (HloOp τ sig (Elt F))).Forall fun op => op.writes ⊆ (E1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_⟩ <;> exact List.mem_map_of_mem (by decide))
/-- A buffer the part does not write keeps its contents. -/
theorem E1_keeps (V : Valuation τ sig (Elt F)) (r : Ref sig .tc) (h : r ∉ E1_W) :
    after E1 V (Proc.devRef .tc r) = V (Proc.devRef .tc r) :=
  after_of_writes_sub E1 V E1_writes h

/-- The references part `D2` writes. -/
abbrev D2_W : List (Ref sig .tc) := [main_v48]
theorem D2_writes : (D2 : List (HloOp τ sig (Elt F))).Forall fun op => op.writes ⊆ (D2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the part does not write keeps its contents. -/
theorem D2_keeps (V : Valuation τ sig (Elt F)) (r : Ref sig .tc) (h : r ∉ D2_W) :
    after D2 V (Proc.devRef .tc r) = V (Proc.devRef .tc r) :=
  after_of_writes_sub D2 V D2_writes h

/-- The references part `G2` writes. -/
abbrev G2_W : List (Ref sig .tc) := [main_c_9, main_v49, main_v50, main_c_10, main_v51, main_v52, main_v53, main_v54, main_v55, main_v56, main_v57, main_cst_11, main_v58, main_v59, main_v60]
theorem G2_writes : (G2 : List (HloOp τ sig (Elt F))).Forall fun op => op.writes ⊆ (G2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_⟩ <;> exact List.mem_map_of_mem (by decide))
/-- A buffer the part does not write keeps its contents. -/
theorem G2_keeps (V : Valuation τ sig (Elt F)) (r : Ref sig .tc) (h : r ∉ G2_W) :
    after G2 V (Proc.devRef .tc r) = V (Proc.devRef .tc r) :=
  after_of_writes_sub G2 V G2_writes h

/-- The references part `E2` writes. -/
abbrev E2_W : List (Ref sig .tc) := [main_v61, main_v62, main_v63, main_call2_cst, main_call2_v0, main_v64]
theorem E2_writes : (E2 : List (HloOp τ sig (Elt F))).Forall fun op => op.writes ⊆ (E2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_⟩ <;> exact List.mem_map_of_mem (by decide))
/-- A buffer the part does not write keeps its contents. -/
theorem E2_keeps (V : Valuation τ sig (Elt F)) (r : Ref sig .tc) (h : r ∉ E2_W) :
    after E2 V (Proc.devRef .tc r) = V (Proc.devRef .tc r) :=
  after_of_writes_sub E2 V E2_writes h

/-- The references part `D3` writes. -/
abbrev D3_W : List (Ref sig .tc) := [main_v65]
theorem D3_writes : (D3 : List (HloOp τ sig (Elt F))).Forall fun op => op.writes ⊆ (D3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the part does not write keeps its contents. -/
theorem D3_keeps (V : Valuation τ sig (Elt F)) (r : Ref sig .tc) (h : r ∉ D3_W) :
    after D3 V (Proc.devRef .tc r) = V (Proc.devRef .tc r) :=
  after_of_writes_sub D3 V D3_writes h

/-- The references part `G3` writes. -/
abbrev G3_W : List (Ref sig .tc) := [main_c_12, main_v66, main_v67, main_c_13, main_v68, main_v69, main_v70, main_v71, main_v72, main_v73, main_cst_14, main_v74, main_v75, main_v76]
theorem G3_writes : (G3 : List (HloOp τ sig (Elt F))).Forall fun op => op.writes ⊆ (G3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_⟩ <;> exact List.mem_map_of_mem (by decide))
/-- A buffer the part does not write keeps its contents. -/
theorem G3_keeps (V : Valuation τ sig (Elt F)) (r : Ref sig .tc) (h : r ∉ G3_W) :
    after G3 V (Proc.devRef .tc r) = V (Proc.devRef .tc r) :=
  after_of_writes_sub G3 V G3_writes h

/-- The references part `E3` writes. -/
abbrev E3_W : List (Ref sig .tc) := [main_v77, main_v78, main_v79, main_v80]
theorem E3_writes : (E3 : List (HloOp τ sig (Elt F))).Forall fun op => op.writes ⊆ (E3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_⟩ <;> exact List.mem_map_of_mem (by decide))
/-- A buffer the part does not write keeps its contents. -/
theorem E3_keeps (V : Valuation τ sig (Elt F)) (r : Ref sig .tc) (h : r ∉ E3_W) :
    after E3 V (Proc.devRef .tc r) = V (Proc.devRef .tc r) :=
  after_of_writes_sub E3 V E3_writes h

end Cert.ReferenceIdeal.Hand

end
-- ==== Proof.RefHostA.lean ====
/-
  The reference's first three parts: the graph's data, each buffer as a function of what its part reads.

  The sources and the targets are the edge list's rows with the nodes' own numbers appended; the degree adds a one at
  every target; the weight is the degree's reciprocal square root where the degree is positive and zero elsewhere; a
  message's coefficient is the product of its endpoints' weights. The operations are the kernel program's own, so each
  buffer is the specification's function by unfolding.
-/
import proofs.«169840_j11390253269707_1_alg».proof.Proof.RefOps
import proofs.«169840_j11390253269707_1_alg».proof.Proof.Spec

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.Spec Cert.Lib.PlainDot Cert.Lib.BiasRect Cert.Lib.BiasRow

variable (V : Valuation τ sig (Elt Ideal))

/-- The message sources … -/
theorem sources_eq : after P0 V (Proc.devRef .tc main_v3) = sources (V (Proc.devRef .tc main_arg1)) := by
  after_results; rfl
/-- … the message targets … -/
theorem targets_eq : after P0 V (Proc.devRef .tc main_v6) = targets (V (Proc.devRef .tc main_arg1)) := by
  after_results; rfl
/-- … where the degree is positive … -/
theorem positive_eq : after P0 V (Proc.devRef .tc main_v12)
    = cmpf .ogt (degree (targets (V (Proc.devRef .tc main_arg1)))) (broadcastInDim Cert.KernelIdeal.S100000 ![] Cert.KernelIdeal.Gen.bcast_S_S100000 (constant (F := Ideal) Cert.KernelIdeal.S_ .f32 0x00000000#32)) := by
  after_results; rfl
/-- … the degree's reciprocal square root … -/
theorem rsqrt_eq : after P0 V (Proc.devRef .tc main_v13) = Host.rsqrt (degree (targets (V (Proc.devRef .tc main_arg1)))) := by
  after_results; rfl
/-- … and a zero. -/
theorem zero_eq : after P0 V (Proc.devRef .tc main_cst_2) = constant (F := Ideal) Cert.KernelIdeal.S_ .f32 0x00000000#32 := by
  after_results

/-- The choice between the two. -/
theorem where_eq : after P1 V (Proc.devRef .tc main_v14)
    = select (V (Proc.devRef .tc main_v12)) (V (Proc.devRef .tc main_v13))
        (broadcastInDim Cert.KernelIdeal.S100000 ![] Cert.KernelIdeal.Gen.bcast_S_S100000 (id (V (Proc.devRef .tc main_cst_2)))) := by
  after_results; rfl

set_option maxHeartbeats 4000000 in
/-- The messages' coefficients from the nodes' weights. -/
theorem coeff_eq : after P2 V (Proc.devRef .tc main_v30)
    = coeffOf (V (Proc.devRef .tc main_v14)) (V (Proc.devRef .tc main_v3)) (V (Proc.devRef .tc main_v6)) := by
  after_results; rfl

end Cert.ReferenceIdeal.Hand

end
-- ==== Proof.RefHostB1.lean ====
/-
  The reference's aggregation of layer 1: the rows of the layer's product at the message sources, scaled by the
  messages' coefficients, added at the message targets.
-/
import proofs.«169840_j11390253269707_1_alg».proof.Proof.RefOps
import proofs.«169840_j11390253269707_1_alg».proof.Proof.Spec

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.Spec Cert.Lib.PlainDot Cert.Lib.BiasRect Cert.Lib.BiasRow

variable (V : Valuation τ sig (Elt Ideal))

set_option maxHeartbeats 4000000 in
theorem aggregate_1 : after G1 V (Proc.devRef .tc main_v43)
    = aggregate (V (Proc.devRef .tc main_v31)) (V (Proc.devRef .tc main_v3)) (V (Proc.devRef .tc main_v6)) (V (Proc.devRef .tc main_v30)) := by
  after_results; rfl

end Cert.ReferenceIdeal.Hand

end
-- ==== Proof.RefHostB2.lean ====
/-
  The reference's aggregation of layer 2: the rows of the layer's product at the message sources, scaled by the
  messages' coefficients, added at the message targets.
-/
import proofs.«169840_j11390253269707_1_alg».proof.Proof.RefOps
import proofs.«169840_j11390253269707_1_alg».proof.Proof.Spec

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.Spec Cert.Lib.PlainDot Cert.Lib.BiasRect Cert.Lib.BiasRow

variable (V : Valuation τ sig (Elt Ideal))

set_option maxHeartbeats 4000000 in
theorem aggregate_2 : after G2 V (Proc.devRef .tc main_v60)
    = aggregate (V (Proc.devRef .tc main_v48)) (V (Proc.devRef .tc main_v3)) (V (Proc.devRef .tc main_v6)) (V (Proc.devRef .tc main_v30)) := by
  after_results; rfl

end Cert.ReferenceIdeal.Hand

end
-- ==== Proof.RefHostB3.lean ====
/-
  The reference's aggregation of layer 3: the rows of the layer's product at the message sources, scaled by the
  messages' coefficients, added at the message targets.
-/
import proofs.«169840_j11390253269707_1_alg».proof.Proof.RefOps
import proofs.«169840_j11390253269707_1_alg».proof.Proof.Spec

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.Spec Cert.Lib.PlainDot Cert.Lib.BiasRect Cert.Lib.BiasRow

variable (V : Valuation τ sig (Elt Ideal))

set_option maxHeartbeats 4000000 in
theorem aggregate_3 : after G3 V (Proc.devRef .tc main_v76)
    = aggregate1 (V (Proc.devRef .tc main_v65)) (V (Proc.devRef .tc main_v3)) (V (Proc.devRef .tc main_v6)) (V (Proc.devRef .tc main_v30)) := by
  after_results; rfl

end Cert.ReferenceIdeal.Hand

end
-- ==== Proof.RefHostC.lean ====
/-
  The reference's products and bias steps, each as the index-by-index function it is on the extended reals.

  A `dot_general` contracting the left operand's second axis with the right's first is the matrix product; a sum with
  a vector spread over the rows, followed by a maximum with a spread zero, is the biased and rectified array; without
  the maximum it is the biased array, which the last part recasts as a vector.
-/
import proofs.«169840_j11390253269707_1_alg».proof.Proof.RefOps
import proofs.«169840_j11390253269707_1_alg».proof.Proof.Spec

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.Spec Cert.Lib.PlainDot Cert.Lib.BiasRect Cert.Lib.BiasRow

variable (V : Valuation τ sig (Elt Ideal))

/-- The first layer's product. -/
theorem product_1 : after D1 V (Proc.devRef .tc main_v31)
    = rowsByCols (M := 100000) (K := 2) (N := 32) (V (Proc.devRef .tc main_arg0)) (V (Proc.devRef .tc main_arg2)) := by
  after_results
  exact dotGeneral_eq (M := 100000) (K := 2) (N := 32) _ rfl none _ _ _
/-- The second layer's product. -/
theorem product_2 : after D2 V (Proc.devRef .tc main_v48)
    = rowsByCols (M := 100000) (K := 32) (N := 32) (V (Proc.devRef .tc main_v47)) (V (Proc.devRef .tc main_arg4)) := by
  after_results
  exact dotGeneral_eq (M := 100000) (K := 32) (N := 32) _ rfl none _ _ _
/-- The third layer's product. -/
theorem product_3 : after D3 V (Proc.devRef .tc main_v65)
    = rowsByCols (M := 100000) (K := 32) (N := 1) (V (Proc.devRef .tc main_v64)) (V (Proc.devRef .tc main_arg6)) := by
  after_results
  exact dotGeneral_eq (M := 100000) (K := 32) (N := 1) _ rfl none _ _ _

/-- The first layer's bias and rectification. -/
theorem rectified_1 : after E1 V (Proc.devRef .tc main_v47)
    = rectified (n := 100000) (c := 32) (V (Proc.devRef .tc main_v43)) (V (Proc.devRef .tc main_arg3)) := by
  after_results
  exact Eq.trans rfl (host_rectified (n := 100000) (c := 32) (V (Proc.devRef .tc main_v43)) (V (Proc.devRef .tc main_arg3)) bcast_S32_S1x32_1 bcast_S1x32_S100000x32_0_1 bcast_S_S100000x32)
/-- The second layer's bias and rectification. -/
theorem rectified_2 : after E2 V (Proc.devRef .tc main_v64)
    = rectified (n := 100000) (c := 32) (V (Proc.devRef .tc main_v60)) (V (Proc.devRef .tc main_arg5)) := by
  after_results
  exact Eq.trans rfl (host_rectified (n := 100000) (c := 32) (V (Proc.devRef .tc main_v60)) (V (Proc.devRef .tc main_arg5)) bcast_S32_S1x32_1 bcast_S1x32_S100000x32_0_1 bcast_S_S100000x32)
/-- The third layer's bias, and the column as a vector. -/
theorem biased_3 : after E3 V (Proc.devRef .tc main_v80)
    = shapeCast Cert.KernelIdeal.S100000 (biased (n := 100000) (c := 1) (V (Proc.devRef .tc main_v76)) (V (Proc.devRef .tc main_arg7))) Cert.KernelIdeal.Gen.shapeCasts_S100000x1_S100000 := by
  after_results
  exact congrArg (fun x => shapeCast Cert.KernelIdeal.S100000 x Cert.KernelIdeal.Gen.shapeCasts_S100000x1_S100000) (host_biased (n := 100000) (c := 1) _ _ _ _)

end Cert.ReferenceIdeal.Hand

end
-- ==== Proof.RefValue.lean ====
/-
  What the idealized reference returns: the network of the specification, of the argument arrays.

  The reference's run ends at the fold of its operations over the launch memory, and the fold is the fold of the
  twelve parts in order. Read buffer by buffer: the message sources, targets and coefficients are computed by the first
  three parts and written by no later one; each argument array is written by none. Each layer's product, aggregation
  and bias step is the function the specification names. Composed, the result buffer ends at `network` of the eight
  arguments.
-/
import proofs.«169840_j11390253269707_1_alg».proof.Proof.RefOps
import proofs.«169840_j11390253269707_1_alg».proof.Proof.RefHostA
import proofs.«169840_j11390253269707_1_alg».proof.Proof.RefHostB1
import proofs.«169840_j11390253269707_1_alg».proof.Proof.RefHostB2
import proofs.«169840_j11390253269707_1_alg».proof.Proof.RefHostB3
import proofs.«169840_j11390253269707_1_alg».proof.Proof.RefHostC

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.Spec Cert.Lib.PlainDot Cert.Lib.BiasRect Cert.Lib.BiasRow

variable (m : (ℓ : Loc nD τ sig) → Buf (Elt Ideal) ℓ) (c : Dev nD)

/-! ## The buffers between the parts -/

/-- The launch memory. -/
abbrev U0 (c : Dev nD) : Valuation τ sig (Elt Ideal) := launchContents m c
/-- The buffers after part `P0`. -/
abbrev U1 (c : Dev nD) : Valuation τ sig (Elt Ideal) := after P0 (U0 m c)
/-- The buffers after part `P1`. -/
abbrev U2 (c : Dev nD) : Valuation τ sig (Elt Ideal) := after P1 (U1 m c)
/-- The buffers after part `P2`. -/
abbrev U3 (c : Dev nD) : Valuation τ sig (Elt Ideal) := after P2 (U2 m c)
/-- The buffers after part `D1`. -/
abbrev U4 (c : Dev nD) : Valuation τ sig (Elt Ideal) := after D1 (U3 m c)
/-- The buffers after part `G1`. -/
abbrev U5 (c : Dev nD) : Valuation τ sig (Elt Ideal) := after G1 (U4 m c)
/-- The buffers after part `E1`. -/
abbrev U6 (c : Dev nD) : Valuation τ sig (Elt Ideal) := after E1 (U5 m c)
/-- The buffers after part `D2`. -/
abbrev U7 (c : Dev nD) : Valuation τ sig (Elt Ideal) := after D2 (U6 m c)
/-- The buffers after part `G2`. -/
abbrev U8 (c : Dev nD) : Valuation τ sig (Elt Ideal) := after G2 (U7 m c)
/-- The buffers after part `E2`. -/
abbrev U9 (c : Dev nD) : Valuation τ sig (Elt Ideal) := after E2 (U8 m c)
/-- The buffers after part `D3`. -/
abbrev U10 (c : Dev nD) : Valuation τ sig (Elt Ideal) := after D3 (U9 m c)
/-- The buffers after part `G3`. -/
abbrev U11 (c : Dev nD) : Valuation τ sig (Elt Ideal) := after G3 (U10 m c)
/-- The buffers after part `E3`. -/
abbrev U12 (c : Dev nD) : Valuation τ sig (Elt Ideal) := after E3 (U11 m c)

/-! ## The argument arrays, where they are read -/

theorem arg0_at3 : U3 m c (Proc.devRef .tc main_arg0) = (m ((c.tc : Thread nD τ).loc main_arg0)) :=
  ((P2_keeps (U2 m c) main_arg0 (by decide)).trans ((P1_keeps (U1 m c) main_arg0 (by decide)).trans (P0_keeps (U0 m c) main_arg0 (by decide)))).trans rfl
theorem arg2_at3 : U3 m c (Proc.devRef .tc main_arg2) = (m ((c.tc : Thread nD τ).loc main_arg2)) :=
  ((P2_keeps (U2 m c) main_arg2 (by decide)).trans ((P1_keeps (U1 m c) main_arg2 (by decide)).trans (P0_keeps (U0 m c) main_arg2 (by decide)))).trans rfl
theorem arg3_at5 : U5 m c (Proc.devRef .tc main_arg3) = (m ((c.tc : Thread nD τ).loc main_arg3)) :=
  ((G1_keeps (U4 m c) main_arg3 (by decide)).trans ((D1_keeps (U3 m c) main_arg3 (by decide)).trans ((P2_keeps (U2 m c) main_arg3 (by decide)).trans ((P1_keeps (U1 m c) main_arg3 (by decide)).trans (P0_keeps (U0 m c) main_arg3 (by decide)))))).trans rfl
theorem arg4_at6 : U6 m c (Proc.devRef .tc main_arg4) = (m ((c.tc : Thread nD τ).loc main_arg4)) :=
  ((E1_keeps (U5 m c) main_arg4 (by decide)).trans ((G1_keeps (U4 m c) main_arg4 (by decide)).trans ((D1_keeps (U3 m c) main_arg4 (by decide)).trans ((P2_keeps (U2 m c) main_arg4 (by decide)).trans ((P1_keeps (U1 m c) main_arg4 (by decide)).trans (P0_keeps (U0 m c) main_arg4 (by decide))))))).trans rfl
theorem arg5_at8 : U8 m c (Proc.devRef .tc main_arg5) = (m ((c.tc : Thread nD τ).loc main_arg5)) :=
  ((G2_keeps (U7 m c) main_arg5 (by decide)).trans ((D2_keeps (U6 m c) main_arg5 (by decide)).trans ((E1_keeps (U5 m c) main_arg5 (by decide)).trans ((G1_keeps (U4 m c) main_arg5 (by decide)).trans ((D1_keeps (U3 m c) main_arg5 (by decide)).trans ((P2_keeps (U2 m c) main_arg5 (by decide)).trans ((P1_keeps (U1 m c) main_arg5 (by decide)).trans (P0_keeps (U0 m c) main_arg5 (by decide))))))))).trans rfl
theorem arg6_at9 : U9 m c (Proc.devRef .tc main_arg6) = (m ((c.tc : Thread nD τ).loc main_arg6)) :=
  ((E2_keeps (U8 m c) main_arg6 (by decide)).trans ((G2_keeps (U7 m c) main_arg6 (by decide)).trans ((D2_keeps (U6 m c) main_arg6 (by decide)).trans ((E1_keeps (U5 m c) main_arg6 (by decide)).trans ((G1_keeps (U4 m c) main_arg6 (by decide)).trans ((D1_keeps (U3 m c) main_arg6 (by decide)).trans ((P2_keeps (U2 m c) main_arg6 (by decide)).trans ((P1_keeps (U1 m c) main_arg6 (by decide)).trans (P0_keeps (U0 m c) main_arg6 (by decide)))))))))).trans rfl
theorem arg7_at11 : U11 m c (Proc.devRef .tc main_arg7) = (m ((c.tc : Thread nD τ).loc main_arg7)) :=
  ((G3_keeps (U10 m c) main_arg7 (by decide)).trans ((D3_keeps (U9 m c) main_arg7 (by decide)).trans ((E2_keeps (U8 m c) main_arg7 (by decide)).trans ((G2_keeps (U7 m c) main_arg7 (by decide)).trans ((D2_keeps (U6 m c) main_arg7 (by decide)).trans ((E1_keeps (U5 m c) main_arg7 (by decide)).trans ((G1_keeps (U4 m c) main_arg7 (by decide)).trans ((D1_keeps (U3 m c) main_arg7 (by decide)).trans ((P2_keeps (U2 m c) main_arg7 (by decide)).trans ((P1_keeps (U1 m c) main_arg7 (by decide)).trans (P0_keeps (U0 m c) main_arg7 (by decide)))))))))))).trans rfl

/-! ## The graph's data: computed by the first three parts, unchanged after -/

theorem sources_at3 : U3 m c (Proc.devRef .tc main_v3) = sources (m ((c.tc : Thread nD τ).loc main_arg1)) :=
  ((P2_keeps (U2 m c) main_v3 (by decide)).trans (P1_keeps (U1 m c) main_v3 (by decide))).trans (sources_eq (U0 m c))
theorem targets_at3 : U3 m c (Proc.devRef .tc main_v6) = targets (m ((c.tc : Thread nD τ).loc main_arg1)) :=
  ((P2_keeps (U2 m c) main_v6 (by decide)).trans (P1_keeps (U1 m c) main_v6 (by decide))).trans (targets_eq (U0 m c))

/-- The nodes' weights after the second part. -/
theorem weight_at2 : U2 m c (Proc.devRef .tc main_v14) = weight (targets (m ((c.tc : Thread nD τ).loc main_arg1))) := by
  refine (where_eq (U1 m c)).trans ?_
  rw [show U1 m c (Proc.devRef .tc main_v12) = _ from positive_eq (U0 m c), show U1 m c (Proc.devRef .tc main_v13) = _ from rsqrt_eq (U0 m c),
    show U1 m c (Proc.devRef .tc main_cst_2) = _ from zero_eq (U0 m c)]
  rfl

theorem coeff_at3 : U3 m c (Proc.devRef .tc main_v30) = coeff (sources (m ((c.tc : Thread nD τ).loc main_arg1))) (targets (m ((c.tc : Thread nD τ).loc main_arg1))) := by
  refine (coeff_eq (U2 m c)).trans ?_
  rw [weight_at2 m c,
    show U2 m c (Proc.devRef .tc main_v3) = sources (m ((c.tc : Thread nD τ).loc main_arg1)) from (P1_keeps (U1 m c) main_v3 (by decide)).trans (sources_eq (U0 m c)),
    show U2 m c (Proc.devRef .tc main_v6) = targets (m ((c.tc : Thread nD τ).loc main_arg1)) from (P1_keeps (U1 m c) main_v6 (by decide)).trans (targets_eq (U0 m c))]
  rfl

theorem sources_at4 : U4 m c (Proc.devRef .tc main_v3) = sources (m ((c.tc : Thread nD τ).loc main_arg1)) :=
  (D1_keeps (U3 m c) main_v3 (by decide)).trans (sources_at3 m c)
theorem targets_at4 : U4 m c (Proc.devRef .tc main_v6) = targets (m ((c.tc : Thread nD τ).loc main_arg1)) :=
  (D1_keeps (U3 m c) main_v6 (by decide)).trans (targets_at3 m c)
theorem coeff_at4 : U4 m c (Proc.devRef .tc main_v30) = coeff (sources (m ((c.tc : Thread nD τ).loc main_arg1))) (targets (m ((c.tc : Thread nD τ).loc main_arg1))) :=
  (D1_keeps (U3 m c) main_v30 (by decide)).trans (coeff_at3 m c)
theorem sources_at7 : U7 m c (Proc.devRef .tc main_v3) = sources (m ((c.tc : Thread nD τ).loc main_arg1)) :=
  ((D2_keeps (U6 m c) main_v3 (by decide)).trans ((E1_keeps (U5 m c) main_v3 (by decide)).trans (G1_keeps (U4 m c) main_v3 (by decide)))).trans (sources_at4 m c)
theorem targets_at7 : U7 m c (Proc.devRef .tc main_v6) = targets (m ((c.tc : Thread nD τ).loc main_arg1)) :=
  ((D2_keeps (U6 m c) main_v6 (by decide)).trans ((E1_keeps (U5 m c) main_v6 (by decide)).trans (G1_keeps (U4 m c) main_v6 (by decide)))).trans (targets_at4 m c)
theorem coeff_at7 : U7 m c (Proc.devRef .tc main_v30) = coeff (sources (m ((c.tc : Thread nD τ).loc main_arg1))) (targets (m ((c.tc : Thread nD τ).loc main_arg1))) :=
  ((D2_keeps (U6 m c) main_v30 (by decide)).trans ((E1_keeps (U5 m c) main_v30 (by decide)).trans (G1_keeps (U4 m c) main_v30 (by decide)))).trans (coeff_at4 m c)
theorem sources_at10 : U10 m c (Proc.devRef .tc main_v3) = sources (m ((c.tc : Thread nD τ).loc main_arg1)) :=
  ((D3_keeps (U9 m c) main_v3 (by decide)).trans ((E2_keeps (U8 m c) main_v3 (by decide)).trans (G2_keeps (U7 m c) main_v3 (by decide)))).trans (sources_at7 m c)
theorem targets_at10 : U10 m c (Proc.devRef .tc main_v6) = targets (m ((c.tc : Thread nD τ).loc main_arg1)) :=
  ((D3_keeps (U9 m c) main_v6 (by decide)).trans ((E2_keeps (U8 m c) main_v6 (by decide)).trans (G2_keeps (U7 m c) main_v6 (by decide)))).trans (targets_at7 m c)
theorem coeff_at10 : U10 m c (Proc.devRef .tc main_v30) = coeff (sources (m ((c.tc : Thread nD τ).loc main_arg1))) (targets (m ((c.tc : Thread nD τ).loc main_arg1))) :=
  ((D3_keeps (U9 m c) main_v30 (by decide)).trans ((E2_keeps (U8 m c) main_v30 (by decide)).trans (G2_keeps (U7 m c) main_v30 (by decide)))).trans (coeff_at7 m c)

/-! ## The layers -/

theorem product1_at4 : U4 m c (Proc.devRef .tc main_v31) = rowsByCols (M := 100000) (K := 2) (N := 32) (m ((c.tc : Thread nD τ).loc main_arg0)) (m ((c.tc : Thread nD τ).loc main_arg2)) :=
  (product_1 (U3 m c)).trans (congrArg₂ (rowsByCols (M := 100000) (K := 2) (N := 32)) (arg0_at3 m c) (arg2_at3 m c))

theorem layer1_at6 : U6 m c (Proc.devRef .tc main_v47) = layer1 (m ((c.tc : Thread nD τ).loc main_arg0)) (m ((c.tc : Thread nD τ).loc main_arg2)) (m ((c.tc : Thread nD τ).loc main_arg3)) (sources (m ((c.tc : Thread nD τ).loc main_arg1))) (targets (m ((c.tc : Thread nD τ).loc main_arg1))) (coeff (sources (m ((c.tc : Thread nD τ).loc main_arg1))) (targets (m ((c.tc : Thread nD τ).loc main_arg1)))) := by
  refine (rectified_1 (U5 m c)).trans ?_
  rw [show U5 m c (Proc.devRef .tc main_v43) = _ from aggregate_1 (U4 m c), product1_at4 m c, sources_at4 m c, targets_at4 m c, coeff_at4 m c, arg3_at5 m c]
  rfl

theorem product2_at7 : U7 m c (Proc.devRef .tc main_v48) = rowsByCols (M := 100000) (K := 32) (N := 32) (layer1 (m ((c.tc : Thread nD τ).loc main_arg0)) (m ((c.tc : Thread nD τ).loc main_arg2)) (m ((c.tc : Thread nD τ).loc main_arg3)) (sources (m ((c.tc : Thread nD τ).loc main_arg1))) (targets (m ((c.tc : Thread nD τ).loc main_arg1))) (coeff (sources (m ((c.tc : Thread nD τ).loc main_arg1))) (targets (m ((c.tc : Thread nD τ).loc main_arg1))))) (m ((c.tc : Thread nD τ).loc main_arg4)) :=
  (product_2 (U6 m c)).trans (congrArg₂ (rowsByCols (M := 100000) (K := 32) (N := 32)) (layer1_at6 m c) (arg4_at6 m c))

theorem layer2_at9 : U9 m c (Proc.devRef .tc main_v64) = layer2 (layer1 (m ((c.tc : Thread nD τ).loc main_arg0)) (m ((c.tc : Thread nD τ).loc main_arg2)) (m ((c.tc : Thread nD τ).loc main_arg3)) (sources (m ((c.tc : Thread nD τ).loc main_arg1))) (targets (m ((c.tc : Thread nD τ).loc main_arg1))) (coeff (sources (m ((c.tc : Thread nD τ).loc main_arg1))) (targets (m ((c.tc : Thread nD τ).loc main_arg1))))) (m ((c.tc : Thread nD τ).loc main_arg4)) (m ((c.tc : Thread nD τ).loc main_arg5)) (sources (m ((c.tc : Thread nD τ).loc main_arg1))) (targets (m ((c.tc : Thread nD τ).loc main_arg1))) (coeff (sources (m ((c.tc : Thread nD τ).loc main_arg1))) (targets (m ((c.tc : Thread nD τ).loc main_arg1)))) := by
  refine (rectified_2 (U8 m c)).trans ?_
  rw [show U8 m c (Proc.devRef .tc main_v60) = _ from aggregate_2 (U7 m c), product2_at7 m c, sources_at7 m c, targets_at7 m c, coeff_at7 m c, arg5_at8 m c]
  rfl

theorem product3_at10 : U10 m c (Proc.devRef .tc main_v65) = rowsByCols (M := 100000) (K := 32) (N := 1) (layer2 (layer1 (m ((c.tc : Thread nD τ).loc main_arg0)) (m ((c.tc : Thread nD τ).loc main_arg2)) (m ((c.tc : Thread nD τ).loc main_arg3)) (sources (m ((c.tc : Thread nD τ).loc main_arg1))) (targets (m ((c.tc : Thread nD τ).loc main_arg1))) (coeff (sources (m ((c.tc : Thread nD τ).loc main_arg1))) (targets (m ((c.tc : Thread nD τ).loc main_arg1))))) (m ((c.tc : Thread nD τ).loc main_arg4)) (m ((c.tc : Thread nD τ).loc main_arg5)) (sources (m ((c.tc : Thread nD τ).loc main_arg1))) (targets (m ((c.tc : Thread nD τ).loc main_arg1))) (coeff (sources (m ((c.tc : Thread nD τ).loc main_arg1))) (targets (m ((c.tc : Thread nD τ).loc main_arg1))))) (m ((c.tc : Thread nD τ).loc main_arg6)) :=
  (product_3 (U9 m c)).trans (congrArg₂ (rowsByCols (M := 100000) (K := 32) (N := 1)) (layer2_at9 m c) (arg6_at9 m c))

/-- The result buffer after the last part is the network of the arguments. -/
theorem result_value : U12 m c (Proc.devRef .tc main_v80)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (biased_3 (U11 m c)).trans ?_
  rw [show U11 m c (Proc.devRef .tc main_v76) = _ from aggregate_3 (U10 m c), product3_at10 m c, sources_at10 m c, targets_at10 m c, coeff_at10 m c, arg7_at11 m c]
  rfl

/-- An argument array ends as launched: no part writes it. -/
theorem arg0_kept : U12 m c (Proc.devRef .tc main_arg0) = (m ((c.tc : Thread nD τ).loc main_arg0)) :=
  ((E3_keeps (U11 m c) main_arg0 (by decide)).trans ((G3_keeps (U10 m c) main_arg0 (by decide)).trans ((D3_keeps (U9 m c) main_arg0 (by decide)).trans ((E2_keeps (U8 m c) main_arg0 (by decide)).trans ((G2_keeps (U7 m c) main_arg0 (by decide)).trans ((D2_keeps (U6 m c) main_arg0 (by decide)).trans ((E1_keeps (U5 m c) main_arg0 (by decide)).trans ((G1_keeps (U4 m c) main_arg0 (by decide)).trans ((D1_keeps (U3 m c) main_arg0 (by decide)).trans ((P2_keeps (U2 m c) main_arg0 (by decide)).trans ((P1_keeps (U1 m c) main_arg0 (by decide)).trans (P0_keeps (U0 m c) main_arg0 (by decide))))))))))))).trans rfl
theorem arg1_kept : U12 m c (Proc.devRef .tc main_arg1) = (m ((c.tc : Thread nD τ).loc main_arg1)) :=
  ((E3_keeps (U11 m c) main_arg1 (by decide)).trans ((G3_keeps (U10 m c) main_arg1 (by decide)).trans ((D3_keeps (U9 m c) main_arg1 (by decide)).trans ((E2_keeps (U8 m c) main_arg1 (by decide)).trans ((G2_keeps (U7 m c) main_arg1 (by decide)).trans ((D2_keeps (U6 m c) main_arg1 (by decide)).trans ((E1_keeps (U5 m c) main_arg1 (by decide)).trans ((G1_keeps (U4 m c) main_arg1 (by decide)).trans ((D1_keeps (U3 m c) main_arg1 (by decide)).trans ((P2_keeps (U2 m c) main_arg1 (by decide)).trans ((P1_keeps (U1 m c) main_arg1 (by decide)).trans (P0_keeps (U0 m c) main_arg1 (by decide))))))))))))).trans rfl
theorem arg2_kept : U12 m c (Proc.devRef .tc main_arg2) = (m ((c.tc : Thread nD τ).loc main_arg2)) :=
  ((E3_keeps (U11 m c) main_arg2 (by decide)).trans ((G3_keeps (U10 m c) main_arg2 (by decide)).trans ((D3_keeps (U9 m c) main_arg2 (by decide)).trans ((E2_keeps (U8 m c) main_arg2 (by decide)).trans ((G2_keeps (U7 m c) main_arg2 (by decide)).trans ((D2_keeps (U6 m c) main_arg2 (by decide)).trans ((E1_keeps (U5 m c) main_arg2 (by decide)).trans ((G1_keeps (U4 m c) main_arg2 (by decide)).trans ((D1_keeps (U3 m c) main_arg2 (by decide)).trans ((P2_keeps (U2 m c) main_arg2 (by decide)).trans ((P1_keeps (U1 m c) main_arg2 (by decide)).trans (P0_keeps (U0 m c) main_arg2 (by decide))))))))))))).trans rfl
theorem arg3_kept : U12 m c (Proc.devRef .tc main_arg3) = (m ((c.tc : Thread nD τ).loc main_arg3)) :=
  ((E3_keeps (U11 m c) main_arg3 (by decide)).trans ((G3_keeps (U10 m c) main_arg3 (by decide)).trans ((D3_keeps (U9 m c) main_arg3 (by decide)).trans ((E2_keeps (U8 m c) main_arg3 (by decide)).trans ((G2_keeps (U7 m c) main_arg3 (by decide)).trans ((D2_keeps (U6 m c) main_arg3 (by decide)).trans ((E1_keeps (U5 m c) main_arg3 (by decide)).trans ((G1_keeps (U4 m c) main_arg3 (by decide)).trans ((D1_keeps (U3 m c) main_arg3 (by decide)).trans ((P2_keeps (U2 m c) main_arg3 (by decide)).trans ((P1_keeps (U1 m c) main_arg3 (by decide)).trans (P0_keeps (U0 m c) main_arg3 (by decide))))))))))))).trans rfl
theorem arg4_kept : U12 m c (Proc.devRef .tc main_arg4) = (m ((c.tc : Thread nD τ).loc main_arg4)) :=
  ((E3_keeps (U11 m c) main_arg4 (by decide)).trans ((G3_keeps (U10 m c) main_arg4 (by decide)).trans ((D3_keeps (U9 m c) main_arg4 (by decide)).trans ((E2_keeps (U8 m c) main_arg4 (by decide)).trans ((G2_keeps (U7 m c) main_arg4 (by decide)).trans ((D2_keeps (U6 m c) main_arg4 (by decide)).trans ((E1_keeps (U5 m c) main_arg4 (by decide)).trans ((G1_keeps (U4 m c) main_arg4 (by decide)).trans ((D1_keeps (U3 m c) main_arg4 (by decide)).trans ((P2_keeps (U2 m c) main_arg4 (by decide)).trans ((P1_keeps (U1 m c) main_arg4 (by decide)).trans (P0_keeps (U0 m c) main_arg4 (by decide))))))))))))).trans rfl
theorem arg5_kept : U12 m c (Proc.devRef .tc main_arg5) = (m ((c.tc : Thread nD τ).loc main_arg5)) :=
  ((E3_keeps (U11 m c) main_arg5 (by decide)).trans ((G3_keeps (U10 m c) main_arg5 (by decide)).trans ((D3_keeps (U9 m c) main_arg5 (by decide)).trans ((E2_keeps (U8 m c) main_arg5 (by decide)).trans ((G2_keeps (U7 m c) main_arg5 (by decide)).trans ((D2_keeps (U6 m c) main_arg5 (by decide)).trans ((E1_keeps (U5 m c) main_arg5 (by decide)).trans ((G1_keeps (U4 m c) main_arg5 (by decide)).trans ((D1_keeps (U3 m c) main_arg5 (by decide)).trans ((P2_keeps (U2 m c) main_arg5 (by decide)).trans ((P1_keeps (U1 m c) main_arg5 (by decide)).trans (P0_keeps (U0 m c) main_arg5 (by decide))))))))))))).trans rfl
theorem arg6_kept : U12 m c (Proc.devRef .tc main_arg6) = (m ((c.tc : Thread nD τ).loc main_arg6)) :=
  ((E3_keeps (U11 m c) main_arg6 (by decide)).trans ((G3_keeps (U10 m c) main_arg6 (by decide)).trans ((D3_keeps (U9 m c) main_arg6 (by decide)).trans ((E2_keeps (U8 m c) main_arg6 (by decide)).trans ((G2_keeps (U7 m c) main_arg6 (by decide)).trans ((D2_keeps (U6 m c) main_arg6 (by decide)).trans ((E1_keeps (U5 m c) main_arg6 (by decide)).trans ((G1_keeps (U4 m c) main_arg6 (by decide)).trans ((D1_keeps (U3 m c) main_arg6 (by decide)).trans ((P2_keeps (U2 m c) main_arg6 (by decide)).trans ((P1_keeps (U1 m c) main_arg6 (by decide)).trans (P0_keeps (U0 m c) main_arg6 (by decide))))))))))))).trans rfl
theorem arg7_kept : U12 m c (Proc.devRef .tc main_arg7) = (m ((c.tc : Thread nD τ).loc main_arg7)) :=
  ((E3_keeps (U11 m c) main_arg7 (by decide)).trans ((G3_keeps (U10 m c) main_arg7 (by decide)).trans ((D3_keeps (U9 m c) main_arg7 (by decide)).trans ((E2_keeps (U8 m c) main_arg7 (by decide)).trans ((G2_keeps (U7 m c) main_arg7 (by decide)).trans ((D2_keeps (U6 m c) main_arg7 (by decide)).trans ((E1_keeps (U5 m c) main_arg7 (by decide)).trans ((G1_keeps (U4 m c) main_arg7 (by decide)).trans ((D1_keeps (U3 m c) main_arg7 (by decide)).trans ((P2_keeps (U2 m c) main_arg7 (by decide)).trans ((P1_keeps (U1 m c) main_arg7 (by decide)).trans (P0_keeps (U0 m c) main_arg7 (by decide))))))))))))).trans rfl

/-- The run, read: the result at the network of the arguments, the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v80) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    have hf : ∀ b : Ref sig .tc, r.2.mem ((c.tc : Thread nD τ).loc b) = U12 m c (Proc.devRef .tc b) := fun b =>
      (h c b).trans (congrFun (fold_parts (launchContents m c)) _)
    exact ⟨(hf main_v80).trans (result_value m c), (hf main_arg0).trans (arg0_kept m c), (hf main_arg1).trans (arg1_kept m c), (hf main_arg2).trans (arg2_kept m c), (hf main_arg3).trans (arg3_kept m c), (hf main_arg4).trans (arg4_kept m c), (hf main_arg5).trans (arg5_kept m c), (hf main_arg6).trans (arg6_kept m c), (hf main_arg7).trans (arg7_kept m c)⟩)
    (run_fold (F := Ideal) m ρ)

end Cert.ReferenceIdeal.Hand

end
-- ==== Proof.lean ====
/-
  The certificate of a three-layer graph convolution: a kernel program of six pipelined regions among host operations
  against a plain host reference, equal on the extended reals.

  Both programs build the same graph data from the edge list (message sources and targets with the self loops, the
  degrees, the nodes' weights, the messages' coefficients) and run three layers, each a matrix product of the node
  features with the layer's weights, an aggregation of the product's rows along the messages, and the layer's bias
  (followed, in the first two layers, by a maximum with zero). The kernel program computes each product and each bias
  step in a region, 25000 rows at a time; the reference computes them as one host operation each. Rows of a product are
  the product of the rows, and the bias step acts entry by entry, so each region leaves in its result array the same
  function of the whole arrays as the reference's operation; a change of float format is the identity on the extended
  reals. The aggregations between them are the same host operations in both programs. So both results are one function
  of the arguments, `Cert.Spec.network`. No law of arithmetic is needed beyond that, and the precondition is not used.

  The frames of the two kernel programs are the generated ones; the reference's frame is its run with the result
  dropped; the idealization rewrote nothing, so `preserves` is trivial.
-/
import proofs.«169840_j11390253269707_1_alg».proof.Defs
import proofs.«169840_j11390253269707_1_alg».proof.Proof.Gen.Kernel
import proofs.«169840_j11390253269707_1_alg».proof.Proof.Gen.Kernel.Skeleton
import proofs.«169840_j11390253269707_1_alg».proof.Proof.Gen.Kernel.Launch
import proofs.«169840_j11390253269707_1_alg».proof.Proof.Gen.Kernel.Points
import proofs.«169840_j11390253269707_1_alg».proof.Proof.Gen.Kernel.Frame
import proofs.«169840_j11390253269707_1_alg».proof.Proof.Gen.KernelIdeal
import proofs.«169840_j11390253269707_1_alg».proof.Proof.Gen.KernelIdeal.Skeleton
import proofs.«169840_j11390253269707_1_alg».proof.Proof.Gen.KernelIdeal.Launch
import proofs.«169840_j11390253269707_1_alg».proof.Proof.Gen.KernelIdeal.Points
import proofs.«169840_j11390253269707_1_alg».proof.Proof.Gen.KernelIdeal.Frame
import proofs.«169840_j11390253269707_1_alg».proof.Proof.Gen.ReferenceIdeal
import proofs.«169840_j11390253269707_1_alg».proof.Proof.Gen.Pre_finite_inputs
import proofs.«169840_j11390253269707_1_alg».proof.Proof.KernelValue
import proofs.«169840_j11390253269707_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Hand.run m ρ)

/-- Both programs end with the result at `network` of their arguments, and the arguments agree. -/
theorem algebraic : Cert.algebraic_KernelIdeal_ReferenceIdeal := by
  intro m ρ m' ρ' _ hagree
  refine ⟨fun c => Cert.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
